-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64 : Shape := ⟨2, ![1024, 64]⟩
abbrev S3x64x64 : Shape := ⟨3, ![3, 64, 64]⟩
abbrev S3x64 : Shape := ⟨2, ![3, 64]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part2 {F : FTy → Type} [FloatOps F] (main_arg7 : FVec F S3x64 .f32) (main_v33 : IVec S_ 1) : IVec S_ 1 :=
  let main_v34 : FVec F S3x64 .f32 := Host.absf main_arg7
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  main_v38

def fn_part1 {F : FTy → Type} [FloatOps F] (main_arg4 : FVec F S3x64x64 .f32) (main_arg5 : FVec F S3x64 .f32) (main_arg6 : FVec F S3x64x64 .f32) (main_arg7 : FVec F S3x64 .f32) (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  let main_v19 : FVec F S3x64x64 .f32 := Host.absf main_arg4
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S3x64 .f32 := Host.absf main_arg5
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x64x64 .f32 := Host.absf main_arg6
  let main_cst_10 : FVec F S_ .f32 := constant S_ .f32 0x7F800000#32
  let main_v30 : FVec F S3x64x64 .f32 := broadcastInDim S3x64x64 ![] bcast_S_S3x64x64 main_cst_10
  let main_v31 : IVec S3x64x64 1 := cmpf .olt main_v29 main_v30
  let main_c_11 : IVec S_ 1 := constantI S_ 1 1#1
  let main_v32 : IVec S_ 1 := (fun x v => Host.reduce IntOp.andi x v reducesTo_S3x64x64_S_d0_1_2 h_S_) main_v31 main_c_11
  let main_v33 : IVec S_ 1 := andi main_v28 main_v32
  fn_part2 (F := F) main_arg7 main_v33

def fn {F : FTy → Type} [FloatOps F] (main_arg0 : FVec F S1024x64 .f32) (main_arg1 : FVec F S1024x64 .f32) (main_arg2 : FVec F S1024x64 .f32) (main_arg3 : FVec F S1024x64 .f32) (main_arg4 : FVec F S3x64x64 .f32) (main_arg5 : FVec F S3x64 .f32) (main_arg6 : FVec F S3x64x64 .f32) (main_arg7 : FVec F S3x64 .f32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_arg4 main_arg5 main_arg6 main_arg7 main_v13 main_v16
-- ==== Kernel.lean ====
abbrev S1024x64 : Shape := ⟨2, ![1024, 64]⟩
abbrev S3x64x64 : Shape := ⟨3, ![3, 64, 64]⟩
abbrev S3x64 : Shape := ⟨2, ![3, 64]⟩
abbrev S1x1024x64 : Shape := ⟨3, ![1, 1024, 64]⟩
abbrev S3x1024x64 : Shape := ⟨3, ![3, 1024, 64]⟩
abbrev S3x512x128 : Shape := ⟨3, ![3, 512, 128]⟩
abbrev S3x1x64 : Shape := ⟨3, ![3, 1, 64]⟩
abbrev S1024x1 : Shape := ⟨2, ![1024, 1]⟩
abbrev S1x128x64 : Shape := ⟨3, ![1, 128, 64]⟩
abbrev S1x512x128 : Shape := ⟨3, ![1, 512, 128]⟩
abbrev S1x64x64 : Shape := ⟨3, ![1, 64, 64]⟩
abbrev S1x1x64 : Shape := ⟨3, ![1, 1, 64]⟩
abbrev S128x1 : Shape := ⟨2, ![128, 1]⟩
abbrev S128x64 : Shape := ⟨2, ![128, 64]⟩
abbrev S64x64 : Shape := ⟨2, ![64, 64]⟩
abbrev S1x64 : Shape := ⟨2, ![1, 64]⟩
abbrev S128x128 : Shape := ⟨2, ![128, 128]⟩
abbrev S512x128 : Shape := ⟨2, ![512, 128]⟩
abbrev S64x128 : Shape := ⟨2, ![64, 128]⟩
abbrev S64x1x128 : Shape := ⟨3, ![64, 1, 128]⟩
abbrev S1x128x128 : Shape := ⟨3, ![1, 128, 128]⟩
abbrev S64x128x128 : Shape := ⟨3, ![64, 128, 128]⟩
abbrev S128 : Shape := ⟨1, ![128]⟩
abbrev S_ : Shape := ⟨0, ![]⟩

abbrev nBuf : Space → Nat
  | .hbm => 26
  | .vmem => 16
  | .smem => 0
  | _ => 0

abbrev bufTy : (tb : Table) → Fin (tcTables nBuf tb) → BufTy
  | .hbm, ⟨0, _⟩ => ⟨S1024x64, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S3x64x64, .f32⟩
  | .hbm, ⟨5, _⟩ => ⟨S3x64, .f32⟩
  | .hbm, ⟨6, _⟩ => ⟨S3x64x64, .f32⟩
  | .hbm, ⟨7, _⟩ => ⟨S3x64, .f32⟩
  | .hbm, ⟨8, _⟩ => ⟨S1x1024x64, .f32⟩
  | .hbm, ⟨9, _⟩ => ⟨S1x1024x64, .f32⟩
  | .hbm, ⟨10, _⟩ => ⟨S1x1024x64, .f32⟩
  | .hbm, ⟨11, _⟩ => ⟨S3x1024x64, .f32⟩
  | .hbm, ⟨12, _⟩ => ⟨S1x1024x64, .f32⟩
  | .hbm, ⟨13, _⟩ => ⟨S1x1024x64, .f32⟩
  | .hbm, ⟨14, _⟩ => ⟨S1x1024x64, .f32⟩
  | .hbm, ⟨15, _⟩ => ⟨S3x1024x64, .f32⟩
  | .hbm, ⟨16, _⟩ => ⟨S3x512x128, .f32⟩
  | .hbm, ⟨17, _⟩ => ⟨S3x64x64, .f32⟩
  | .hbm, ⟨18, _⟩ => ⟨S3x64x64, .f32⟩
  | .hbm, ⟨19, _⟩ => ⟨S3x1x64, .f32⟩
  | .hbm, ⟨20, _⟩ => ⟨S3x1x64, .f32⟩
  | .hbm, ⟨21, _⟩ => ⟨S1024x1, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S1x128x64, .f32⟩
  | .local _ .vmem, ⟨1, _⟩ => ⟨S1x128x64, .f32⟩
  | .local _ .vmem, ⟨2, _⟩ => ⟨S1x128x64, .f32⟩
  | .local _ .vmem, ⟨3, _⟩ => ⟨S1x128x64, .f32⟩
  | .local _ .vmem, ⟨4, _⟩ => ⟨S1x512x128, .f32⟩
  | .local _ .vmem, ⟨5, _⟩ => ⟨S1x512x128, .f32⟩
  | .local _ .vmem, ⟨6, _⟩ => ⟨S1x64x64, .f32⟩
  | .local _ .vmem, ⟨7, _⟩ => ⟨S1x64x64, .f32⟩
  | .local _ .vmem, ⟨8, _⟩ => ⟨S1x1x64, .f32⟩
  | .local _ .vmem, ⟨9, _⟩ => ⟨S1x1x64, .f32⟩
  | .local _ .vmem, ⟨10, _⟩ => ⟨S1x64x64, .f32⟩
  | .local _ .vmem, ⟨11, _⟩ => ⟨S1x64x64, .f32⟩
  | .local _ .vmem, ⟨12, _⟩ => ⟨S1x1x64, .f32⟩
  | .local _ .vmem, ⟨13, _⟩ => ⟨S1x1x64, .f32⟩
  | .local _ .vmem, ⟨14, _⟩ => ⟨S128x1, .f32⟩
  | .local _ .vmem, ⟨15, _⟩ => ⟨S128x1, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 3], ![false, false]⟩

@[reducible] def k0_t1_loop : Scf.Loop 32 :=
  let c0_i32_24 : BitVec 32 := 0#32
  let c8_i32 : BitVec 32 := 8#32
  let v46 : BitVec 32 := Scalar.addi c0_i32_24 c8_i32
  let c1_i32 : BitVec 32 := 1#32
  ⟨c0_i32_24, v46, c1_i32⟩
def k0_mult1 (k0_t1 : Fin k0_t1_loop.trips) : BitVec 32 :=
  let c0_i32_24 : BitVec 32 := 0#32
  let c1_i32 : BitVec 32 := 1#32
  let arg10 : BitVec 32 := Scf.iv c0_i32_24 c1_i32 k0_t1
  let c64_i32 : BitVec 32 := 64#32
  let v66 : BitVec 32 := Scalar.muli arg10 c64_i32
  v66
def k0_off1 (k0_t1 : Fin k0_t1_loop.trips) : Fin 2 → Nat :=
  let c0_i32_24 : BitVec 32 := 0#32
  let c1_i32 : BitVec 32 := 1#32
  let arg10 : BitVec 32 := Scf.iv c0_i32_24 c1_i32 k0_t1
  let c64_i32 : BitVec 32 := 64#32
  let v66 : BitVec 32 := Scalar.muli arg10 c64_i32
  let v67 : BitVec 32 := v66
  let v70 : Index := Scalar.indexCast v67
  let c0_37 : Index := 0#32
  ![v70.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bcast_S1024x64_S1x1024x64_1_2 : S1024x64.BroadcastsInDim S1x1024x64 (![1, 2] : Fin 2 → Fin S1x1024x64.rank)
  concatenates_S1x1024x64_S1x1024x64_S1x1024x64_S3x1024x64_d0 : Shape.Concatenates [S1x1024x64, S1x1024x64, S1x1024x64] S3x1024x64 0
  shapeCasts_S3x1024x64_S3x512x128 : S3x1024x64.ShapeCasts S3x512x128
  transposes_S3x64x64_S3x64x64_0_2_1 : S3x64x64.Transposes [0, 2, 1] S3x64x64
  bcast_S3x64_S3x1x64_0_2 : S3x64.BroadcastsInDim S3x1x64 (![0, 2] : Fin 2 → Fin S3x1x64.rank)
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  bitsLt_bf16_f32 : FTy.bits .bf16 < FTy.bits .f32
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  broadcasts_S1x64_S128x64 : S1x64.Broadcasts S128x64
  concatenates_S128x64_S128x64_S128x128_d1 : Shape.Concatenates [S128x64, S128x64] S128x128 1
  inb_S1x512x128_S1x512x128_0_0_0 : ∀ a, (![0, 0, 0] : Fin 3 → Nat) a + S1x512x128.size a ≤ S1x512x128.size a
  squeezes_S1x512x128_S512x128 : S1x512x128.Squeezes S512x128
  h_S64x128 : 0 < S64x128.numel
  shapeCasts_S64x128_S64x128 : S64x128.ShapeCasts S64x128
  shapeCasts_S64x128_S64x1x128 : S64x128.ShapeCasts S64x1x128
  shapeCasts_S128x128_S1x128x128 : S128x128.ShapeCasts S1x128x128
  broadcasts_S64x1x128_S64x128x128 : S64x1x128.Broadcasts S64x128x128
  broadcasts_S1x128x128_S64x128x128 : S1x128x128.Broadcasts S64x128x128
  reduces_S64x128x128_S128x128 : S64x128x128.Reduces [0] S128x128
  slices_S128x128_o0_0_S128x64 : S128x128.Slices ![0, 0] S128x64
  slices_S128x128_o0_64_S128x64 : S128x128.Slices ![0, 64] S128x64
  reduces_S128x64_S128 : S128x64.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  reducesTo_S1024x1_S_d0_1 : S1024x1.ReducesTo [0, 1] S_
  h_S_ : 0 < S_.numel
  dot_S128x64_S64x64_S128x64_1_0_0_1_n_n_wf : DotDims.WF S128x64 S64x64 S128x64 [1] [0] [0] [1] [] []
  hrank0 : 0 < grid0.rank
  k0_t1_ok : k0_t1_loop.OK
  k0_mult1_dvd : ∀ k0_t1 : Fin k0_t1_loop.trips, 64 ∣ (k0_mult1 k0_t1).toNat
  k0_off1_inb : ∀ k0_t1 : Fin k0_t1_loop.trips, ∀ a, (k0_off1 k0_t1) a + S64x128.size a ≤ S512x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x64.size a ≤ S3x1024x64.size a
  hwx0_0 : ∀ i : grid0.Coords, EltTy.bits .f32 = 32 ∨ (Rect.block (s := S3x1024x64) S1x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x64.size a ≤ S3x1024x64.size a
  hwx0_1 : ∀ i : grid0.Coords, EltTy.bits .f32 = 32 ∨ (Rect.block (s := S3x1024x64) S1x128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x128.size a ≤ S3x512x128.size a
  hwx0_2 : ∀ i : grid0.Coords, EltTy.bits .f32 = 32 ∨ (Rect.block (s := S3x512x128) S1x512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x64.size a ≤ S3x64x64.size a
  hwx0_3 : ∀ i : grid0.Coords, EltTy.bits .f32 = 32 ∨ (Rect.block (s := S3x64x64) S1x64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x64.size a ≤ S3x1x64.size a
  hwx0_4 : ∀ i : grid0.Coords, EltTy.bits .f32 = 32 ∨ (Rect.block (s := S3x1x64) S1x1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x64.size a ≤ S3x64x64.size a
  hwx0_5 : ∀ i : grid0.Coords, EltTy.bits .f32 = 32 ∨ (Rect.block (s := S3x64x64) S1x64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x64.size a ≤ S3x1x64.size a
  hwx0_6 : ∀ i : grid0.Coords, EltTy.bits .f32 = 32 ∨ (Rect.block (s := S3x1x64) S1x1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1.size a ≤ S1024x1.size a
  hwx0_7 : ∀ i : grid0.Coords, EltTy.bits .f32 = 32 ∨ (Rect.block (s := S1024x1) S128x1.size (cc0_transform_7 i) (hinb0_7 i)).WholeWords (EltTy.packing .f32)

variable [Facts₀]

def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf

abbrev win0_0 : Pipeline.Window sig grid0 :=
  Pipeline.Window.ofSpec (Memref.whole main_v3) S1x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x64x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x1x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x64x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x1x64.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v13) S128x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1024x64 : Shape := ⟨2, ![1024, 64]⟩
abbrev S3x64x64 : Shape := ⟨3, ![3, 64, 64]⟩
abbrev S3x64 : Shape := ⟨2, ![3, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S_ : Shape := ⟨0, ![]⟩
abbrev S1x1024x64 : Shape := ⟨3, ![1, 1024, 64]⟩
abbrev S1024x1x64 : Shape := ⟨3, ![1024, 1, 64]⟩
abbrev S1024x1024x64 : Shape := ⟨3, ![1024, 1024, 64]⟩
abbrev S1024 : Shape := ⟨1, ![1024]⟩

abbrev nBuf : Space → Nat
  | .hbm => 204
  | .vmem => 0
  | .smem => 0
  | _ => 0

abbrev hbmTy0_0 (i : Nat) : BufTy := match i % 128 with
  | 0 => ⟨S1024x64, .f32⟩
  | 1 => ⟨S1024x64, .f32⟩
  | 2 => ⟨S1024x64, .f32⟩
  | 3 => ⟨S1024x64, .f32⟩
  | 4 => ⟨S3x64x64, .f32⟩
  | 5 => ⟨S3x64, .f32⟩
  | 6 => ⟨S3x64x64, .f32⟩
  | 7 => ⟨S3x64, .f32⟩
  | 8 => ⟨S1x64x64, .f32⟩
  | 9 => ⟨S64x64, .f32⟩
  | 10 => ⟨S64x64, .f32⟩
  | 11 => ⟨S1024x64, .f32⟩
  | 12 => ⟨S1x64, .f32⟩
  | 13 => ⟨S64, .f32⟩
  | 14 => ⟨S1x64, .f32⟩
  | 15 => ⟨S1024x64, .f32⟩
  | 16 => ⟨S1024x64, .f32⟩
  | 17 => ⟨S1x64x64, .f32⟩
  | 18 => ⟨S64x64, .f32⟩
  | 19 => ⟨S64x64, .f32⟩
  | 20 => ⟨S1024x64, .f32⟩
  | 21 => ⟨S1x64, .f32⟩
  | 22 => ⟨S64, .f32⟩
  | 23 => ⟨S1x64, .f32⟩
  | 24 => ⟨S1024x64, .f32⟩
  | 25 => ⟨S1024x64, .f32⟩
  | 26 => ⟨S_, .f32⟩
  | 27 => ⟨S1024x64, .f32⟩
  | 28 => ⟨S1024x64, .f32⟩
  | 29 => ⟨S1024x64, .f32⟩
  | 30 => ⟨S1024x64, .f32⟩
  | 31 => ⟨S1024x64, .i1⟩
  | 32 => ⟨S1024x64, .f32⟩
  | 33 => ⟨S1024x64, .f32⟩
  | 34 => ⟨S1024x64, .f32⟩
  | 35 => ⟨S1024x64, .f32⟩
  | 36 => ⟨S1024x64, .f32⟩
  | 37 => ⟨S1024x64, .f32⟩
  | 38 => ⟨S1024x64, .f32⟩
  | 39 => ⟨S1024x64, .f32⟩
  | 40 => ⟨S_, .f32⟩
  | 41 => ⟨S1024x64, .f32⟩
  | 42 => ⟨S1024x64, .f32⟩
  | 43 => ⟨S_, .f32⟩
  | 44 => ⟨S1024x64, .f32⟩
  | 45 => ⟨S1024x64, .f32⟩
  | 46 => ⟨S1024x64, .f32⟩
  | 47 => ⟨S1024x64, .f32⟩
  | 48 => ⟨S1024x64, .f32⟩
  | 49 => ⟨S1024x64, .f32⟩
  | 50 => ⟨S1x1024x64, .f32⟩
  | 51 => ⟨S1024x1x64, .f32⟩
  | 52 => ⟨S1024x1024x64, .f32⟩
  | 53 => ⟨S1024x1024x64, .f32⟩
  | 54 => ⟨S1024x1024x64, .f32⟩
  | 55 => ⟨S1024x1024x64, .f32⟩
  | 56 => ⟨S_, .f32⟩
  | 57 => ⟨S1024x64, .f32⟩
  | 58 => ⟨S_, .f32⟩
  | 59 => ⟨S1024x64, .f32⟩
  | 60 => ⟨S1024x64, .f32⟩
  | 61 => ⟨S1024x64, .f32⟩
  | 62 => ⟨S1024x64, .f32⟩
  | 63 => ⟨S_, .f32⟩
  | 64 => ⟨S1024, .f32⟩
  | 65 => ⟨S_, .f32⟩
  | 66 => ⟨S1024, .f32⟩
  | 67 => ⟨S1024, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S1x64x64, .f32⟩
  | 75 => ⟨S64x64, .f32⟩
  | 76 => ⟨S64x64, .f32⟩
  | 77 => ⟨S1024x64, .f32⟩
  | 78 => ⟨S1x64, .f32⟩
  | 79 => ⟨S64, .f32⟩
  | 80 => ⟨S1x64, .f32⟩
  | 81 => ⟨S1024x64, .f32⟩
  | 82 => ⟨S1024x64, .f32⟩
  | 83 => ⟨S1x64x64, .f32⟩
  | 84 => ⟨S64x64, .f32⟩
  | 85 => ⟨S64x64, .f32⟩
  | 86 => ⟨S1024x64, .f32⟩
  | 87 => ⟨S1x64, .f32⟩
  | 88 => ⟨S64, .f32⟩
  | 89 => ⟨S1x64, .f32⟩
  | 90 => ⟨S1024x64, .f32⟩
  | 91 => ⟨S1024x64, .f32⟩
  | 92 => ⟨S_, .f32⟩
  | 93 => ⟨S1024x64, .f32⟩
  | 94 => ⟨S1024x64, .f32⟩
  | 95 => ⟨S1024x64, .f32⟩
  | 96 => ⟨S1024x64, .f32⟩
  | 97 => ⟨S1024x64, .i1⟩
  | 98 => ⟨S1024x64, .f32⟩
  | 99 => ⟨S1024x64, .f32⟩
  | 100 => ⟨S1024x64, .f32⟩
  | 101 => ⟨S1024x64, .f32⟩
  | 102 => ⟨S1024x64, .f32⟩
  | 103 => ⟨S1024x64, .f32⟩
  | 104 => ⟨S1024x64, .f32⟩
  | 105 => ⟨S1024x64, .f32⟩
  | 106 => ⟨S_, .f32⟩
  | 107 => ⟨S1024x64, .f32⟩
  | 108 => ⟨S1024x64, .f32⟩
  | 109 => ⟨S_, .f32⟩
  | 110 => ⟨S1024x64, .f32⟩
  | 111 => ⟨S1024x64, .f32⟩
  | 112 => ⟨S1024x64, .f32⟩
  | 113 => ⟨S1024x64, .f32⟩
  | 114 => ⟨S1024x64, .f32⟩
  | 115 => ⟨S1024x64, .f32⟩
  | 116 => ⟨S1x1024x64, .f32⟩
  | 117 => ⟨S1024x1x64, .f32⟩
  | 118 => ⟨S1024x1024x64, .f32⟩
  | 119 => ⟨S1024x1024x64, .f32⟩
  | 120 => ⟨S1024x1024x64, .f32⟩
  | 121 => ⟨S1024x1024x64, .f32⟩
  | 122 => ⟨S_, .f32⟩
  | 123 => ⟨S1024x64, .f32⟩
  | 124 => ⟨S_, .f32⟩
  | 125 => ⟨S1024x64, .f32⟩
  | 126 => ⟨S1024x64, .f32⟩
  | 127 => ⟨S1024x64, .f32⟩
  | _ => ⟨S1024x64, .f32⟩

abbrev hbmTy0_1 (i : Nat) : BufTy := match i % 128 with
  | 0 => ⟨S1024x64, .f32⟩
  | 1 => ⟨S_, .f32⟩
  | 2 => ⟨S1024, .f32⟩
  | 3 => ⟨S_, .f32⟩
  | 4 => ⟨S1024, .f32⟩
  | 5 => ⟨S1024, .f32⟩
  | 6 => ⟨S_, .f32⟩
  | 7 => ⟨S_, .f32⟩
  | 8 => ⟨S_, .f32⟩
  | 9 => ⟨S_, .f32⟩
  | 10 => ⟨S_, .f32⟩
  | 11 => ⟨S1x64x64, .f32⟩
  | 12 => ⟨S64x64, .f32⟩
  | 13 => ⟨S64x64, .f32⟩
  | 14 => ⟨S1024x64, .f32⟩
  | 15 => ⟨S1x64, .f32⟩
  | 16 => ⟨S64, .f32⟩
  | 17 => ⟨S1x64, .f32⟩
  | 18 => ⟨S1024x64, .f32⟩
  | 19 => ⟨S1024x64, .f32⟩
  | 20 => ⟨S1x64x64, .f32⟩
  | 21 => ⟨S64x64, .f32⟩
  | 22 => ⟨S64x64, .f32⟩
  | 23 => ⟨S1024x64, .f32⟩
  | 24 => ⟨S1x64, .f32⟩
  | 25 => ⟨S64, .f32⟩
  | 26 => ⟨S1x64, .f32⟩
  | 27 => ⟨S1024x64, .f32⟩
  | 28 => ⟨S1024x64, .f32⟩
  | 29 => ⟨S_, .f32⟩
  | 30 => ⟨S1024x64, .f32⟩
  | 31 => ⟨S1024x64, .f32⟩
  | 32 => ⟨S1024x64, .f32⟩
  | 33 => ⟨S1024x64, .f32⟩
  | 34 => ⟨S1024x64, .i1⟩
  | 35 => ⟨S1024x64, .f32⟩
  | 36 => ⟨S1024x64, .f32⟩
  | 37 => ⟨S1024x64, .f32⟩
  | 38 => ⟨S1024x64, .f32⟩
  | 39 => ⟨S1024x64, .f32⟩
  | 40 => ⟨S1024x64, .f32⟩
  | 41 => ⟨S1024x64, .f32⟩
  | 42 => ⟨S1024x64, .f32⟩
  | 43 => ⟨S_, .f32⟩
  | 44 => ⟨S1024x64, .f32⟩
  | 45 => ⟨S1024x64, .f32⟩
  | 46 => ⟨S_, .f32⟩
  | 47 => ⟨S1024x64, .f32⟩
  | 48 => ⟨S1024x64, .f32⟩
  | 49 => ⟨S1024x64, .f32⟩
  | 50 => ⟨S1024x64, .f32⟩
  | 51 => ⟨S1024x64, .f32⟩
  | 52 => ⟨S1024x64, .f32⟩
  | 53 => ⟨S1x1024x64, .f32⟩
  | 54 => ⟨S1024x1x64, .f32⟩
  | 55 => ⟨S1024x1024x64, .f32⟩
  | 56 => ⟨S1024x1024x64, .f32⟩
  | 57 => ⟨S1024x1024x64, .f32⟩
  | 58 => ⟨S1024x1024x64, .f32⟩
  | 59 => ⟨S_, .f32⟩
  | 60 => ⟨S1024x64, .f32⟩
  | 61 => ⟨S_, .f32⟩
  | 62 => ⟨S1024x64, .f32⟩
  | 63 => ⟨S1024x64, .f32⟩
  | 64 => ⟨S1024x64, .f32⟩
  | 65 => ⟨S1024x64, .f32⟩
  | 66 => ⟨S_, .f32⟩
  | 67 => ⟨S1024, .f32⟩
  | 68 => ⟨S_, .f32⟩
  | 69 => ⟨S1024, .f32⟩
  | 70 => ⟨S1024, .f32⟩
  | 71 => ⟨S_, .f32⟩
  | 72 => ⟨S_, .f32⟩
  | 73 => ⟨S_, .f32⟩
  | 74 => ⟨S_, .f32⟩
  | 75 => ⟨S_, .f32⟩
  | _ => ⟨S1024x64, .f32⟩

abbrev hbmTy (i : Nat) : BufTy := match i / 128 with
  | 0 => hbmTy0_0 i
  | 1 => hbmTy0_1 i
  | _ => ⟨S1024x64, .f32⟩

abbrev bufTy : (tb : Table) → Fin (tcTables nBuf tb) → BufTy
  | .hbm, ⟨i, _⟩ => hbmTy i
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_v18 : Ref sig .tc := ⟨.hbm, 39, rfl⟩
abbrev main_cst : Ref sig .tc := ⟨.hbm, 40, rfl⟩
abbrev main_v19 : Ref sig .tc := ⟨.hbm, 41, rfl⟩
abbrev main_v20 : Ref sig .tc := ⟨.hbm, 42, rfl⟩
abbrev main_cst_0 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_1 : Ref sig .tc := ⟨.hbm, 56, rfl⟩
abbrev main_v33 : Ref sig .tc := ⟨.hbm, 57, rfl⟩
abbrev main_cst_2 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_3 : Ref sig .tc := ⟨.hbm, 63, rfl⟩
abbrev main_v38 : Ref sig .tc := ⟨.hbm, 64, rfl⟩
abbrev main_cst_4 : Ref sig .tc := ⟨.hbm, 65, rfl⟩
abbrev main_v39 : Ref sig .tc := ⟨.hbm, 66, rfl⟩
abbrev main_v40 : Ref sig .tc := ⟨.hbm, 67, rfl⟩
abbrev main_cst_5 : Ref sig .tc := ⟨.hbm, 68, rfl⟩
abbrev main_v41 : Ref sig .tc := ⟨.hbm, 69, rfl⟩
abbrev main_cst_6 : Ref sig .tc := ⟨.hbm, 70, rfl⟩
abbrev main_v42 : Ref sig .tc := ⟨.hbm, 71, rfl⟩
abbrev main_cst_7 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_call1_cst : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_call1_v5 : Ref sig .tc := ⟨.hbm, 98, rfl⟩
abbrev main_call1_v6 : Ref sig .tc := ⟨.hbm, 99, rfl⟩
abbrev main_call1_v7 : Ref sig .tc := ⟨.hbm, 100, rfl⟩
abbrev main_call1_v8 : Ref sig .tc := ⟨.hbm, 101, rfl⟩
abbrev main_call1_v9 : Ref sig .tc := ⟨.hbm, 102, rfl⟩
abbrev main_call1_v10 : Ref sig .tc := ⟨.hbm, 103, rfl⟩
abbrev main_call1_v11 : Ref sig .tc := ⟨.hbm, 104, rfl⟩
abbrev main_v62 : Ref sig .tc := ⟨.hbm, 105, rfl⟩
abbrev main_cst_8 : Ref sig .tc := ⟨.hbm, 106, rfl⟩
abbrev main_v63 : Ref sig .tc := ⟨.hbm, 107, rfl⟩
abbrev main_v64 : Ref sig .tc := ⟨.hbm, 108, rfl⟩
abbrev main_cst_9 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_10 : Ref sig .tc := ⟨.hbm, 122, rfl⟩
abbrev main_v77 : Ref sig .tc := ⟨.hbm, 123, rfl⟩
abbrev main_cst_11 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_cst_12 : Ref sig .tc := ⟨.hbm, 129, rfl⟩
abbrev main_v82 : Ref sig .tc := ⟨.hbm, 130, rfl⟩
abbrev main_cst_13 : Ref sig .tc := ⟨.hbm, 131, rfl⟩
abbrev main_v83 : Ref sig .tc := ⟨.hbm, 132, rfl⟩
abbrev main_v84 : Ref sig .tc := ⟨.hbm, 133, rfl⟩
abbrev main_cst_14 : Ref sig .tc := ⟨.hbm, 134, rfl⟩
abbrev main_v85 : Ref sig .tc := ⟨.hbm, 135, rfl⟩
abbrev main_cst_15 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_call2_cst : Ref sig .tc := ⟨.hbm, 157, rfl⟩
abbrev main_call2_v0 : Ref sig .tc := ⟨.hbm, 158, rfl⟩
abbrev main_call2_v1 : Ref sig .tc := ⟨.hbm, 159, rfl⟩
abbrev main_call2_v2 : Ref sig .tc := ⟨.hbm, 160, rfl⟩
abbrev main_call2_v3 : Ref sig .tc := ⟨.hbm, 161, rfl⟩
abbrev main_call2_v4 : Ref sig .tc := ⟨.hbm, 162, rfl⟩
abbrev main_call2_v5 : Ref sig .tc := ⟨.hbm, 163, rfl⟩
abbrev main_call2_v6 : Ref sig .tc := ⟨.hbm, 164, rfl⟩
abbrev main_call2_v7 : Ref sig .tc := ⟨.hbm, 165, rfl⟩
abbrev main_call2_v8 : Ref sig .tc := ⟨.hbm, 166, rfl⟩
abbrev main_call2_v9 : Ref sig .tc := ⟨.hbm, 167, rfl⟩
abbrev main_call2_v10 : Ref sig .tc := ⟨.hbm, 168, rfl⟩
abbrev main_call2_v11 : Ref sig .tc := ⟨.hbm, 169, rfl⟩
abbrev main_v106 : Ref sig .tc := ⟨.hbm, 170, rfl⟩
abbrev main_cst_16 : Ref sig .tc := ⟨.hbm, 171, rfl⟩
abbrev main_v107 : Ref sig .tc := ⟨.hbm, 172, rfl⟩
abbrev main_v108 : Ref sig .tc := ⟨.hbm, 173, rfl⟩
abbrev main_cst_17 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_cst_18 : Ref sig .tc := ⟨.hbm, 187, rfl⟩
abbrev main_v121 : Ref sig .tc := ⟨.hbm, 188, rfl⟩
abbrev main_cst_19 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_cst_20 : Ref sig .tc := ⟨.hbm, 194, rfl⟩
abbrev main_v126 : Ref sig .tc := ⟨.hbm, 195, rfl⟩
abbrev main_cst_21 : Ref sig .tc := ⟨.hbm, 196, rfl⟩
abbrev main_v127 : Ref sig .tc := ⟨.hbm, 197, rfl⟩
abbrev main_v128 : Ref sig .tc := ⟨.hbm, 198, rfl⟩
abbrev main_cst_22 : Ref sig .tc := ⟨.hbm, 199, rfl⟩
abbrev main_v129 : Ref sig .tc := ⟨.hbm, 200, rfl⟩
abbrev main_cst_23 : Ref sig .tc := ⟨.hbm, 201, rfl⟩
abbrev main_v130 : Ref sig .tc := ⟨.hbm, 202, rfl⟩
abbrev main_v131 : Ref sig .tc := ⟨.hbm, 203, rfl⟩

abbrev nD : Nat := 1
abbrev τ : Topo := Topo.v7x

variable {F : FTy → Type} [FloatOps F]

class Facts₀ : Prop where
  slices_S3x64x64_S1x64x64_0_0_0 : S3x64x64.Slices ![0, 0, 0] S1x64x64
  shapeCasts_S1x64x64_S64x64 : S1x64x64.ShapeCasts S64x64
  transposes_S64x64_S64x64_1_0 : S64x64.Transposes [1, 0] S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  bcast_S_S1024x64 : S_.BroadcastsInDim S1024x64 (![] : Fin 0 → Fin S1024x64.rank)
  bcast_S1024x64_S1x1024x64_1_2 : S1024x64.BroadcastsInDim S1x1024x64 (![1, 2] : Fin 2 → Fin S1x1024x64.rank)
  bcast_S1024x64_S1024x1x64_0_2 : S1024x64.BroadcastsInDim S1024x1x64 (![0, 2] : Fin 2 → Fin S1024x1x64.rank)
  bcast_S1x1024x64_S1024x1024x64_0_1_2 : S1x1024x64.BroadcastsInDim S1024x1024x64 (![0, 1, 2] : Fin 3 → Fin S1024x1024x64.rank)
  bcast_S1024x1x64_S1024x1024x64_0_1_2 : S1024x1x64.BroadcastsInDim S1024x1024x64 (![0, 1, 2] : Fin 3 → Fin S1024x1024x64.rank)
  reducesTo_S1024x1024x64_S1024x64_d1 : S1024x1024x64.ReducesTo [1] S1024x64
  h_S_ : 0 < S_.numel
  reducesTo_S1024x64_S1024_d1 : S1024x64.ReducesTo [1] S1024
  reducesTo_S1024_S_d0 : S1024.ReducesTo [0] S_
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  dot_S1024x64_S64x64_S1024x64_1_0_0_1_n_n_wf : DotDims.WF S1024x64 S64x64 S1024x64 [1] [0] [0] [1] [] []

variable [Facts₀]

def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf

class Facts : Prop extends Facts₀ where

variable [Facts]
-- ==== Proof.FrameKitB.lean ====
/-
  The launch side of `Kernel`'s frame, by hand: @main is thirteen host lines (the three stacked feature arrays as
  two concatenations of broadcasts, the packed copy of the second as a reshape, two transposed weights, two biases
  with a unit axis), the pipelined region over a grid of 8 × 3 points, and four host lines after it (the mean of the
  region's output column).  Here: the buffers' contents when the region is entered (the host lines' results over the
  launch memory), @main as "host lines, the region, host lines", what the lines after the region may touch, that no
  host line writes an argument, a window's block at a grid point, that an input window's staging buffer holds its
  block at every point, the frame claim's post read off the frame run's, and the body's one branch condition
  (the layer coordinate is zero) decided over the grid.
-/
import proofs.«100973_j86681029968319_2_alg».proof.Proof.Gen.Kernel.Launch
import proofs.«100973_j86681029968319_2_alg».proof.Proof.Gen.Kernel.Skeleton
import proofs.«100973_j86681029968319_2_alg».proof.Proof.Gen.Kernel.Points
import proofs.«100973_j86681029968319_2_alg».proof.Proof.Gen.Kernel.Loops
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered, as a valuation: the host lines before it over the launch memory. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host lines allocate nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it: it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the buffers that bypass it only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write no array of the pipeline (each writes its own result buffer, which is none of them). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.reshape_writes, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- Nor does a host line after it, and it is no window's array: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- Nor does a host line after it, and it is no window's array: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- Nor does a host line after it, and it is no window's array: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- Nor does a host line after it, and it is no window's array: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- Nor does a host line after it, and it is no window's array: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- Nor does a host line after it, and it is no window's array: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- Nor does a host line after it, and it is no window's array: argument 6 ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- Nor does a host line after it, and it is no window's array: argument 7 ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, for any proof data whose array is the
    entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, for any proof data whose array is the
    entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, for any proof data whose array is the
    entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, for any proof data whose array is the
    entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, for any proof data whose array is the
    entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, for any proof data whose array is the
    entry contents and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the entry contents, a run to the frame run's post (the arrays at what the
    library computes from the data, every bypassing buffer at the later host lines' results) leaves every argument
    as launched: an argument is no window's array, and no host line writes it. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c)⟩) h

/-! ## The body's branch condition -/

/-- The condition of the body's one `if`: the layer coordinate (grid axis 1) is zero. -/
abbrev cond0_0 (i : grid0.Coords) : Prop := (Scalar.cmpi .ne (Scalar.extui (Scalar.cmpi .eq (BitVec.ofNat 32 (i 1).val) 0#32)) 0#32) = 1#1
/-- It holds at the points ≡ 0 (mod 3): the grid runs the layer coordinate fastest. -/
theorem hcond0_0 : ∀ t : Fin cfg0.N, cond0_0 (grid0.coords t) ↔ t.val % 3 = 0 :=
  (by decide +kernel : ∀ t : Fin grid0.N, cond0_0 (grid0.coords t) ↔ t.val % 3 = 0)

/-! ## The staging memrefs at a point -/

/-- One staging buffer of the output window, through which its contents are stated. -/
abbrev VO0_7 : View sig .tc .vmem S128x1 .f32 := (Memref.whole cc0_stg7_0 : Memref sig .tc .vmem S128x1 .f32).view
abbrev ms0_0 (t : Fin cfg0.N) : Memref sig .tc .vmem S1x128x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x1 .f32 := win0_7.stage (cfg0.slots t 7)
abbrev hs0_7 (t : Fin cfg0.N) : (ms0_7 t).IsWhole := hstage0_7 ((cfg0.slots t 7).cast nbuf0_7)

end Cert.Kernel.Hand

end
-- ==== Proof.LoopB.lean ====
/-
  The counted loop of the kernel body — eight trips, each loading one chunk of 64 packed reference rows from the
  third window's staging buffer through its leading-axis view and adding the chunk's column sums of absolute
  differences to a carried 128 × 128 accumulator — passed by its invariant: before trip `k` the buffer holds its
  contents, untouched, and the accumulator is the `k`-fold iterate of the trip's yield from the initial value.
  One trip is run once, at a symbolic `k`; what it yields, as a function of the carried value, is the run's find.
-/
import proofs.«100973_j86681029968319_2_alg».proof.Proof.FrameKitB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxRecDepth 8192
set_option maxHeartbeats 4000000

local notation "𝕄G" => MT nD τ sig Unit (Elt F) ℕ (UR sig nD τ) ℕ

/-- ONE TRIP at a symbolic `k` and carried value `acc`: the window buffer at its contents in and out; the yield a
    function of the carried value, found by the run. -/
@[irreducible] def tripH (𝒱 : Variants) (c : Dev nD) (bd : Option 𝒱.V) (i : grid0.Coords) (arg2 : Memref sig .tc .vmem S1x128x64 .f32) (harg2 : arg2.IsWhole) (arg3 : Memref sig .tc .vmem S1x128x64 .f32) (harg3 : arg3.IsWhole) (arg4 : Memref sig .tc .vmem S1x512x128 .f32) (harg4 : arg4.IsWhole) (arg5 : Memref sig .tc .vmem S1x64x64 .f32) (harg5 : arg5.IsWhole) (arg6 : Memref sig .tc .vmem S1x1x64 .f32) (harg6 : arg6.IsWhole) (arg7 : Memref sig .tc .vmem S1x64x64 .f32) (harg7 : arg7.IsWhole) (arg8 : Memref sig .tc .vmem S1x1x64 .f32) (harg8 : arg8.IsWhole) (arg9 : Memref sig .tc .vmem S128x1 .f32) (harg9 : arg9.IsWhole) (v15 : FVec F S128x64 .f32) (X4 : BufTy.Contents (Elt F) arg4.view.ty) (k : Fin k0_t1_loop.trips) :
    { R : ((FVec F S128x128 .f32) → FVec F S128x128 .f32) // ∀ (E : Set ℕ) (acc : FVec F S128x128 .f32),
      (iprop(arg4.view.loc (c : Thread nD τ) ↦[arg4.view.set]{fullShare} X4) : sProp 𝕄G)
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 v15 k acc)
          (fun yld => iprop(⌜yld = R acc⌝ ∗ (arg4.view.loc (c : Thread nD τ) ↦[arg4.view.set]{fullShare} X4))) } := by
  have hk : k.val < 8 := Nat.lt_of_lt_of_le k.isLt k0_t1_abs.2.1
  refine ⟨?_, fun E acc => ?run⟩
  case run =>
    unfold k0_t1_body
    iintro H4
    sl_exec
    sl_step
    sl_close

/-- The trip's yield, a plain projection. -/
abbrev tripRH (𝒱 : Variants) (c : Dev nD) (bd : Option 𝒱.V) (i : grid0.Coords) (arg2 : Memref sig .tc .vmem S1x128x64 .f32) (harg2 : arg2.IsWhole) (arg3 : Memref sig .tc .vmem S1x128x64 .f32) (harg3 : arg3.IsWhole) (arg4 : Memref sig .tc .vmem S1x512x128 .f32) (harg4 : arg4.IsWhole) (arg5 : Memref sig .tc .vmem S1x64x64 .f32) (harg5 : arg5.IsWhole) (arg6 : Memref sig .tc .vmem S1x1x64 .f32) (harg6 : arg6.IsWhole) (arg7 : Memref sig .tc .vmem S1x64x64 .f32) (harg7 : arg7.IsWhole) (arg8 : Memref sig .tc .vmem S1x1x64 .f32) (harg8 : arg8.IsWhole) (arg9 : Memref sig .tc .vmem S128x1 .f32) (harg9 : arg9.IsWhole) (v15 : FVec F S128x64 .f32) (X4 : BufTy.Contents (Elt F) arg4.view.ty) (k : Fin k0_t1_loop.trips) (acc : FVec F S128x128 .f32) : FVec F S128x128 .f32 :=
  (tripH (F := F) 𝒱 c bd i arg2 harg2 arg3 harg3 arg4 harg4 arg5 harg5 arg6 harg6 arg7 harg7 arg8 harg8 arg9 harg9 v15 X4 k).1 acc

/-- Trip `k`'s contribution to the carried value; past the last trip, nothing. -/
@[irreducible] def stStepH (𝒱 : Variants) (c : Dev nD) (bd : Option 𝒱.V) (i : grid0.Coords) (arg2 : Memref sig .tc .vmem S1x128x64 .f32) (harg2 : arg2.IsWhole) (arg3 : Memref sig .tc .vmem S1x128x64 .f32) (harg3 : arg3.IsWhole) (arg4 : Memref sig .tc .vmem S1x512x128 .f32) (harg4 : arg4.IsWhole) (arg5 : Memref sig .tc .vmem S1x64x64 .f32) (harg5 : arg5.IsWhole) (arg6 : Memref sig .tc .vmem S1x1x64 .f32) (harg6 : arg6.IsWhole) (arg7 : Memref sig .tc .vmem S1x64x64 .f32) (harg7 : arg7.IsWhole) (arg8 : Memref sig .tc .vmem S1x1x64 .f32) (harg8 : arg8.IsWhole) (arg9 : Memref sig .tc .vmem S128x1 .f32) (harg9 : arg9.IsWhole) (v15 : FVec F S128x64 .f32) (X4 : BufTy.Contents (Elt F) arg4.view.ty) (init : FVec F S128x128 .f32) (k : ℕ) (prev : FVec F S128x128 .f32) : FVec F S128x128 .f32 :=
  if h : k < k0_t1_loop.trips then tripRH (F := F) 𝒱 c bd i arg2 harg2 arg3 harg3 arg4 harg4 arg5 harg5 arg6 harg6 arg7 harg7 arg8 harg8 arg9 harg9 v15 X4 ⟨k, h⟩ prev else prev

/-- The carried value before trip `k`. -/
def stH (𝒱 : Variants) (c : Dev nD) (bd : Option 𝒱.V) (i : grid0.Coords) (arg2 : Memref sig .tc .vmem S1x128x64 .f32) (harg2 : arg2.IsWhole) (arg3 : Memref sig .tc .vmem S1x128x64 .f32) (harg3 : arg3.IsWhole) (arg4 : Memref sig .tc .vmem S1x512x128 .f32) (harg4 : arg4.IsWhole) (arg5 : Memref sig .tc .vmem S1x64x64 .f32) (harg5 : arg5.IsWhole) (arg6 : Memref sig .tc .vmem S1x1x64 .f32) (harg6 : arg6.IsWhole) (arg7 : Memref sig .tc .vmem S1x64x64 .f32) (harg7 : arg7.IsWhole) (arg8 : Memref sig .tc .vmem S1x1x64 .f32) (harg8 : arg8.IsWhole) (arg9 : Memref sig .tc .vmem S128x1 .f32) (harg9 : arg9.IsWhole) (v15 : FVec F S128x64 .f32) (X4 : BufTy.Contents (Elt F) arg4.view.ty) (init : FVec F S128x128 .f32) : ℕ → FVec F S128x128 .f32
  | 0 => init
  | k + 1 => stStepH 𝒱 c bd i arg2 harg2 arg3 harg3 arg4 harg4 arg5 harg5 arg6 harg6 arg7 harg7 arg8 harg8 arg9 harg9 v15 X4 init k (stH 𝒱 c bd i arg2 harg2 arg3 harg3 arg4 harg4 arg5 harg5 arg6 harg6 arg7 harg7 arg8 harg8 arg9 harg9 v15 X4 init k)

theorem stH_succ (𝒱 : Variants) (c : Dev nD) (bd : Option 𝒱.V) (i : grid0.Coords) (arg2 : Memref sig .tc .vmem S1x128x64 .f32) (harg2 : arg2.IsWhole) (arg3 : Memref sig .tc .vmem S1x128x64 .f32) (harg3 : arg3.IsWhole) (arg4 : Memref sig .tc .vmem S1x512x128 .f32) (harg4 : arg4.IsWhole) (arg5 : Memref sig .tc .vmem S1x64x64 .f32) (harg5 : arg5.IsWhole) (arg6 : Memref sig .tc .vmem S1x1x64 .f32) (harg6 : arg6.IsWhole) (arg7 : Memref sig .tc .vmem S1x64x64 .f32) (harg7 : arg7.IsWhole) (arg8 : Memref sig .tc .vmem S1x1x64 .f32) (harg8 : arg8.IsWhole) (arg9 : Memref sig .tc .vmem S128x1 .f32) (harg9 : arg9.IsWhole) (v15 : FVec F S128x64 .f32) (X4 : BufTy.Contents (Elt F) arg4.view.ty) (init : FVec F S128x128 .f32) (k : Fin k0_t1_loop.trips) :
    stH (F := F) 𝒱 c bd i arg2 harg2 arg3 harg3 arg4 harg4 arg5 harg5 arg6 harg6 arg7 harg7 arg8 harg8 arg9 harg9 v15 X4 init (k.val + 1) = tripRH (F := F) 𝒱 c bd i arg2 harg2 arg3 harg3 arg4 harg4 arg5 harg5 arg6 harg6 arg7 harg7 arg8 harg8 arg9 harg9 v15 X4 k (stH (F := F) 𝒱 c bd i arg2 harg2 arg3 harg3 arg4 harg4 arg5 harg5 arg6 harg6 arg7 harg7 arg8 harg8 arg9 harg9 v15 X4 init k.val) := by
  rw [stH.eq_2]; unfold stStepH; exact dif_pos k.isLt

theorem stH_zero (𝒱 : Variants) (c : Dev nD) (bd : Option 𝒱.V) (i : grid0.Coords) (arg2 : Memref sig .tc .vmem S1x128x64 .f32) (harg2 : arg2.IsWhole) (arg3 : Memref sig .tc .vmem S1x128x64 .f32) (harg3 : arg3.IsWhole) (arg4 : Memref sig .tc .vmem S1x512x128 .f32) (harg4 : arg4.IsWhole) (arg5 : Memref sig .tc .vmem S1x64x64 .f32) (harg5 : arg5.IsWhole) (arg6 : Memref sig .tc .vmem S1x1x64 .f32) (harg6 : arg6.IsWhole) (arg7 : Memref sig .tc .vmem S1x64x64 .f32) (harg7 : arg7.IsWhole) (arg8 : Memref sig .tc .vmem S1x1x64 .f32) (harg8 : arg8.IsWhole) (arg9 : Memref sig .tc .vmem S128x1 .f32) (harg9 : arg9.IsWhole) (v15 : FVec F S128x64 .f32) (X4 : BufTy.Contents (Elt F) arg4.view.ty) (init : FVec F S128x128 .f32) : stH (F := F) 𝒱 c bd i arg2 harg2 arg3 harg3 arg4 harg4 arg5 harg5 arg6 harg6 arg7 harg7 arg8 harg8 arg9 harg9 v15 X4 init 0 = init := rfl

macro_rules | `(tactic| sl_pure) => `(tactic| with_reducible exact (Cert.Kernel.Hand.stH_zero ..).symm)

/-- THE INVARIANT before trip `k`. -/
abbrev invH (𝒱 : Variants) (c : Dev nD) (bd : Option 𝒱.V) (i : grid0.Coords) (arg2 : Memref sig .tc .vmem S1x128x64 .f32) (harg2 : arg2.IsWhole) (arg3 : Memref sig .tc .vmem S1x128x64 .f32) (harg3 : arg3.IsWhole) (arg4 : Memref sig .tc .vmem S1x512x128 .f32) (harg4 : arg4.IsWhole) (arg5 : Memref sig .tc .vmem S1x64x64 .f32) (harg5 : arg5.IsWhole) (arg6 : Memref sig .tc .vmem S1x1x64 .f32) (harg6 : arg6.IsWhole) (arg7 : Memref sig .tc .vmem S1x64x64 .f32) (harg7 : arg7.IsWhole) (arg8 : Memref sig .tc .vmem S1x1x64 .f32) (harg8 : arg8.IsWhole) (arg9 : Memref sig .tc .vmem S128x1 .f32) (harg9 : arg9.IsWhole) (v15 : FVec F S128x64 .f32) (X4 : BufTy.Contents (Elt F) arg4.view.ty) (init : FVec F S128x128 .f32) (k : ℕ) (acc : FVec F S128x128 .f32) : sProp 𝕄G :=
  iprop((arg4.view.loc (c : Thread nD τ) ↦[arg4.view.set]{fullShare} X4) ∗ ⌜acc = stH (F := F) 𝒱 c bd i arg2 harg2 arg3 harg3 arg4 harg4 arg5 harg5 arg6 harg6 arg7 harg7 arg8 harg8 arg9 harg9 v15 X4 init k⌝)

set_option warn.classDefReducibility false in
/-- THE LOOP BY ITS INVARIANT. -/
@[sl_loop] def loopInvH (𝒱 : Variants) (c : Dev nD) (bd : Option 𝒱.V) (E : Set ℕ) (i : grid0.Coords) (arg2 : Memref sig .tc .vmem S1x128x64 .f32) (harg2 : arg2.IsWhole) (arg3 : Memref sig .tc .vmem S1x128x64 .f32) (harg3 : arg3.IsWhole) (arg4 : Memref sig .tc .vmem S1x512x128 .f32) (harg4 : arg4.IsWhole) (arg5 : Memref sig .tc .vmem S1x64x64 .f32) (harg5 : arg5.IsWhole) (arg6 : Memref sig .tc .vmem S1x1x64 .f32) (harg6 : arg6.IsWhole) (arg7 : Memref sig .tc .vmem S1x64x64 .f32) (harg7 : arg7.IsWhole) (arg8 : Memref sig .tc .vmem S1x1x64 .f32) (harg8 : arg8.IsWhole) (arg9 : Memref sig .tc .vmem S128x1 .f32) (harg9 : arg9.IsWhole) (v15 : FVec F S128x64 .f32) (X4 : BufTy.Contents (Elt F) arg4.view.ty) (init : FVec F S128x128 .f32) :
    LoopInvTy_k0_t1 (F := F) Unit ℕ (UR sig nD τ) ℕ 𝒱 c bd E i arg2 harg2 arg3 harg3 arg4 harg4 arg5 harg5 arg6 harg6 arg7 harg7 arg8 harg8 arg9 harg9 v15 init where
  inv := invH (F := F) 𝒱 c bd i arg2 harg2 arg3 harg3 arg4 harg4 arg5 harg5 arg6 harg6 arg7 harg7 arg8 harg8 arg9 harg9 v15 X4 init
  step k acc := by
    iintro ⟨H4, %h_acc⟩
    subst h_acc
    iapply (wp_wand_r Idealize.ShloMosaic.frame (wpE (defs₀ (F := F)) 𝒱 (c : Thread nD τ) bd) E)
    isplitl [H4]
    · iapply ((tripH (F := F) 𝒱 c bd i arg2 harg2 arg3 harg3 arg4 harg4 arg5 harg5 arg6 harg6 arg7 harg7 arg8 harg8 arg9 harg9 v15 X4 k).2 E (stH (F := F) 𝒱 c bd i arg2 harg2 arg3 harg3 arg4 harg4 arg5 harg5 arg6 harg6 arg7 harg7 arg8 harg8 arg9 harg9 v15 X4 init k))
      iexact H4
    · iintro %yld ⟨%h_res, H4⟩
      isplitl [H4]; · iexact H4
      simp only [stH_succ]
      ipureintro; rw [h_res]

end Cert.Kernel.Hand

end
-- ==== Proof.RunAB.lean ====
/-
  The kernel body run once, whole, at a grid point whose layer coordinate is ZERO: the seven input staging buffers
  hold their blocks and come back as they were; the output column's staging buffer may hold anything on entry — the
  body first stores zeros over it, then loads it back and stores the column plus this layer's row sums.  What the run
  yields is the list of pieces (stores, last first) the output buffer ends with: the run's own find.  The counted
  loop over the eight chunks of packed reference rows is passed by its invariant, the carried accumulator.
-/
import proofs.«100973_j86681029968319_2_alg».proof.Proof.LoopB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces the output staging buffer ends with when the layer coordinate is zero, with the body's triple. -/
noncomputable def kernelRun0_A (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S1x512x128 .f32) (harg4 : arg4.IsWhole) (arg5 : Memref sig .tc .vmem S1x64x64 .f32) (harg5 : arg5.IsWhole) (arg6 : Memref sig .tc .vmem S1x1x64 .f32) (harg6 : arg6.IsWhole) (arg7 : Memref sig .tc .vmem S1x64x64 .f32) (harg7 : arg7.IsWhole) (arg8 : Memref sig .tc .vmem S1x1x64 .f32) (harg8 : arg8.IsWhole) (arg9 : Memref sig .tc .vmem S128x1 .f32) (harg9 : arg9.IsWhole) (hc0 : cond0_0 i)
    (x0 : Vec F S1x128x64 .f32) (x1 : Vec F S1x128x64 .f32) (x2 : Vec F S1x512x128 .f32) (x3 : Vec F S1x64x64 .f32) (x4 : Vec F S1x1x64 .f32) (x5 : Vec F S1x64x64 .f32) (x6 : Vec F S1x1x64 .f32) :
    { L7 : List (View.Piece (Elt F) S128x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7)) -∗ K ⟨⟩))
          ⊢ wp frame (wpE (defs₀ (F := F)) Variants.none c none) E (cc0__ib_kernel i arg2 harg2 arg3 harg3 arg4 harg4 arg5 harg5 arg6 harg6 arg7 harg7 arg8 harg8 arg9 harg9) K } := by
  refine ⟨?_, fun E K => ?run⟩
  case run =>
    simp only [cc0__ib_kernel_eq_skeleton]; unfold cc0__ib_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact H7

end Cert.Kernel.Hand

end
-- ==== Proof.RunBB.lean ====
/-
  The kernel body run once, whole, at a grid point whose layer coordinate is NOT zero: nothing is zeroed; the output
  column's staging buffer holds what the point before left (its running contents), which the body loads, adds this
  layer's row sums to, and stores back.  The run yields the pieces the output buffer ends with, as functions of the
  input blocks and of the running contents.
-/
import proofs.«100973_j86681029968319_2_alg».proof.Proof.LoopB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces the output staging buffer ends with when the layer coordinate is not zero, with the body's triple. -/
noncomputable def kernelRun0_B (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S1x512x128 .f32) (harg4 : arg4.IsWhole) (arg5 : Memref sig .tc .vmem S1x64x64 .f32) (harg5 : arg5.IsWhole) (arg6 : Memref sig .tc .vmem S1x1x64 .f32) (harg6 : arg6.IsWhole) (arg7 : Memref sig .tc .vmem S1x64x64 .f32) (harg7 : arg7.IsWhole) (arg8 : Memref sig .tc .vmem S1x1x64 .f32) (harg8 : arg8.IsWhole) (arg9 : Memref sig .tc .vmem S128x1 .f32) (harg9 : arg9.IsWhole) (hc0 : ¬cond0_0 i)
    (x0 : Vec F S1x128x64 .f32) (x1 : Vec F S1x128x64 .f32) (x2 : Vec F S1x512x128 .f32) (x3 : Vec F S1x64x64 .f32) (x4 : Vec F S1x1x64 .f32) (x5 : Vec F S1x64x64 .f32) (x6 : Vec F S1x1x64 .f32) (xo7 : Vec F S128x1 .f32) :
    { L7 : List (View.Piece (Elt F) S128x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7)) -∗ K ⟨⟩))
          ⊢ wp frame (wpE (defs₀ (F := F)) Variants.none c none) E (cc0__ib_kernel i arg2 harg2 arg3 harg3 arg4 harg4 arg5 harg5 arg6 harg6 arg7 harg7 arg8 harg8 arg9 harg9) K } := by
  refine ⟨?_, fun E K => ?run⟩
  case run =>
    simp only [cc0__ib_kernel_eq_skeleton]; unfold cc0__ib_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact H7

end Cert.Kernel.Hand

end
-- ==== Proof.FrameB.lean ====
/-
  The frame of `Kernel`: every weakly fair execution of @main terminates, faults nowhere, and leaves the arguments
  as launched — with what the region's output column holds named along the way.

  The output window's block index ignores the layer coordinate, so its staging buffer is an accumulator over the
  three layers of a row tile: at a point with layer coordinate zero the body overwrites it whatever it held; at the
  two later points it adds to what the point before left, the buffer not being written back in between (it is
  written back only after the third layer).  `outsAt0` follows that by recursion on the grid position.  The proof
  data name, after the body at each point, every input buffer at its block and the output buffer at `outsAt0`;
  the body obligation is then the whole-body run of the point's case; the frame run is the library's, for a region
  between host lines.
-/
import proofs.«100973_j86681029968319_2_alg».proof.Proof.RunAB
import proofs.«100973_j86681029968319_2_alg».proof.Proof.RunBB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At layer zero the pieces of the output column tile its block (whole-column stores), so they cover it. -/
theorem cover0_A_7 (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S1x512x128 .f32) (harg4 : arg4.IsWhole) (arg5 : Memref sig .tc .vmem S1x64x64 .f32) (harg5 : arg5.IsWhole) (arg6 : Memref sig .tc .vmem S1x1x64 .f32) (harg6 : arg6.IsWhole) (arg7 : Memref sig .tc .vmem S1x64x64 .f32) (harg7 : arg7.IsWhole) (arg8 : Memref sig .tc .vmem S1x1x64 .f32) (harg8 : arg8.IsWhole) (arg9 : Memref sig .tc .vmem S128x1 .f32) (harg9 : arg9.IsWhole) (hc0 : cond0_0 i)
    (x0 : Vec F S1x128x64 .f32) (x1 : Vec F S1x128x64 .f32) (x2 : Vec F S1x512x128 .f32) (x3 : Vec F S1x64x64 .f32) (x4 : Vec F S1x1x64 .f32) (x5 : Vec F S1x64x64 .f32) (x6 : Vec F S1x1x64 .f32) (y : S128x1.Idx) :
    ∃ pc ∈ (kernelRun0_A c i arg2 harg2 arg3 harg3 arg4 harg4 arg5 harg5 arg6 harg6 arg7 harg7 arg8 harg8 arg9 harg9 hc0 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 hc0 x0 x1 x2 x3 x4 x5 x6).1 S128x1.size (by sl_kernel_rfl) y

/-- What the layer-zero case leaves in the output column's staging buffer: its pieces read back. -/
def out0_A_7 (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S1x512x128 .f32) (harg4 : arg4.IsWhole) (arg5 : Memref sig .tc .vmem S1x64x64 .f32) (harg5 : arg5.IsWhole) (arg6 : Memref sig .tc .vmem S1x1x64 .f32) (harg6 : arg6.IsWhole) (arg7 : Memref sig .tc .vmem S1x64x64 .f32) (harg7 : arg7.IsWhole) (arg8 : Memref sig .tc .vmem S1x1x64 .f32) (harg8 : arg8.IsWhole) (arg9 : Memref sig .tc .vmem S128x1 .f32) (harg9 : arg9.IsWhole) (hc0 : cond0_0 i)
    (x0 : Vec F S1x128x64 .f32) (x1 : Vec F S1x128x64 .f32) (x2 : Vec F S1x512x128 .f32) (x3 : Vec F S1x64x64 .f32) (x4 : Vec F S1x1x64 .f32) (x5 : Vec F S1x64x64 .f32) (x6 : Vec F S1x1x64 .f32) : Vec F S128x1 .f32 :=
  VO0_7.read (Elt F) (VO0_7.writes (Elt F) VO0_7.junk (kernelRun0_A c i arg2 harg2 arg3 harg3 arg4 harg4 arg5 harg5 arg6 harg6 arg7 harg7 arg8 harg8 arg9 harg9 hc0 x0 x1 x2 x3 x4 x5 x6).1)

/-- At a later layer likewise. -/
theorem cover0_B_7 (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S1x512x128 .f32) (harg4 : arg4.IsWhole) (arg5 : Memref sig .tc .vmem S1x64x64 .f32) (harg5 : arg5.IsWhole) (arg6 : Memref sig .tc .vmem S1x1x64 .f32) (harg6 : arg6.IsWhole) (arg7 : Memref sig .tc .vmem S1x64x64 .f32) (harg7 : arg7.IsWhole) (arg8 : Memref sig .tc .vmem S1x1x64 .f32) (harg8 : arg8.IsWhole) (arg9 : Memref sig .tc .vmem S128x1 .f32) (harg9 : arg9.IsWhole) (hc0 : ¬cond0_0 i)
    (x0 : Vec F S1x128x64 .f32) (x1 : Vec F S1x128x64 .f32) (x2 : Vec F S1x512x128 .f32) (x3 : Vec F S1x64x64 .f32) (x4 : Vec F S1x1x64 .f32) (x5 : Vec F S1x64x64 .f32) (x6 : Vec F S1x1x64 .f32) (xo7 : Vec F S128x1 .f32) (y : S128x1.Idx) :
    ∃ pc ∈ (kernelRun0_B c i arg2 harg2 arg3 harg3 arg4 harg4 arg5 harg5 arg6 harg6 arg7 harg7 arg8 harg8 arg9 harg9 hc0 x0 x1 x2 x3 x4 x5 x6 xo7).1, y ∈ pc.1.set :=
  View.cover_of_tiledL (kernelRun0_B c i arg2 harg2 arg3 harg3 arg4 harg4 arg5 harg5 arg6 harg6 arg7 harg7 arg8 harg8 arg9 harg9 hc0 x0 x1 x2 x3 x4 x5 x6 xo7).1 S128x1.size (by sl_kernel_rfl) y

/-- What a later-layer case leaves there, from the running contents `xo7`. -/
def out0_B_7 (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S1x512x128 .f32) (harg4 : arg4.IsWhole) (arg5 : Memref sig .tc .vmem S1x64x64 .f32) (harg5 : arg5.IsWhole) (arg6 : Memref sig .tc .vmem S1x1x64 .f32) (harg6 : arg6.IsWhole) (arg7 : Memref sig .tc .vmem S1x64x64 .f32) (harg7 : arg7.IsWhole) (arg8 : Memref sig .tc .vmem S1x1x64 .f32) (harg8 : arg8.IsWhole) (arg9 : Memref sig .tc .vmem S128x1 .f32) (harg9 : arg9.IsWhole) (hc0 : ¬cond0_0 i)
    (x0 : Vec F S1x128x64 .f32) (x1 : Vec F S1x128x64 .f32) (x2 : Vec F S1x512x128 .f32) (x3 : Vec F S1x64x64 .f32) (x4 : Vec F S1x1x64 .f32) (x5 : Vec F S1x64x64 .f32) (x6 : Vec F S1x1x64 .f32) (xo7 : Vec F S128x1 .f32) : Vec F S128x1 .f32 :=
  VO0_7.read (Elt F) (VO0_7.writes (Elt F) VO0_7.junk (kernelRun0_B c i arg2 harg2 arg3 harg3 arg4 harg4 arg5 harg5 arg6 harg6 arg7 harg7 arg8 harg8 arg9 harg9 hc0 x0 x1 x2 x3 x4 x5 x6 xo7).1)

/-! ## What the output column's buffer holds after each point -/

/-- THE ACCUMULATION: after the body at grid position `n` the output buffer holds the layer-zero case's contents when
    `n ≡ 0 (mod 3)`, and otherwise the later-layer case's over what position `n - 1` left. -/
def outsAt0 (c : Dev nD) : (n : ℕ) → n < cfg0.N → Vec F S128x1 .f32
  | 0, hn => out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)
  | n + 1, hn =>
    if h0 : (n + 1) % 3 = 0 then
      out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
    else
      out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn))

/-- `outsAt0` at a layer-zero point. -/
theorem outsAt0_A (c : Dev nD) (t : Fin cfg0.N) (h0 : t.val % 3 = 0) :
    outsAt0 m c t.val t.isLt = out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t) (iblk m c 4 t) (iblk m c 5 t) (iblk m c 6 t) := by
  obtain ⟨n, hn⟩ := t
  cases n with
  | zero => exact rfl
  | succ n => exact (dif_pos h0).trans rfl

/-- `outsAt0` at a later-layer point: over what the point before left. -/
theorem outsAt0_B (c : Dev nD) (t : Fin cfg0.N) (h0 : ¬t.val % 3 = 0) :
    outsAt0 m c t.val t.isLt = out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t` each
    input's buffer at its block and the output's at `outsAt0`; the invariant the scoped rest and the generator
    register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- At a later-layer point the output buffer holds what the body left at the point before: the point is not the first,
    and the buffer was not written back in between (it is written back after the third layer only). -/
theorem before0_7_B (c : Dev nD) (t : Fin cfg0.N) (h0 : ¬t.val % 3 = 0) (d) :
    (dats m 0 c).before 7 t d = (outsAt0 m c (t.val - 1) (Nat.lt_of_le_of_lt (Nat.sub_le _ _) t.isLt)) := by
  have hN : t.val < 24 := lt_of_lt_of_eq t.isLt (show cfg0.N = 24 from N_0)
  rw [Dat.before_out_kept _ 7 rfl t (by omega) (Bool.eq_false_iff.mpr fun h => by have := (flush0_7 _).mp h; dsimp only at this; omega)
    (fun _ => rfl) (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 1600000 in
/-- The body at any point: the inputs' buffers hold their blocks; the position modulo 3 says which case the point is in;
    at a later layer the output buffer holds what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  have hN : t.val < 24 := lt_of_lt_of_eq t.isLt (show cfg0.N = 24 from N_0)
  by_cases h0 : t.val % 3 = 0
  · rw [outsAt0_A m c t h0]
    unfold out0_A_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover0_A_7 c _ _ _ _ _ _ _ _ _ _ _ _ _ _ _ _ _ _ _ _ _ _ _ _ _)
  · rw [outsAt0_B m c t h0]
    simp only [before0_7_B m c t h0]
    unfold out0_B_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover0_B_7 c _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has the
    pipeline's arrays at what the library computes from the proof data and every other unscoped buffer as the host
    lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (run_main m ρ)

end Cert.Kernel.Hand

end
-- ==== Proof.FrameKitI.lean ====
/-
  The launch side of `KernelIdeal`'s frame, by hand: @main is thirteen host lines (the three stacked feature arrays as
  two concatenations of broadcasts, the packed copy of the second as a reshape, two transposed weights, two biases
  with a unit axis), the pipelined region over a grid of 8 × 3 points, and four host lines after it (the mean of the
  region's output column).  Here: the buffers' contents when the region is entered (the host lines' results over the
  launch memory), @main as "host lines, the region, host lines", what the lines after the region may touch, that no
  host line writes an argument, a window's block at a grid point, that an input window's staging buffer holds its
  block at every point, the frame claim's post read off the frame run's, and the body's one branch condition
  (the layer coordinate is zero) decided over the grid.
-/
import proofs.«100973_j86681029968319_2_alg».proof.Proof.Gen.KernelIdeal.Launch
import proofs.«100973_j86681029968319_2_alg».proof.Proof.Gen.KernelIdeal.Skeleton
import proofs.«100973_j86681029968319_2_alg».proof.Proof.Gen.KernelIdeal.Points
import proofs.«100973_j86681029968319_2_alg».proof.Proof.Gen.KernelIdeal.Loops
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered, as a valuation: the host lines before it over the launch memory. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host lines allocate nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it: it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the buffers that bypass it only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write no array of the pipeline (each writes its own result buffer, which is none of them). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.reshape_writes, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- Nor does a host line after it, and it is no window's array: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- Nor does a host line after it, and it is no window's array: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- Nor does a host line after it, and it is no window's array: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- Nor does a host line after it, and it is no window's array: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- Nor does a host line after it, and it is no window's array: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- Nor does a host line after it, and it is no window's array: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- Nor does a host line after it, and it is no window's array: argument 6 ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- Nor does a host line after it, and it is no window's array: argument 7 ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.nary_writes, StableHlo.reshape_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, for any proof data whose array is the
    entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, for any proof data whose array is the
    entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, for any proof data whose array is the
    entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, for any proof data whose array is the
    entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, for any proof data whose array is the
    entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, for any proof data whose array is the
    entry contents and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the entry contents, a run to the frame run's post (the arrays at what the
    library computes from the data, every bypassing buffer at the later host lines' results) leaves every argument
    as launched: an argument is no window's array, and no host line writes it. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c)⟩) h

/-! ## The body's branch condition -/

/-- The condition of the body's one `if`: the layer coordinate (grid axis 1) is zero. -/
abbrev cond0_0 (i : grid0.Coords) : Prop := (Scalar.cmpi .ne (Scalar.extui (Scalar.cmpi .eq (BitVec.ofNat 32 (i 1).val) 0#32)) 0#32) = 1#1
/-- It holds at the points ≡ 0 (mod 3): the grid runs the layer coordinate fastest. -/
theorem hcond0_0 : ∀ t : Fin cfg0.N, cond0_0 (grid0.coords t) ↔ t.val % 3 = 0 :=
  (by decide +kernel : ∀ t : Fin grid0.N, cond0_0 (grid0.coords t) ↔ t.val % 3 = 0)

/-! ## The staging memrefs at a point -/

/-- One staging buffer of the output window, through which its contents are stated. -/
abbrev VO0_7 : View sig .tc .vmem S128x1 .f32 := (Memref.whole cc0_stg7_0 : Memref sig .tc .vmem S128x1 .f32).view
abbrev ms0_0 (t : Fin cfg0.N) : Memref sig .tc .vmem S1x128x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x1 .f32 := win0_7.stage (cfg0.slots t 7)
abbrev hs0_7 (t : Fin cfg0.N) : (ms0_7 t).IsWhole := hstage0_7 ((cfg0.slots t 7).cast nbuf0_7)

end Cert.KernelIdeal.Hand

end
-- ==== Proof.LoopI.lean ====
/-
  The counted loop of the kernel body — eight trips, each loading one chunk of 64 packed reference rows from the
  third window's staging buffer through its leading-axis view and adding the chunk's column sums of absolute
  differences to a carried 128 × 128 accumulator — passed by its invariant: before trip `k` the buffer holds its
  contents, untouched, and the accumulator is the `k`-fold iterate of the trip's yield from the initial value.
  One trip is run once, at a symbolic `k`; what it yields, as a function of the carried value, is the run's find.
-/
import proofs.«100973_j86681029968319_2_alg».proof.Proof.FrameKitI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxRecDepth 8192
set_option maxHeartbeats 4000000

local notation "𝕄G" => MT nD τ sig Unit (Elt F) ℕ (UR sig nD τ) ℕ

/-- ONE TRIP at a symbolic `k` and carried value `acc`: the window buffer at its contents in and out; the yield a
    function of the carried value, found by the run. -/
@[irreducible] def tripH (𝒱 : Variants) (c : Dev nD) (bd : Option 𝒱.V) (i : grid0.Coords) (arg2 : Memref sig .tc .vmem S1x128x64 .f32) (harg2 : arg2.IsWhole) (arg3 : Memref sig .tc .vmem S1x128x64 .f32) (harg3 : arg3.IsWhole) (arg4 : Memref sig .tc .vmem S1x512x128 .f32) (harg4 : arg4.IsWhole) (arg5 : Memref sig .tc .vmem S1x64x64 .f32) (harg5 : arg5.IsWhole) (arg6 : Memref sig .tc .vmem S1x1x64 .f32) (harg6 : arg6.IsWhole) (arg7 : Memref sig .tc .vmem S1x64x64 .f32) (harg7 : arg7.IsWhole) (arg8 : Memref sig .tc .vmem S1x1x64 .f32) (harg8 : arg8.IsWhole) (arg9 : Memref sig .tc .vmem S128x1 .f32) (harg9 : arg9.IsWhole) (v15 : FVec F S128x64 .f32) (X4 : BufTy.Contents (Elt F) arg4.view.ty) (k : Fin k0_t1_loop.trips) :
    { R : ((FVec F S128x128 .f32) → FVec F S128x128 .f32) // ∀ (E : Set ℕ) (acc : FVec F S128x128 .f32),
      (iprop(arg4.view.loc (c : Thread nD τ) ↦[arg4.view.set]{fullShare} X4) : sProp 𝕄G)
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 v15 k acc)
          (fun yld => iprop(⌜yld = R acc⌝ ∗ (arg4.view.loc (c : Thread nD τ) ↦[arg4.view.set]{fullShare} X4))) } := by
  have hk : k.val < 8 := Nat.lt_of_lt_of_le k.isLt k0_t1_abs.2.1
  refine ⟨?_, fun E acc => ?run⟩
  case run =>
    unfold k0_t1_body
    iintro H4
    sl_exec
    sl_step
    sl_close

/-- The trip's yield, a plain projection. -/
abbrev tripRH (𝒱 : Variants) (c : Dev nD) (bd : Option 𝒱.V) (i : grid0.Coords) (arg2 : Memref sig .tc .vmem S1x128x64 .f32) (harg2 : arg2.IsWhole) (arg3 : Memref sig .tc .vmem S1x128x64 .f32) (harg3 : arg3.IsWhole) (arg4 : Memref sig .tc .vmem S1x512x128 .f32) (harg4 : arg4.IsWhole) (arg5 : Memref sig .tc .vmem S1x64x64 .f32) (harg5 : arg5.IsWhole) (arg6 : Memref sig .tc .vmem S1x1x64 .f32) (harg6 : arg6.IsWhole) (arg7 : Memref sig .tc .vmem S1x64x64 .f32) (harg7 : arg7.IsWhole) (arg8 : Memref sig .tc .vmem S1x1x64 .f32) (harg8 : arg8.IsWhole) (arg9 : Memref sig .tc .vmem S128x1 .f32) (harg9 : arg9.IsWhole) (v15 : FVec F S128x64 .f32) (X4 : BufTy.Contents (Elt F) arg4.view.ty) (k : Fin k0_t1_loop.trips) (acc : FVec F S128x128 .f32) : FVec F S128x128 .f32 :=
  (tripH (F := F) 𝒱 c bd i arg2 harg2 arg3 harg3 arg4 harg4 arg5 harg5 arg6 harg6 arg7 harg7 arg8 harg8 arg9 harg9 v15 X4 k).1 acc

/-- Trip `k`'s contribution to the carried value; past the last trip, nothing. -/
@[irreducible] def stStepH (𝒱 : Variants) (c : Dev nD) (bd : Option 𝒱.V) (i : grid0.Coords) (arg2 : Memref sig .tc .vmem S1x128x64 .f32) (harg2 : arg2.IsWhole) (arg3 : Memref sig .tc .vmem S1x128x64 .f32) (harg3 : arg3.IsWhole) (arg4 : Memref sig .tc .vmem S1x512x128 .f32) (harg4 : arg4.IsWhole) (arg5 : Memref sig .tc .vmem S1x64x64 .f32) (harg5 : arg5.IsWhole) (arg6 : Memref sig .tc .vmem S1x1x64 .f32) (harg6 : arg6.IsWhole) (arg7 : Memref sig .tc .vmem S1x64x64 .f32) (harg7 : arg7.IsWhole) (arg8 : Memref sig .tc .vmem S1x1x64 .f32) (harg8 : arg8.IsWhole) (arg9 : Memref sig .tc .vmem S128x1 .f32) (harg9 : arg9.IsWhole) (v15 : FVec F S128x64 .f32) (X4 : BufTy.Contents (Elt F) arg4.view.ty) (init : FVec F S128x128 .f32) (k : ℕ) (prev : FVec F S128x128 .f32) : FVec F S128x128 .f32 :=
  if h : k < k0_t1_loop.trips then tripRH (F := F) 𝒱 c bd i arg2 harg2 arg3 harg3 arg4 harg4 arg5 harg5 arg6 harg6 arg7 harg7 arg8 harg8 arg9 harg9 v15 X4 ⟨k, h⟩ prev else prev

/-- The carried value before trip `k`. -/
def stH (𝒱 : Variants) (c : Dev nD) (bd : Option 𝒱.V) (i : grid0.Coords) (arg2 : Memref sig .tc .vmem S1x128x64 .f32) (harg2 : arg2.IsWhole) (arg3 : Memref sig .tc .vmem S1x128x64 .f32) (harg3 : arg3.IsWhole) (arg4 : Memref sig .tc .vmem S1x512x128 .f32) (harg4 : arg4.IsWhole) (arg5 : Memref sig .tc .vmem S1x64x64 .f32) (harg5 : arg5.IsWhole) (arg6 : Memref sig .tc .vmem S1x1x64 .f32) (harg6 : arg6.IsWhole) (arg7 : Memref sig .tc .vmem S1x64x64 .f32) (harg7 : arg7.IsWhole) (arg8 : Memref sig .tc .vmem S1x1x64 .f32) (harg8 : arg8.IsWhole) (arg9 : Memref sig .tc .vmem S128x1 .f32) (harg9 : arg9.IsWhole) (v15 : FVec F S128x64 .f32) (X4 : BufTy.Contents (Elt F) arg4.view.ty) (init : FVec F S128x128 .f32) : ℕ → FVec F S128x128 .f32
  | 0 => init
  | k + 1 => stStepH 𝒱 c bd i arg2 harg2 arg3 harg3 arg4 harg4 arg5 harg5 arg6 harg6 arg7 harg7 arg8 harg8 arg9 harg9 v15 X4 init k (stH 𝒱 c bd i arg2 harg2 arg3 harg3 arg4 harg4 arg5 harg5 arg6 harg6 arg7 harg7 arg8 harg8 arg9 harg9 v15 X4 init k)

theorem stH_succ (𝒱 : Variants) (c : Dev nD) (bd : Option 𝒱.V) (i : grid0.Coords) (arg2 : Memref sig .tc .vmem S1x128x64 .f32) (harg2 : arg2.IsWhole) (arg3 : Memref sig .tc .vmem S1x128x64 .f32) (harg3 : arg3.IsWhole) (arg4 : Memref sig .tc .vmem S1x512x128 .f32) (harg4 : arg4.IsWhole) (arg5 : Memref sig .tc .vmem S1x64x64 .f32) (harg5 : arg5.IsWhole) (arg6 : Memref sig .tc .vmem S1x1x64 .f32) (harg6 : arg6.IsWhole) (arg7 : Memref sig .tc .vmem S1x64x64 .f32) (harg7 : arg7.IsWhole) (arg8 : Memref sig .tc .vmem S1x1x64 .f32) (harg8 : arg8.IsWhole) (arg9 : Memref sig .tc .vmem S128x1 .f32) (harg9 : arg9.IsWhole) (v15 : FVec F S128x64 .f32) (X4 : BufTy.Contents (Elt F) arg4.view.ty) (init : FVec F S128x128 .f32) (k : Fin k0_t1_loop.trips) :
    stH (F := F) 𝒱 c bd i arg2 harg2 arg3 harg3 arg4 harg4 arg5 harg5 arg6 harg6 arg7 harg7 arg8 harg8 arg9 harg9 v15 X4 init (k.val + 1) = tripRH (F := F) 𝒱 c bd i arg2 harg2 arg3 harg3 arg4 harg4 arg5 harg5 arg6 harg6 arg7 harg7 arg8 harg8 arg9 harg9 v15 X4 k (stH (F := F) 𝒱 c bd i arg2 harg2 arg3 harg3 arg4 harg4 arg5 harg5 arg6 harg6 arg7 harg7 arg8 harg8 arg9 harg9 v15 X4 init k.val) := by
  rw [stH.eq_2]; unfold stStepH; exact dif_pos k.isLt

theorem stH_zero (𝒱 : Variants) (c : Dev nD) (bd : Option 𝒱.V) (i : grid0.Coords) (arg2 : Memref sig .tc .vmem S1x128x64 .f32) (harg2 : arg2.IsWhole) (arg3 : Memref sig .tc .vmem S1x128x64 .f32) (harg3 : arg3.IsWhole) (arg4 : Memref sig .tc .vmem S1x512x128 .f32) (harg4 : arg4.IsWhole) (arg5 : Memref sig .tc .vmem S1x64x64 .f32) (harg5 : arg5.IsWhole) (arg6 : Memref sig .tc .vmem S1x1x64 .f32) (harg6 : arg6.IsWhole) (arg7 : Memref sig .tc .vmem S1x64x64 .f32) (harg7 : arg7.IsWhole) (arg8 : Memref sig .tc .vmem S1x1x64 .f32) (harg8 : arg8.IsWhole) (arg9 : Memref sig .tc .vmem S128x1 .f32) (harg9 : arg9.IsWhole) (v15 : FVec F S128x64 .f32) (X4 : BufTy.Contents (Elt F) arg4.view.ty) (init : FVec F S128x128 .f32) : stH (F := F) 𝒱 c bd i arg2 harg2 arg3 harg3 arg4 harg4 arg5 harg5 arg6 harg6 arg7 harg7 arg8 harg8 arg9 harg9 v15 X4 init 0 = init := rfl

macro_rules | `(tactic| sl_pure) => `(tactic| with_reducible exact (Cert.KernelIdeal.Hand.stH_zero ..).symm)

/-- THE INVARIANT before trip `k`. -/
abbrev invH (𝒱 : Variants) (c : Dev nD) (bd : Option 𝒱.V) (i : grid0.Coords) (arg2 : Memref sig .tc .vmem S1x128x64 .f32) (harg2 : arg2.IsWhole) (arg3 : Memref sig .tc .vmem S1x128x64 .f32) (harg3 : arg3.IsWhole) (arg4 : Memref sig .tc .vmem S1x512x128 .f32) (harg4 : arg4.IsWhole) (arg5 : Memref sig .tc .vmem S1x64x64 .f32) (harg5 : arg5.IsWhole) (arg6 : Memref sig .tc .vmem S1x1x64 .f32) (harg6 : arg6.IsWhole) (arg7 : Memref sig .tc .vmem S1x64x64 .f32) (harg7 : arg7.IsWhole) (arg8 : Memref sig .tc .vmem S1x1x64 .f32) (harg8 : arg8.IsWhole) (arg9 : Memref sig .tc .vmem S128x1 .f32) (harg9 : arg9.IsWhole) (v15 : FVec F S128x64 .f32) (X4 : BufTy.Contents (Elt F) arg4.view.ty) (init : FVec F S128x128 .f32) (k : ℕ) (acc : FVec F S128x128 .f32) : sProp 𝕄G :=
  iprop((arg4.view.loc (c : Thread nD τ) ↦[arg4.view.set]{fullShare} X4) ∗ ⌜acc = stH (F := F) 𝒱 c bd i arg2 harg2 arg3 harg3 arg4 harg4 arg5 harg5 arg6 harg6 arg7 harg7 arg8 harg8 arg9 harg9 v15 X4 init k⌝)

set_option warn.classDefReducibility false in
/-- THE LOOP BY ITS INVARIANT. -/
@[sl_loop] def loopInvH (𝒱 : Variants) (c : Dev nD) (bd : Option 𝒱.V) (E : Set ℕ) (i : grid0.Coords) (arg2 : Memref sig .tc .vmem S1x128x64 .f32) (harg2 : arg2.IsWhole) (arg3 : Memref sig .tc .vmem S1x128x64 .f32) (harg3 : arg3.IsWhole) (arg4 : Memref sig .tc .vmem S1x512x128 .f32) (harg4 : arg4.IsWhole) (arg5 : Memref sig .tc .vmem S1x64x64 .f32) (harg5 : arg5.IsWhole) (arg6 : Memref sig .tc .vmem S1x1x64 .f32) (harg6 : arg6.IsWhole) (arg7 : Memref sig .tc .vmem S1x64x64 .f32) (harg7 : arg7.IsWhole) (arg8 : Memref sig .tc .vmem S1x1x64 .f32) (harg8 : arg8.IsWhole) (arg9 : Memref sig .tc .vmem S128x1 .f32) (harg9 : arg9.IsWhole) (v15 : FVec F S128x64 .f32) (X4 : BufTy.Contents (Elt F) arg4.view.ty) (init : FVec F S128x128 .f32) :
    LoopInvTy_k0_t1 (F := F) Unit ℕ (UR sig nD τ) ℕ 𝒱 c bd E i arg2 harg2 arg3 harg3 arg4 harg4 arg5 harg5 arg6 harg6 arg7 harg7 arg8 harg8 arg9 harg9 v15 init where
  inv := invH (F := F) 𝒱 c bd i arg2 harg2 arg3 harg3 arg4 harg4 arg5 harg5 arg6 harg6 arg7 harg7 arg8 harg8 arg9 harg9 v15 X4 init
  step k acc := by
    iintro ⟨H4, %h_acc⟩
    subst h_acc
    iapply (wp_wand_r Idealize.ShloMosaic.frame (wpE (defs₀ (F := F)) 𝒱 (c : Thread nD τ) bd) E)
    isplitl [H4]
    · iapply ((tripH (F := F) 𝒱 c bd i arg2 harg2 arg3 harg3 arg4 harg4 arg5 harg5 arg6 harg6 arg7 harg7 arg8 harg8 arg9 harg9 v15 X4 k).2 E (stH (F := F) 𝒱 c bd i arg2 harg2 arg3 harg3 arg4 harg4 arg5 harg5 arg6 harg6 arg7 harg7 arg8 harg8 arg9 harg9 v15 X4 init k))
      iexact H4
    · iintro %yld ⟨%h_res, H4⟩
      isplitl [H4]; · iexact H4
      simp only [stH_succ]
      ipureintro; rw [h_res]

end Cert.KernelIdeal.Hand

end
-- ==== Proof.RunAI.lean ====
/-
  The kernel body run once, whole, at a grid point whose layer coordinate is ZERO: the seven input staging buffers
  hold their blocks and come back as they were; the output column's staging buffer may hold anything on entry — the
  body first stores zeros over it, then loads it back and stores the column plus this layer's row sums.  What the run
  yields is the list of pieces (stores, last first) the output buffer ends with: the run's own find.  The counted
  loop over the eight chunks of packed reference rows is passed by its invariant, the carried accumulator.
-/
import proofs.«100973_j86681029968319_2_alg».proof.Proof.LoopI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces the output staging buffer ends with when the layer coordinate is zero, with the body's triple. -/
noncomputable def kernelRun0_A (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S1x512x128 .f32) (harg4 : arg4.IsWhole) (arg5 : Memref sig .tc .vmem S1x64x64 .f32) (harg5 : arg5.IsWhole) (arg6 : Memref sig .tc .vmem S1x1x64 .f32) (harg6 : arg6.IsWhole) (arg7 : Memref sig .tc .vmem S1x64x64 .f32) (harg7 : arg7.IsWhole) (arg8 : Memref sig .tc .vmem S1x1x64 .f32) (harg8 : arg8.IsWhole) (arg9 : Memref sig .tc .vmem S128x1 .f32) (harg9 : arg9.IsWhole) (hc0 : cond0_0 i)
    (x0 : Vec F S1x128x64 .f32) (x1 : Vec F S1x128x64 .f32) (x2 : Vec F S1x512x128 .f32) (x3 : Vec F S1x64x64 .f32) (x4 : Vec F S1x1x64 .f32) (x5 : Vec F S1x64x64 .f32) (x6 : Vec F S1x1x64 .f32) :
    { L7 : List (View.Piece (Elt F) S128x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7)) -∗ K ⟨⟩))
          ⊢ wp frame (wpE (defs₀ (F := F)) Variants.none c none) E (cc0__ib_kernel i arg2 harg2 arg3 harg3 arg4 harg4 arg5 harg5 arg6 harg6 arg7 harg7 arg8 harg8 arg9 harg9) K } := by
  refine ⟨?_, fun E K => ?run⟩
  case run =>
    simp only [cc0__ib_kernel_eq_skeleton]; unfold cc0__ib_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact H7

end Cert.KernelIdeal.Hand

end
-- ==== Proof.RunBI.lean ====
/-
  The kernel body run once, whole, at a grid point whose layer coordinate is NOT zero: nothing is zeroed; the output
  column's staging buffer holds what the point before left (its running contents), which the body loads, adds this
  layer's row sums to, and stores back.  The run yields the pieces the output buffer ends with, as functions of the
  input blocks and of the running contents.
-/
import proofs.«100973_j86681029968319_2_alg».proof.Proof.LoopI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces the output staging buffer ends with when the layer coordinate is not zero, with the body's triple. -/
noncomputable def kernelRun0_B (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S1x512x128 .f32) (harg4 : arg4.IsWhole) (arg5 : Memref sig .tc .vmem S1x64x64 .f32) (harg5 : arg5.IsWhole) (arg6 : Memref sig .tc .vmem S1x1x64 .f32) (harg6 : arg6.IsWhole) (arg7 : Memref sig .tc .vmem S1x64x64 .f32) (harg7 : arg7.IsWhole) (arg8 : Memref sig .tc .vmem S1x1x64 .f32) (harg8 : arg8.IsWhole) (arg9 : Memref sig .tc .vmem S128x1 .f32) (harg9 : arg9.IsWhole) (hc0 : ¬cond0_0 i)
    (x0 : Vec F S1x128x64 .f32) (x1 : Vec F S1x128x64 .f32) (x2 : Vec F S1x512x128 .f32) (x3 : Vec F S1x64x64 .f32) (x4 : Vec F S1x1x64 .f32) (x5 : Vec F S1x64x64 .f32) (x6 : Vec F S1x1x64 .f32) (xo7 : Vec F S128x1 .f32) :
    { L7 : List (View.Piece (Elt F) S128x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7)) -∗ K ⟨⟩))
          ⊢ wp frame (wpE (defs₀ (F := F)) Variants.none c none) E (cc0__ib_kernel i arg2 harg2 arg3 harg3 arg4 harg4 arg5 harg5 arg6 harg6 arg7 harg7 arg8 harg8 arg9 harg9) K } := by
  refine ⟨?_, fun E K => ?run⟩
  case run =>
    simp only [cc0__ib_kernel_eq_skeleton]; unfold cc0__ib_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact H7

end Cert.KernelIdeal.Hand

end
-- ==== Proof.FrameI.lean ====
/-
  The frame of `KernelIdeal`: every weakly fair execution of @main terminates, faults nowhere, and leaves the arguments
  as launched — with what the region's output column holds named along the way.

  The output window's block index ignores the layer coordinate, so its staging buffer is an accumulator over the
  three layers of a row tile: at a point with layer coordinate zero the body overwrites it whatever it held; at the
  two later points it adds to what the point before left, the buffer not being written back in between (it is
  written back only after the third layer).  `outsAt0` follows that by recursion on the grid position.  The proof
  data name, after the body at each point, every input buffer at its block and the output buffer at `outsAt0`;
  the body obligation is then the whole-body run of the point's case; the frame run is the library's, for a region
  between host lines.
-/
import proofs.«100973_j86681029968319_2_alg».proof.Proof.RunAI
import proofs.«100973_j86681029968319_2_alg».proof.Proof.RunBI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At layer zero the pieces of the output column tile its block (whole-column stores), so they cover it. -/
theorem cover0_A_7 (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S1x512x128 .f32) (harg4 : arg4.IsWhole) (arg5 : Memref sig .tc .vmem S1x64x64 .f32) (harg5 : arg5.IsWhole) (arg6 : Memref sig .tc .vmem S1x1x64 .f32) (harg6 : arg6.IsWhole) (arg7 : Memref sig .tc .vmem S1x64x64 .f32) (harg7 : arg7.IsWhole) (arg8 : Memref sig .tc .vmem S1x1x64 .f32) (harg8 : arg8.IsWhole) (arg9 : Memref sig .tc .vmem S128x1 .f32) (harg9 : arg9.IsWhole) (hc0 : cond0_0 i)
    (x0 : Vec F S1x128x64 .f32) (x1 : Vec F S1x128x64 .f32) (x2 : Vec F S1x512x128 .f32) (x3 : Vec F S1x64x64 .f32) (x4 : Vec F S1x1x64 .f32) (x5 : Vec F S1x64x64 .f32) (x6 : Vec F S1x1x64 .f32) (y : S128x1.Idx) :
    ∃ pc ∈ (kernelRun0_A c i arg2 harg2 arg3 harg3 arg4 harg4 arg5 harg5 arg6 harg6 arg7 harg7 arg8 harg8 arg9 harg9 hc0 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 hc0 x0 x1 x2 x3 x4 x5 x6).1 S128x1.size (by sl_kernel_rfl) y

/-- What the layer-zero case leaves in the output column's staging buffer: its pieces read back. -/
def out0_A_7 (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S1x512x128 .f32) (harg4 : arg4.IsWhole) (arg5 : Memref sig .tc .vmem S1x64x64 .f32) (harg5 : arg5.IsWhole) (arg6 : Memref sig .tc .vmem S1x1x64 .f32) (harg6 : arg6.IsWhole) (arg7 : Memref sig .tc .vmem S1x64x64 .f32) (harg7 : arg7.IsWhole) (arg8 : Memref sig .tc .vmem S1x1x64 .f32) (harg8 : arg8.IsWhole) (arg9 : Memref sig .tc .vmem S128x1 .f32) (harg9 : arg9.IsWhole) (hc0 : cond0_0 i)
    (x0 : Vec F S1x128x64 .f32) (x1 : Vec F S1x128x64 .f32) (x2 : Vec F S1x512x128 .f32) (x3 : Vec F S1x64x64 .f32) (x4 : Vec F S1x1x64 .f32) (x5 : Vec F S1x64x64 .f32) (x6 : Vec F S1x1x64 .f32) : Vec F S128x1 .f32 :=
  VO0_7.read (Elt F) (VO0_7.writes (Elt F) VO0_7.junk (kernelRun0_A c i arg2 harg2 arg3 harg3 arg4 harg4 arg5 harg5 arg6 harg6 arg7 harg7 arg8 harg8 arg9 harg9 hc0 x0 x1 x2 x3 x4 x5 x6).1)

/-- At a later layer likewise. -/
theorem cover0_B_7 (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S1x512x128 .f32) (harg4 : arg4.IsWhole) (arg5 : Memref sig .tc .vmem S1x64x64 .f32) (harg5 : arg5.IsWhole) (arg6 : Memref sig .tc .vmem S1x1x64 .f32) (harg6 : arg6.IsWhole) (arg7 : Memref sig .tc .vmem S1x64x64 .f32) (harg7 : arg7.IsWhole) (arg8 : Memref sig .tc .vmem S1x1x64 .f32) (harg8 : arg8.IsWhole) (arg9 : Memref sig .tc .vmem S128x1 .f32) (harg9 : arg9.IsWhole) (hc0 : ¬cond0_0 i)
    (x0 : Vec F S1x128x64 .f32) (x1 : Vec F S1x128x64 .f32) (x2 : Vec F S1x512x128 .f32) (x3 : Vec F S1x64x64 .f32) (x4 : Vec F S1x1x64 .f32) (x5 : Vec F S1x64x64 .f32) (x6 : Vec F S1x1x64 .f32) (xo7 : Vec F S128x1 .f32) (y : S128x1.Idx) :
    ∃ pc ∈ (kernelRun0_B c i arg2 harg2 arg3 harg3 arg4 harg4 arg5 harg5 arg6 harg6 arg7 harg7 arg8 harg8 arg9 harg9 hc0 x0 x1 x2 x3 x4 x5 x6 xo7).1, y ∈ pc.1.set :=
  View.cover_of_tiledL (kernelRun0_B c i arg2 harg2 arg3 harg3 arg4 harg4 arg5 harg5 arg6 harg6 arg7 harg7 arg8 harg8 arg9 harg9 hc0 x0 x1 x2 x3 x4 x5 x6 xo7).1 S128x1.size (by sl_kernel_rfl) y

/-- What a later-layer case leaves there, from the running contents `xo7`. -/
def out0_B_7 (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S1x512x128 .f32) (harg4 : arg4.IsWhole) (arg5 : Memref sig .tc .vmem S1x64x64 .f32) (harg5 : arg5.IsWhole) (arg6 : Memref sig .tc .vmem S1x1x64 .f32) (harg6 : arg6.IsWhole) (arg7 : Memref sig .tc .vmem S1x64x64 .f32) (harg7 : arg7.IsWhole) (arg8 : Memref sig .tc .vmem S1x1x64 .f32) (harg8 : arg8.IsWhole) (arg9 : Memref sig .tc .vmem S128x1 .f32) (harg9 : arg9.IsWhole) (hc0 : ¬cond0_0 i)
    (x0 : Vec F S1x128x64 .f32) (x1 : Vec F S1x128x64 .f32) (x2 : Vec F S1x512x128 .f32) (x3 : Vec F S1x64x64 .f32) (x4 : Vec F S1x1x64 .f32) (x5 : Vec F S1x64x64 .f32) (x6 : Vec F S1x1x64 .f32) (xo7 : Vec F S128x1 .f32) : Vec F S128x1 .f32 :=
  VO0_7.read (Elt F) (VO0_7.writes (Elt F) VO0_7.junk (kernelRun0_B c i arg2 harg2 arg3 harg3 arg4 harg4 arg5 harg5 arg6 harg6 arg7 harg7 arg8 harg8 arg9 harg9 hc0 x0 x1 x2 x3 x4 x5 x6 xo7).1)

/-! ## What the output column's buffer holds after each point -/

/-- THE ACCUMULATION: after the body at grid position `n` the output buffer holds the layer-zero case's contents when
    `n ≡ 0 (mod 3)`, and otherwise the later-layer case's over what position `n - 1` left. -/
def outsAt0 (c : Dev nD) : (n : ℕ) → n < cfg0.N → Vec F S128x1 .f32
  | 0, hn => out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)
  | n + 1, hn =>
    if h0 : (n + 1) % 3 = 0 then
      out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
    else
      out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn))

/-- `outsAt0` at a layer-zero point. -/
theorem outsAt0_A (c : Dev nD) (t : Fin cfg0.N) (h0 : t.val % 3 = 0) :
    outsAt0 m c t.val t.isLt = out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t) (iblk m c 4 t) (iblk m c 5 t) (iblk m c 6 t) := by
  obtain ⟨n, hn⟩ := t
  cases n with
  | zero => exact rfl
  | succ n => exact (dif_pos h0).trans rfl

/-- `outsAt0` at a later-layer point: over what the point before left. -/
theorem outsAt0_B (c : Dev nD) (t : Fin cfg0.N) (h0 : ¬t.val % 3 = 0) :
    outsAt0 m c t.val t.isLt = out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t` each
    input's buffer at its block and the output's at `outsAt0`; the invariant the scoped rest and the generator
    register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- At a later-layer point the output buffer holds what the body left at the point before: the point is not the first,
    and the buffer was not written back in between (it is written back after the third layer only). -/
theorem before0_7_B (c : Dev nD) (t : Fin cfg0.N) (h0 : ¬t.val % 3 = 0) (d) :
    (dats m 0 c).before 7 t d = (outsAt0 m c (t.val - 1) (Nat.lt_of_le_of_lt (Nat.sub_le _ _) t.isLt)) := by
  have hN : t.val < 24 := lt_of_lt_of_eq t.isLt (show cfg0.N = 24 from N_0)
  rw [Dat.before_out_kept _ 7 rfl t (by omega) (Bool.eq_false_iff.mpr fun h => by have := (flush0_7 _).mp h; dsimp only at this; omega)
    (fun _ => rfl) (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 1600000 in
/-- The body at any point: the inputs' buffers hold their blocks; the position modulo 3 says which case the point is in;
    at a later layer the output buffer holds what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  have hN : t.val < 24 := lt_of_lt_of_eq t.isLt (show cfg0.N = 24 from N_0)
  by_cases h0 : t.val % 3 = 0
  · rw [outsAt0_A m c t h0]
    unfold out0_A_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover0_A_7 c _ _ _ _ _ _ _ _ _ _ _ _ _ _ _ _ _ _ _ _ _ _ _ _ _)
  · rw [outsAt0_B m c t h0]
    simp only [before0_7_B m c t h0]
    unfold out0_B_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover0_B_7 c _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has the
    pipeline's arrays at what the library computes from the proof data and every other unscoped buffer as the host
    lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (run_main m ρ)

end Cert.KernelIdeal.Hand

end
-- ==== Proof.CaseValues.lean ====
/-
  What each case of the kernel body leaves in the output column's staging buffer, as a value: the last store covers
  the whole column, so the buffer reads back as that store's payload — the old column (at layer zero: the zero column
  just stored) plus the row sums, computed from the mean head, the variance head, the reference-feature block and the
  loop's final accumulator, each a function of the input blocks, which the body's loads read whole.
-/
import proofs.«100973_j86681029968319_2_alg».proof.Proof.FrameI
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The body's value at a point, from the seven input blocks and the column `xo` it adds to. -/
def bodyVal (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S1x512x128 .f32) (harg4 : arg4.IsWhole) (arg5 : Memref sig .tc .vmem S1x64x64 .f32) (harg5 : arg5.IsWhole) (arg6 : Memref sig .tc .vmem S1x1x64 .f32) (harg6 : arg6.IsWhole) (arg7 : Memref sig .tc .vmem S1x64x64 .f32) (harg7 : arg7.IsWhole) (arg8 : Memref sig .tc .vmem S1x1x64 .f32) (harg8 : arg8.IsWhole) (arg9 : Memref sig .tc .vmem S128x1 .f32) (harg9 : arg9.IsWhole)
    (x0 : Vec F S1x128x64 .f32) (x1 : Vec F S1x128x64 .f32) (x2 : Vec F S1x512x128 .f32) (x3 : Vec F S1x64x64 .f32) (x4 : Vec F S1x1x64 .f32) (x5 : Vec F S1x64x64 .f32) (x6 : Vec F S1x1x64 .f32) (xo : Vec F S128x1 .f32) : Vec F S128x1 .f32 :=
  k0_pay4 (k0_pay6 x0 x3 x4) (k0_pay7 x0 x5 x6) x1 (stH Variants.none c none i arg2 harg2 arg3 harg3 arg4 harg4 arg5 harg5 arg6 harg6 arg7 harg7 arg8 harg8 arg9 harg9 (k0_pay6 x0 x3 x4) (harg4.unread x2) (k0_pay1 (F := F)) k0_t1_loop.trips) xo

/-- At a later layer the body leaves the running column plus this layer's row sums. -/
theorem out_B (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S1x512x128 .f32) (harg4 : arg4.IsWhole) (arg5 : Memref sig .tc .vmem S1x64x64 .f32) (harg5 : arg5.IsWhole) (arg6 : Memref sig .tc .vmem S1x1x64 .f32) (harg6 : arg6.IsWhole) (arg7 : Memref sig .tc .vmem S1x64x64 .f32) (harg7 : arg7.IsWhole) (arg8 : Memref sig .tc .vmem S1x1x64 .f32) (harg8 : arg8.IsWhole) (arg9 : Memref sig .tc .vmem S128x1 .f32) (harg9 : arg9.IsWhole) (hc0 : ¬cond0_0 i)
    (x0 : Vec F S1x128x64 .f32) (x1 : Vec F S1x128x64 .f32) (x2 : Vec F S1x512x128 .f32) (x3 : Vec F S1x64x64 .f32) (x4 : Vec F S1x1x64 .f32) (x5 : Vec F S1x64x64 .f32) (x6 : Vec F S1x1x64 .f32) (xo7 : Vec F S128x1 .f32) :
    out0_B_7 c i arg2 harg2 arg3 harg3 arg4 harg4 arg5 harg5 arg6 harg6 arg7 harg7 arg8 harg8 arg9 harg9 hc0 x0 x1 x2 x3 x4 x5 x6 xo7 = bodyVal c i arg2 harg2 arg3 harg3 arg4 harg4 arg5 harg5 arg6 harg6 arg7 harg7 arg8 harg8 arg9 harg9 x0 x1 x2 x3 x4 x5 x6 xo7 := by
  unfold out0_B_7 bodyVal
  rw [View.read_writes_eq_canon _ _ _ (cover0_B_7 c i arg2 harg2 arg3 harg3 arg4 harg4 arg5 harg5 arg6 harg6 arg7 harg7 arg8 harg8 arg9 harg9 hc0 x0 x1 x2 x3 x4 x5 x6 xo7)]
  unfold kernelRun0_B
  dsimp only
  sl_unfold_words
  rw [View.canon_unit_zero hz2]
  simp only [View.readAt_eq_ld, harg2.read_unread, harg3.read_unread, harg5.read_unread, harg6.read_unread, harg7.read_unread, harg8.read_unread, harg9.read_unread, View.ld_unit_zero (S := S1x128x64) hz3, View.ld_unit_zero (S := S1x64x64) hz3,
    View.ld_unit_zero (S := S1x1x64) hz3, View.ld_unit_zero (S := S128x1) hz2]

/-- At layer zero it leaves the zero column plus this layer's row sums. -/
theorem out_A (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S1x512x128 .f32) (harg4 : arg4.IsWhole) (arg5 : Memref sig .tc .vmem S1x64x64 .f32) (harg5 : arg5.IsWhole) (arg6 : Memref sig .tc .vmem S1x1x64 .f32) (harg6 : arg6.IsWhole) (arg7 : Memref sig .tc .vmem S1x64x64 .f32) (harg7 : arg7.IsWhole) (arg8 : Memref sig .tc .vmem S1x1x64 .f32) (harg8 : arg8.IsWhole) (arg9 : Memref sig .tc .vmem S128x1 .f32) (harg9 : arg9.IsWhole) (hc0 : cond0_0 i)
    (x0 : Vec F S1x128x64 .f32) (x1 : Vec F S1x128x64 .f32) (x2 : Vec F S1x512x128 .f32) (x3 : Vec F S1x64x64 .f32) (x4 : Vec F S1x1x64 .f32) (x5 : Vec F S1x64x64 .f32) (x6 : Vec F S1x1x64 .f32) :
    out0_A_7 c i arg2 harg2 arg3 harg3 arg4 harg4 arg5 harg5 arg6 harg6 arg7 harg7 arg8 harg8 arg9 harg9 hc0 x0 x1 x2 x3 x4 x5 x6 = bodyVal c i arg2 harg2 arg3 harg3 arg4 harg4 arg5 harg5 arg6 harg6 arg7 harg7 arg8 harg8 arg9 harg9 x0 x1 x2 x3 x4 x5 x6 (k0_pay3 (F := F)) := by
  unfold out0_A_7 bodyVal
  rw [View.read_writes_eq_canon _ _ _ (cover0_A_7 c i arg2 harg2 arg3 harg3 arg4 harg4 arg5 harg5 arg6 harg6 arg7 harg7 arg8 harg8 arg9 harg9 hc0 x0 x1 x2 x3 x4 x5 x6)]
  unfold kernelRun0_A
  dsimp only
  sl_unfold_words
  rw [View.canon_cons_unit_zero (S := S128x1) hz2, View.readCov_unit_zero (S := S128x1) _ hz2]
  simp only [View.readAt_eq_ld, harg2.read_unread, harg3.read_unread, harg5.read_unread, harg6.read_unread, harg7.read_unread, harg8.read_unread, harg9.read_unread, View.ld_unit_zero (S := S1x128x64) hz3, View.ld_unit_zero (S := S1x64x64) hz3,
    View.ld_unit_zero (S := S1x1x64) hz3, View.ld_unit_zero (S := S128x1) hz2]

end Cert.KernelIdeal.Hand

end
-- ==== Proof.Spec.lean ====
/-
  The mathematics both programs compute, stated once over plain index types, with no program in sight.

  For each of three layers l, with student features x = fea (l+1), reference features r = fea l (both 1024 × 64),
  a mean head  mu i d = (∑ k, x i k · Wm d k) + bm d  and a variance head
  var i d = softplus((∑ k, x i k · Wv d k) + bv d) · c10 + cEps, the layer's term is the mean over the 1024 samples i of

      ∑ d, ( -|mu i d - r i d| / var i d )  -  ∑ d, ( -(mean over j of |r j d - mu i d|) / var i d ),

  and the result is the sum of the three layer terms.  The reference computes exactly this, layer by layer (`R`).
  The kernel computes the same numbers in another arrangement (`K`): per sample and layer it sums the differences
  positive − negative over d in ONE sum, takes the mean over j as a product with 2⁻¹⁰ of a sum taken in two halves
  (even samples and odd samples, each in 8 chunks of 64), adds the three layers per sample first, and divides the
  grand total by 1024 once.  `K = R` whenever every input is a real number: that is where distributing a quotient over
  a sum, and a sum of differences into a difference of sums, are valid on the extended reals.
-/
import Idealize.ShloMosaic.PureOps.Ideal
import Idealize.ShloMosaic.PureOps.Ideal.Laws

noncomputable section

namespace Cert.IB

open Idealize.ShloMosaic

/-- The four float literals of the two programs, as the extended reals their words denote:
    f32(0.1), f32(1e-6), 2⁻¹⁰ and 1024. -/
def c10 : EReal := Ideal.ofBits .f32 0x3DCCCCCD#32
def cEps : EReal := Ideal.ofBits .f32 0x358637BD#32
def cInvN : EReal := Ideal.ofBits .f32 0x3A800000#32
def cN : EReal := Ideal.ofBits .f32 0x44800000#32

/-- A 1024 × 64 feature matrix; a 64 × 64 weight, `W d k` its entry at output feature `d`, input feature `k`; a bias. -/
abbrev Mat := Fin 1024 → Fin 64 → EReal
abbrev Wt := Fin 64 → Fin 64 → EReal
abbrev Bias := Fin 64 → EReal

/-- The affine head `x Wᵀ + b` at sample `i`, feature `d`. -/
def lin (x : Mat) (W : Wt) (b : Bias) (i : Fin 1024) (d : Fin 64) : EReal := (∑ k : Fin 64, x i k * W d k) + b d

/-- The absolute value as both programs take it on the extended reals. -/
def absE (a : EReal) : EReal := max a (-a)

/-- softplus as `max z 0 + log(1 + e^{-|z - 0|})`: the reference negates the absolute value, -/
def softplusR (z : EReal) : EReal := max z 0 + Ideal.log1p (Ideal.exp (-(absE (z - 0))))
/-- the kernel subtracts it from zero. -/
def softplusK (z : EReal) : EReal := max z 0 + Ideal.log1p (Ideal.exp (0 - absE (z - 0)))

def varR (x : Mat) (W : Wt) (b : Bias) (i : Fin 1024) (d : Fin 64) : EReal := softplusR (lin x W b i d) * c10 + cEps
def varK (x : Mat) (W : Wt) (b : Bias) (i : Fin 1024) (d : Fin 64) : EReal := softplusK (lin x W b i d) * c10 + cEps

/-! ## The reference's arrangement -/

def posR (x r : Mat) (Wm : Wt) (bm : Bias) (Wv : Wt) (bv : Bias) (i : Fin 1024) (d : Fin 64) : EReal :=
  Ideal.div (-(absE (lin x Wm bm i d - r i d))) (varR x Wv bv i d)

def negR (x r : Mat) (Wm : Wt) (bm : Bias) (Wv : Wt) (bv : Bias) (i : Fin 1024) (d : Fin 64) : EReal :=
  Ideal.div (-(Ideal.div (0 + ∑ j : Fin 1024, absE (r j d - lin x Wm bm i d)) cN)) (varR x Wv bv i d)

/-- One layer's term: the mean over samples of (∑ d positive) − (∑ d negative). -/
def layerR (x r : Mat) (Wm : Wt) (bm : Bias) (Wv : Wt) (bv : Bias) : EReal :=
  Ideal.div (0 + ∑ i : Fin 1024,
    ((0 + ∑ d : Fin 64, posR x r Wm bm Wv bv i d) - (0 + ∑ d : Fin 64, negR x r Wm bm Wv bv i d))) cN

/-- The reference's result: the three layer terms added to zero in order. -/
def R (fea : Fin 4 → Mat) (Wm Wv : Fin 3 → Wt) (bm bv : Fin 3 → Bias) : EReal :=
  ((0 + layerR (fea 1) (fea 0) (Wm 0) (bm 0) (Wv 0) (bv 0))
     + layerR (fea 2) (fea 1) (Wm 1) (bm 1) (Wv 1) (bv 1))
     + layerR (fea 3) (fea 2) (Wm 2) (bm 2) (Wv 2) (bv 2)

/-! ## The kernel's arrangement -/

/-- Row `2·(64·c + p) + h` of a 1024-row matrix: the sample the kernel meets in chunk `c`, at place `p` of the chunk,
    in the even (`h = 0`) or odd (`h = 1`) half of a packed row. -/
def pairRow (c : Fin 8) (p : Fin 64) (h : Fin 2) : Fin 1024 := ⟨2 * (64 * c.val + p.val) + h.val, by omega⟩

/-- The sum over one half (the even or the odd samples) of `|r j d - mu|`, chunk by chunk. -/
def halfSum (r : Mat) (mu : EReal) (d : Fin 64) (h : Fin 2) : EReal :=
  ∑ c : Fin 8, ∑ p : Fin 64, absE (r (pairRow c p h) d - mu)

def posK (x r : Mat) (Wm : Wt) (bm : Bias) (Wv : Wt) (bv : Bias) (i : Fin 1024) (d : Fin 64) : EReal :=
  Ideal.div (0 - absE (lin x Wm bm i d - r i d)) (varK x Wv bv i d)

def negK (x r : Mat) (Wm : Wt) (bm : Bias) (Wv : Wt) (bv : Bias) (i : Fin 1024) (d : Fin 64) : EReal :=
  Ideal.div (0 - (halfSum r (lin x Wm bm i d) d 0 + halfSum r (lin x Wm bm i d) d 1) * cInvN) (varK x Wv bv i d)

/-- One layer's contribution to sample `i`'s row of the kernel's output: ∑ d (positive − negative). -/
def rowK (x r : Mat) (Wm : Wt) (bm : Bias) (Wv : Wt) (bv : Bias) (i : Fin 1024) : EReal :=
  ∑ d : Fin 64, (posK x r Wm bm Wv bv i d - negK x r Wm bm Wv bv i d)

/-- What the kernel's output column holds at sample `i` after the three layers: zero, then each layer's row added. -/
def outK (fea : Fin 4 → Mat) (Wm Wv : Fin 3 → Wt) (bm bv : Fin 3 → Bias) (i : Fin 1024) : EReal :=
  ((0 + rowK (fea 1) (fea 0) (Wm 0) (bm 0) (Wv 0) (bv 0) i)
     + rowK (fea 2) (fea 1) (Wm 1) (bm 1) (Wv 1) (bv 1) i)
     + rowK (fea 3) (fea 2) (Wm 2) (bm 2) (Wv 2) (bv 2) i

/-- The kernel's result: the mean of that column. -/
def K (fea : Fin 4 → Mat) (Wm Wv : Fin 3 → Wt) (bm bv : Fin 3 → Bias) : EReal :=
  Ideal.div (0 + ∑ i : Fin 1024, outK fea Wm Wv bm bv i) cN

/-- Every entry of the inputs is a real number. -/
structure Finite (fea : Fin 4 → Mat) (Wm Wv : Fin 3 → Wt) (bm bv : Fin 3 → Bias) : Prop where
  fea : ∀ n i k, ∃ a : ℝ, fea n i k = (a : EReal)
  Wm : ∀ l d k, ∃ a : ℝ, Wm l d k = (a : EReal)
  Wv : ∀ l d k, ∃ a : ℝ, Wv l d k = (a : EReal)
  bm : ∀ l d, ∃ a : ℝ, bm l d = (a : EReal)
  bv : ∀ l d, ∃ a : ℝ, bv l d = (a : EReal)

end Cert.IB

end
-- ==== Proof.PayloadLib.lean ====
import proofs.«100973_j86681029968319_2_alg».proof.Proof.Gen.KernelIdeal.Skeleton
import proofs.«100973_j86681029968319_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayloadValue

open Idealize.ShloMosaic Idealize.ShloMosaic.ValueIdx Cert.KernelIdeal Cert.KernelIdeal.Gen Cert.IB

variable {α : Type}

/-! ## The kernel's matrix product read at an index

The dimension numbers contract axis 1 of the left operand with axis 0 of the right one and keep the other two
axes, so the operand indices at output index (r, d) and contraction coordinate k are (r, k) and (k, d). -/

theorem dot_lhs0 (i : S128x64.Idx) (q : dot_S128x64_S64x64_S128x64_1_0_0_1_n_n.contr.Idx) :
    (dot_S128x64_S64x64_S128x64_1_0_0_1_n_n.lhsIdx i q 0).val = (i 0).val := by
  unfold DotDims.lhsIdx
  rw [dif_neg (show ¬(0 : Fin S128x64.rank) ∈ dot_S128x64_S64x64_S128x64_1_0_0_1_n_n.lhsBatch by decide), dif_pos (show (0 : Fin S128x64.rank) ∈ dot_S128x64_S64x64_S128x64_1_0_0_1_n_n.lhsNonContracting by decide)]
  rfl
theorem dot_lhs1 (i : S128x64.Idx) (q : dot_S128x64_S64x64_S128x64_1_0_0_1_n_n.contr.Idx) :
    (dot_S128x64_S64x64_S128x64_1_0_0_1_n_n.lhsIdx i q 1).val = (q ⟨0, by decide⟩).val :=
  dot_S128x64_S64x64_S128x64_1_0_0_1_n_n.lhsIdx_val_of_single rfl i q
theorem dot_rhs0 (i : S128x64.Idx) (q : dot_S128x64_S64x64_S128x64_1_0_0_1_n_n.contr.Idx) :
    (dot_S128x64_S64x64_S128x64_1_0_0_1_n_n.rhsIdx i q 0).val = (q ⟨0, by decide⟩).val :=
  dot_S128x64_S64x64_S128x64_1_0_0_1_n_n.rhsIdx_val_of_single rfl i q
theorem dot_rhs1 (i : S128x64.Idx) (q : dot_S128x64_S64x64_S128x64_1_0_0_1_n_n.contr.Idx) :
    (dot_S128x64_S64x64_S128x64_1_0_0_1_n_n.rhsIdx i q 1).val = (i 1).val := by
  unfold DotDims.rhsIdx
  rw [dif_neg (show ¬(1 : Fin S64x64.rank) ∈ dot_S128x64_S64x64_S128x64_1_0_0_1_n_n.rhsBatch by decide), dif_pos (show (1 : Fin S64x64.rank) ∈ dot_S128x64_S64x64_S128x64_1_0_0_1_n_n.rhsNonContracting by decide)]
  rfl

/-- The product into the zero accumulator, at (r, d): the sum over k of left (r, k) times right (k, d). -/
theorem matmul_zero_apply (A : FVec Ideal S128x64 .bf16) (B : FVec Ideal S64x64 .bf16) (r : Fin 128) (d : Fin 64) :
    matmul dot_S128x64_S64x64_S128x64_1_0_0_1_n_n none A B (constant (F := Ideal) S128x64 .f32 0x00000000#32) (ix2 r d)
      = ∑ k : Fin 64, A (ix2 r k) * B (ix2 k d) := by
  simp only [matmul]
  rw [Ideal.matmul_constant_zero_apply, ← Equiv.sum_comp (contrEquiv1 dot_S128x64_S64x64_S128x64_1_0_0_1_n_n 64 rfl rfl).symm]
  refine Finset.sum_congr rfl fun k _ => ?_
  have hk := contrEquiv1_symm_val dot_S128x64_S64x64_S128x64_1_0_0_1_n_n 64 rfl rfl k
  have el : dot_S128x64_S64x64_S128x64_1_0_0_1_n_n.lhsIdx (ix2 r d) ((contrEquiv1 dot_S128x64_S64x64_S128x64_1_0_0_1_n_n 64 rfl rfl).symm k) = ix2 r k := funext fun a => Fin.ext (by
    match a with
    | ⟨0, _⟩ => exact dot_lhs0 _ _
    | ⟨1, _⟩ => exact (dot_lhs1 _ _).trans hk)
  have er : dot_S128x64_S64x64_S128x64_1_0_0_1_n_n.rhsIdx (ix2 r d) ((contrEquiv1 dot_S128x64_S64x64_S128x64_1_0_0_1_n_n 64 rfl rfl).symm k) = ix2 k d := funext fun a => Fin.ext (by
    match a with
    | ⟨0, _⟩ => exact (dot_rhs0 _ _).trans hk
    | ⟨1, _⟩ => exact dot_rhs1 _ _)
  rw [el, er]

/-! ## Layout operations the library does not spell -/

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, c]` array broadcast to `[a, b, c]` reads, at `(i, p, j)`, the operand at `(i, 0, j)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (p : Fin b) (j : Fin c) :
    broadcastTo ⟨3, ![a, b, c]⟩ v h (ix3 i p j) = v (ix3 i (0 : Fin 1) j) := by
  refine broadcastTo_apply v h (ix3 i p j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if c = 1 then 0 else j.val
    split
    · have := j.isLt; omega
    · rfl

/-- A `[1, b, c]` array broadcast to `[a, b, c]` reads, at `(p, i, j)`, the operand at `(0, i, j)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (i : Fin b) (j : Fin c) :
    broadcastTo ⟨3, ![a, b, c]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

/-! ## The two sums -/

/-- The sum along the lanes of a `[128, 64]` vector, at row `r`: the sum over the 64 columns. -/
theorem laneSum_apply (src : FVec Ideal S128x64 .f32) (h : S128x64.Reduces [1] S128) (hφ : FKind.Formats .f32)
    (hacc : (0x00000000#32 : BitVec 32) = 0x00000000#32) (r : Fin 128) :
    multiReduction .add [1] S128 src 0x00000000#32 h hφ hacc (ix1 r) = ∑ d : Fin 64, src (ix2 r d) := by
  refine (Ideal.multiReduction_add_single src 0x00000000#32 h hφ hacc (ix1 r)).trans ?_
  refine Finset.sum_congr rfl fun d _ => ?_
  refine congrArg src (funext fun c => Fin.ext ?_)
  match c with
  | ⟨0, _⟩ => rfl
  | ⟨1, _⟩ => rfl

/-- The sum along axis 0 of a `[64, 128, 128]` vector, at `(r, l)`: the sum over the 64 leading coordinates. -/
theorem rowSum_apply (src : FVec Ideal S64x128x128 .f32) (h : S64x128x128.Reduces [0] S128x128) (hφ : FKind.Formats .f32)
    (hacc : (0x00000000#32 : BitVec 32) = 0x00000000#32) (r l : Fin 128) :
    multiReduction .add [0] S128x128 src 0x00000000#32 h hφ hacc (ix2 r l) = ∑ p : Fin 64, src (ix3 p r l) := by
  refine (Ideal.multiReduction_add_single src 0x00000000#32 h hφ hacc (ix2 r l)).trans ?_
  refine Finset.sum_congr rfl fun p _ => ?_
  refine congrArg src (funext fun c => Fin.ext ?_)
  match c with
  | ⟨0, _⟩ => rfl
  | ⟨1, _⟩ => rfl
  | ⟨2, _⟩ => rfl

/-! ## A vector laid twice along the lanes -/

/-- Lane `64·h + d` of `[v, v]` joined along axis 1 is `v` at column `d`, in either half. -/
theorem concat_twice_apply (v : FVec Ideal S128x64 .f32) (hc : Shape.Concatenates [S128x64, S128x64] S128x128 1)
    (r : Fin 128) (h : Fin 2) (d : Fin 64) :
    concatenate S128x128 1 [⟨S128x64, v⟩, ⟨S128x64, v⟩] hc (ix2 r ⟨64 * h.val + d.val, by omega⟩) = v (ix2 r d) := by
  match h with
  | ⟨0, _⟩ =>
    refine concatenate_pair_apply_left (t := S128x128) 1 v v hc _ rfl (ix2 r d) fun b => ?_
    match b with
    | ⟨0, _⟩ => rfl
    | ⟨1, _⟩ => show d.val = 64 * 0 + d.val; omega
  | ⟨1, _⟩ =>
    refine concatenate_pair_apply_right (t := S128x128) 1 v v hc _ rfl rfl (ix2 r d) (fun b hb => ?_) ?_
    · match b with
      | ⟨0, _⟩ => rfl
      | ⟨1, _⟩ => exact absurd rfl hb
    · show d.val + 64 = 64 * 1 + d.val; omega

/-! ## Zero splats and the softplus select -/

theorem pay1_apply (j : S128x128.Idx) : k0_pay1 (F := Ideal) j = 0 := Ideal.ofBits_zero_f32
theorem pay3_apply (j : S128x1.Idx) : k0_pay3 (F := Ideal) j = 0 := Ideal.ofBits_zero_f32

/-- "Ordered and not equal" of an extended real with itself is false. -/
theorem cmpf_one_self (a : Ideal .f32) : FloatOps.cmpf .one a a = 0#1 := by
  show Ideal.cmp .one a a = 0#1
  simp [Ideal.cmp]

/-! ## The two affine heads share one form -/

/-- The rounded-to-bf16 features (the identity on extended reals) at (r, k): the loaded block at (0, r, k). -/
theorem pay5_apply (v0 : Vec Ideal S1x128x64 .f32) (r : Fin 128) (k : Fin 64) :
    k0_pay5 (F := Ideal) v0 (ix2 r k) = v0 (ix3 0 r k) := by
  unfold k0_pay5
  exact shapeCast_1ab_ab_apply v0 _ r k

/-- Features times a weight block into the zero accumulator, plus the bias row laid over the 128 rows, at (r, d). -/
theorem head_apply (v0 : Vec Ideal S1x128x64 .f32) (w : Vec Ideal S1x64x64 .f32) (b : Vec Ideal S1x1x64 .f32)
    (r : Fin 128) (d : Fin 64) :
    addf (matmul dot_S128x64_S64x64_S128x64_1_0_0_1_n_n none (k0_pay5 (F := Ideal) v0)
          (truncf .bf16 (shapeCast S64x64 w shapeCasts_S1x64x64_S64x64) bitsLt_bf16_f32)
          (constant (F := Ideal) S128x64 .f32 0x00000000#32))
        (broadcastTo S128x64 (shapeCast S1x64 b shapeCasts_S1x1x64_S1x64) broadcasts_S1x64_S128x64) (ix2 r d)
      = (∑ k : Fin 64, v0 (ix3 0 r k) * w (ix3 0 k d)) + b (ix3 0 0 d) := by
  refine (addf_apply _ _ _).trans ?_
  refine congrArg₂ (· + ·) ?_ ?_
  · refine (matmul_zero_apply _ _ r d).trans ?_
    refine Finset.sum_congr rfl fun k _ => ?_
    refine congrArg₂ (· * ·) (pay5_apply v0 r k) ?_
    exact shapeCast_1ab_ab_apply w _ k d
  · refine (broadcastTo_1b_ab_apply _ _ r d).trans ?_
    exact shapeCast_1ab_ab_apply b _ 0 d

/-- The kernel's softplus at one element, scaled and shifted: the select's condition is false at every extended
    real, so the second branch is taken, and the zero words are 0. -/
theorem softplus_scalar (z : EReal) :
    Scalar.select (FloatOps.cmpf (F := Ideal) (φ := .f32) .one (z - Ideal.ofBits .f32 0x00000000#32) (z - Ideal.ofBits .f32 0x00000000#32))
        (z + Ideal.ofBits .f32 0x00000000#32)
        (max z (Ideal.ofBits .f32 0x00000000#32)
          + Ideal.log1p (Ideal.exp (Ideal.ofBits .f32 0x00000000#32
              - max (z - Ideal.ofBits .f32 0x00000000#32) (-(z - Ideal.ofBits .f32 0x00000000#32)))))
        * Ideal.ofBits .f32 0x3DCCCCCD#32 + Ideal.ofBits .f32 0x358637BD#32
      = softplusK z * c10 + cEps := by
  rw [cmpf_one_self, select_zero, Ideal.ofBits_zero_f32]
  rfl

end Cert.KernelIdeal.PayloadValue

end
-- ==== Proof.Payload2.lean ====
import proofs.«100973_j86681029968319_2_alg».proof.Proof.Gen.KernelIdeal.Skeleton
import proofs.«100973_j86681029968319_2_alg».proof.Proof.Spec
import proofs.«100973_j86681029968319_2_alg».proof.Proof.PayloadLib
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayloadValue

open Idealize.ShloMosaic Idealize.ShloMosaic.ValueIdx Cert.KernelIdeal Cert.KernelIdeal.Gen Cert.IB

/-- One chunk's step of the accumulator at row r, lane 64·h + d: the old value plus the sum over the chunk's 64 rows of
    |chunk entry at that lane − mean head at (r, d)|; the mean head is laid twice along the lanes. -/
theorem pay2_apply (v15 : FVec Ideal S128x64 .f32) (acc : FVec Ideal S128x128 .f32) (v71 : Vec Ideal S64x128 .f32) (r : Fin 128) (h : Fin 2) (d : Fin 64) :
    k0_pay2 (F := Ideal) v15 acc v71 (ix2 r ⟨64 * h.val + d.val, by omega⟩)
      = acc (ix2 r ⟨64 * h.val + d.val, by omega⟩) + ∑ p : Fin 64, absE (v71 (ix2 p ⟨64 * h.val + d.val, by omega⟩) - v15 (ix2 r d)) := by
  unfold k0_pay2
  refine (addf_apply _ _ _).trans ?_
  refine congrArg (acc (ix2 r ⟨64 * h.val + d.val, by omega⟩) + ·) ?_
  refine (rowSum_apply _ _ _ _ r _).trans ?_
  refine Finset.sum_congr rfl fun p _ => ?_
  show absE (_ - _) = absE (_ - _)
  refine congrArg absE (congrArg₂ (· - ·) ?_ ?_)
  · refine (broadcastTo_a1c_abc_apply _ _ p r _).trans ?_
    refine (shapeCast_ab_a1b_apply _ _ p 0 _).trans ?_
    exact congrFun (shapeCast_self v71 _) _
  · refine (broadcastTo_1bc_abc_apply _ _ p r _).trans ?_
    refine (shapeCast_ab_1ab_apply _ _ 0 r _).trans ?_
    exact concat_twice_apply v15 _ r h d

end Cert.KernelIdeal.PayloadValue

end
-- ==== Proof.LoopValue.lean ====
/-
  The counted loop's value.  One trip yields the carried accumulator plus, at row r and lane 64·h + d, the sum over
  the chunk's 64 packed rows p of |chunk p (64·h + d) − mu r d|, and the chunk trip k loads is rows 64·k … 64·k + 63
  of the packed block.  So after the eight trips the accumulator is its initial value plus the sum over k < 8 and
  p < 64 of |packed (64·k + p) (64·h + d) − mu r d|, the trips' contributions added in trip order.
-/
import proofs.«100973_j86681029968319_2_alg».proof.Proof.LoopI
import proofs.«100973_j86681029968319_2_alg».proof.Proof.Payload2
import proofs.«100973_j86681029968319_2_alg».proof.Proof.Spec
import Idealize.ShloMosaic.Lib.WholeRead
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.KernelIdeal.PayloadValue Cert.IB

/-- The loop runs eight trips. -/
theorem trips_eq : k0_t1_loop.trips = 8 := by decide

/-- One trip yields the payload of the carried value and the chunk it loads. -/
theorem tripH_val (𝒱 : Variants) (c : Dev nD) (bd : Option 𝒱.V) (i : grid0.Coords) (arg2 : Memref sig .tc .vmem S1x128x64 .f32) (harg2 : arg2.IsWhole) (arg3 : Memref sig .tc .vmem S1x128x64 .f32) (harg3 : arg3.IsWhole) (arg4 : Memref sig .tc .vmem S1x512x128 .f32) (harg4 : arg4.IsWhole) (arg5 : Memref sig .tc .vmem S1x64x64 .f32) (harg5 : arg5.IsWhole) (arg6 : Memref sig .tc .vmem S1x1x64 .f32) (harg6 : arg6.IsWhole) (arg7 : Memref sig .tc .vmem S1x64x64 .f32) (harg7 : arg7.IsWhole) (arg8 : Memref sig .tc .vmem S1x1x64 .f32) (harg8 : arg8.IsWhole) (arg9 : Memref sig .tc .vmem S128x1 .f32) (harg9 : arg9.IsWhole) (v15 : FVec F S128x64 .f32) (X4 : BufTy.Contents (Elt F) arg4.view.ty) (k : Fin k0_t1_loop.trips) (acc : FVec F S128x128 .f32) :
    (tripH (F := F) 𝒱 c bd i arg2 harg2 arg3 harg3 arg4 harg4 arg5 harg5 arg6 harg6 arg7 harg7 arg8 harg8 arg9 harg9 v15 X4 k).1 acc = k0_pay2 v15 acc (tripH.sl.v71 arg4 X4 k) := by
  unfold tripH
  rfl

/-- The chunk trip `k` loads is rows `64·k … 64·k + 63` of the packed block the buffer holds. -/
theorem chunk_apply (arg4 : Memref sig .tc .vmem S1x512x128 .f32) (harg4 : arg4.IsWhole) (x2 : Vec F S1x512x128 .f32)
    (k : Fin k0_t1_loop.trips) (p : Fin 64) (lane : Fin 128) :
    tripH.sl.v71 (F := F) arg4 (harg4.unread x2) k (ix2 p lane)
      = x2 (ix3 (0 : Fin 1) (⟨64 * k.val + p.val, by have := Nat.lt_of_lt_of_le k.isLt k0_t1_abs.2.1; omega⟩ : Fin 512) lane) := by
  have hk : k.val < 8 := Nat.lt_of_lt_of_le k.isLt k0_t1_abs.2.1
  unfold tripH.sl.v71
  refine (harg4.readAt_slice_reshape_unread x2 (Rect.unit (s := S1x512x128) ![0, 0, 0] S1x512x128.size _) (s3 := S512x128) _
    (Rect.unit (s := S512x128) (k0_off1 k) S64x128.size (k0_off1_inb k)).toLoadRect (ix2 p lane)).trans ?_
  have hB : (Rect.unit (s := S512x128) (k0_off1 k) S64x128.size (k0_off1_inb k)).toLoadRect.idx (ix2 p lane)
      = ix2 (⟨64 * k.val + p.val, by omega⟩ : Fin 512) lane := by
    funext a
    apply Fin.ext
    match a with
    | ⟨0, _⟩ => show k0_off1 k 0 + 1 * p.val = 64 * k.val + p.val; rw [k0_off1_eq]; show 64 * k.val + 1 * p.val = _; omega
    | ⟨1, _⟩ => show k0_off1 k 1 + 1 * lane.val = lane.val; rw [k0_off1_eq]; show 0 + 1 * lane.val = _; omega
  rw [hB, reshapeEquiv_ix2_1ab]
  refine congrArg x2 (funext fun a => Fin.ext ?_)
  match a with
  | ⟨0, _⟩ => show 0 + 1 * 0 = 0; rfl
  | ⟨1, _⟩ => show 0 + 1 * (64 * k.val + p.val) = 64 * k.val + p.val; omega
  | ⟨2, _⟩ => show 0 + 1 * lane.val = lane.val; omega

/-- Chunk `k`'s contribution at lane `64·h + d` against the value `mu`: the sum over its 64 packed rows. -/
def chunkSum (x2 : Vec Ideal S1x512x128 .f32) (mu : EReal) (h : Fin 2) (d : Fin 64) (k : ℕ) : EReal :=
  if hk : k < 8 then ∑ p : Fin 64, absE (x2 (ix3 (0 : Fin 1) (⟨64 * k + p.val, by omega⟩ : Fin 512) (⟨64 * h.val + d.val, by omega⟩ : Fin 128)) - mu) else 0

/-- Before trip `n` the accumulator is its initial value plus the first `n` chunks' contributions. -/
theorem st_apply (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S1x512x128 .f32) (harg4 : arg4.IsWhole) (arg5 : Memref sig .tc .vmem S1x64x64 .f32) (harg5 : arg5.IsWhole) (arg6 : Memref sig .tc .vmem S1x1x64 .f32) (harg6 : arg6.IsWhole) (arg7 : Memref sig .tc .vmem S1x64x64 .f32) (harg7 : arg7.IsWhole) (arg8 : Memref sig .tc .vmem S1x1x64 .f32) (harg8 : arg8.IsWhole) (arg9 : Memref sig .tc .vmem S128x1 .f32) (harg9 : arg9.IsWhole) (v15 : FVec Ideal S128x64 .f32) (x2 : Vec Ideal S1x512x128 .f32)
    (init : FVec Ideal S128x128 .f32) (r : Fin 128) (h : Fin 2) (d : Fin 64) (n : ℕ) (hn : n ≤ 8) :
    stH (F := Ideal) Variants.none c none i arg2 harg2 arg3 harg3 arg4 harg4 arg5 harg5 arg6 harg6 arg7 harg7 arg8 harg8 arg9 harg9 v15 (harg4.unread x2) init n (ix2 r (⟨64 * h.val + d.val, by omega⟩ : Fin 128))
      = init (ix2 r (⟨64 * h.val + d.val, by omega⟩ : Fin 128)) + ∑ k ∈ Finset.range n, chunkSum x2 (v15 (ix2 r d)) h d k := by
  induction n with
  | zero => simp only [Finset.range_zero, Finset.sum_empty, add_zero]; rfl
  | succ n ih =>
    have hk : n < k0_t1_loop.trips := by rw [trips_eq]; omega
    have hs : stH (F := Ideal) Variants.none c none i arg2 harg2 arg3 harg3 arg4 harg4 arg5 harg5 arg6 harg6 arg7 harg7 arg8 harg8 arg9 harg9 v15 (harg4.unread x2) init (n + 1) = tripRH (F := Ideal) Variants.none c none i arg2 harg2 arg3 harg3 arg4 harg4 arg5 harg5 arg6 harg6 arg7 harg7 arg8 harg8 arg9 harg9 v15 (harg4.unread x2) ⟨n, hk⟩ (stH (F := Ideal) Variants.none c none i arg2 harg2 arg3 harg3 arg4 harg4 arg5 harg5 arg6 harg6 arg7 harg7 arg8 harg8 arg9 harg9 v15 (harg4.unread x2) init n) :=
      stH_succ (F := Ideal) Variants.none c none i arg2 harg2 arg3 harg3 arg4 harg4 arg5 harg5 arg6 harg6 arg7 harg7 arg8 harg8 arg9 harg9 v15 (harg4.unread x2) init ⟨n, hk⟩
    rw [hs]
    show (tripH (F := Ideal) Variants.none c none i arg2 harg2 arg3 harg3 arg4 harg4 arg5 harg5 arg6 harg6 arg7 harg7 arg8 harg8 arg9 harg9 v15 (harg4.unread x2) ⟨n, hk⟩).1 _ _ = _
    rw [tripH_val]
    refine (pay2_apply v15 _ _ r h d).trans ?_
    rw [ih (by omega), Finset.sum_range_succ, add_assoc]
    refine congrArg₂ (· + ·) rfl (congrArg₂ (· + ·) rfl ?_)
    unfold chunkSum
    rw [dif_pos (by omega)]
    refine Finset.sum_congr rfl fun p _ => ?_
    rw [chunk_apply]

/-- After the eight trips: the initial value plus the eight chunks' contributions. -/
theorem loop_apply (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S1x512x128 .f32) (harg4 : arg4.IsWhole) (arg5 : Memref sig .tc .vmem S1x64x64 .f32) (harg5 : arg5.IsWhole) (arg6 : Memref sig .tc .vmem S1x1x64 .f32) (harg6 : arg6.IsWhole) (arg7 : Memref sig .tc .vmem S1x64x64 .f32) (harg7 : arg7.IsWhole) (arg8 : Memref sig .tc .vmem S1x1x64 .f32) (harg8 : arg8.IsWhole) (arg9 : Memref sig .tc .vmem S128x1 .f32) (harg9 : arg9.IsWhole) (v15 : FVec Ideal S128x64 .f32) (x2 : Vec Ideal S1x512x128 .f32)
    (init : FVec Ideal S128x128 .f32) (r : Fin 128) (h : Fin 2) (d : Fin 64) :
    stH (F := Ideal) Variants.none c none i arg2 harg2 arg3 harg3 arg4 harg4 arg5 harg5 arg6 harg6 arg7 harg7 arg8 harg8 arg9 harg9 v15 (harg4.unread x2) init k0_t1_loop.trips (ix2 r (⟨64 * h.val + d.val, by omega⟩ : Fin 128))
      = init (ix2 r (⟨64 * h.val + d.val, by omega⟩ : Fin 128)) + ∑ k ∈ Finset.range 8, chunkSum x2 (v15 (ix2 r d)) h d k := by
  rw [trips_eq]
  exact st_apply c i arg2 harg2 arg3 harg3 arg4 harg4 arg5 harg5 arg6 harg6 arg7 harg7 arg8 harg8 arg9 harg9 v15 x2 init r h d 8 (le_refl _)

end Cert.KernelIdeal.Hand

end
-- ==== Proof.Payload4.lean ====
import proofs.«100973_j86681029968319_2_alg».proof.Proof.Gen.KernelIdeal.Skeleton
import proofs.«100973_j86681029968319_2_alg».proof.Proof.Spec
import proofs.«100973_j86681029968319_2_alg».proof.Proof.PayloadLib
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayloadValue

open Idealize.ShloMosaic Idealize.ShloMosaic.ValueIdx Cert.KernelIdeal Cert.KernelIdeal.Gen Cert.IB

/-- The output column at row r: the old entry plus the sum over d of (positive − negative); the negative term adds the
    two lane halves of the accumulated sums and scales by 2⁻¹⁰. -/
theorem pay4_apply (v15 v36 : FVec Ideal S128x64 .f32) (v37 : Vec Ideal S1x128x64 .f32) (v47 : FVec Ideal S128x128 .f32) (v62 : Vec Ideal S128x1 .f32) (r : Fin 128) :
    k0_pay4 (F := Ideal) v15 v36 v37 v47 v62 (ix2 r 0)
      = v62 (ix2 r 0) + ∑ d : Fin 64, (Ideal.div (0 - absE (v15 (ix2 r d) - v37 (ix3 0 r d))) (v36 (ix2 r d))
          - Ideal.div (0 - (v47 (ix2 r ⟨d.val, by omega⟩) + v47 (ix2 r ⟨64 + d.val, by omega⟩)) * cInvN) (v36 (ix2 r d))) := by
  unfold k0_pay4
  refine (addf_apply _ _ _).trans ?_
  refine congrArg₂ (· + ·) (congrFun (shapeCast_self v62 _) _) ?_
  refine (shapeCast_a_a1_apply _ _ r 0).trans ?_
  refine (laneSum_apply _ _ _ _ r).trans ?_
  refine Finset.sum_congr rfl fun d _ => ?_
  show Ideal.div (Ideal.ofBits .f32 0x00000000#32 - absE (v15 (ix2 r d) - _)) (v36 (ix2 r d))
      - Ideal.div (Ideal.ofBits .f32 0x00000000#32 - (_ + _) * cInvN) (v36 (ix2 r d)) = _
  rw [Ideal.ofBits_zero_f32]
  refine congrArg₂ (· - ·) (congrArg (fun t => Ideal.div (0 - absE (v15 (ix2 r d) - t)) (v36 (ix2 r d))) ?_)
    (congrArg (fun t => Ideal.div (0 - t * cInvN) (v36 (ix2 r d))) (congrArg₂ (· + ·) ?_ ?_))
  · exact shapeCast_1ab_ab_apply v37 _ r d
  · exact slice2_axis1_apply 0 v47 _ r d ⟨d.val, by omega⟩ (by show d.val = 0 + d.val; omega)
  · exact slice2_axis1_apply 64 v47 _ r d ⟨64 + d.val, by omega⟩ rfl

end Cert.KernelIdeal.PayloadValue

end
-- ==== Proof.Payload6.lean ====
import proofs.«100973_j86681029968319_2_alg».proof.Proof.Gen.KernelIdeal.Skeleton
import proofs.«100973_j86681029968319_2_alg».proof.Proof.Spec
import proofs.«100973_j86681029968319_2_alg».proof.Proof.PayloadLib
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayloadValue

open Idealize.ShloMosaic Idealize.ShloMosaic.ValueIdx Cert.KernelIdeal Cert.KernelIdeal.Gen Cert.IB

/-- The mean head at (r, d): the features' row r against the weight block's column d, plus the bias at d. -/
theorem pay6_apply (v0 : Vec Ideal S1x128x64 .f32) (v3 : Vec Ideal S1x64x64 .f32) (v9 : Vec Ideal S1x1x64 .f32) (r : Fin 128) (d : Fin 64) :
    k0_pay6 (F := Ideal) v0 v3 v9 (ix2 r d) = (∑ k : Fin 64, v0 (ix3 0 r k) * v3 (ix3 0 k d)) + v9 (ix3 0 0 d) := by
  unfold k0_pay6
  exact head_apply v0 v3 v9 r d

end Cert.KernelIdeal.PayloadValue

end
-- ==== Proof.Payload7.lean ====
import proofs.«100973_j86681029968319_2_alg».proof.Proof.Gen.KernelIdeal.Skeleton
import proofs.«100973_j86681029968319_2_alg».proof.Proof.Spec
import proofs.«100973_j86681029968319_2_alg».proof.Proof.PayloadLib
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayloadValue

open Idealize.ShloMosaic Idealize.ShloMosaic.ValueIdx Cert.KernelIdeal Cert.KernelIdeal.Gen Cert.IB

/-- The variance head at (r, d): softplus of the affine head, times the scale, plus the floor. -/
theorem pay7_apply (v0 : Vec Ideal S1x128x64 .f32) (v6 : Vec Ideal S1x64x64 .f32) (v11 : Vec Ideal S1x1x64 .f32) (r : Fin 128) (d : Fin 64) :
    k0_pay7 (F := Ideal) v0 v6 v11 (ix2 r d) = softplusK ((∑ k : Fin 64, v0 (ix3 0 r k) * v6 (ix3 0 k d)) + v11 (ix3 0 0 d)) * c10 + cEps := by
  unfold k0_pay7
  refine Eq.trans ?_ ((softplus_scalar _).trans (congrArg (fun z => softplusK z * c10 + cEps) (head_apply v0 v6 v11 r d)))
  rfl

end Cert.KernelIdeal.PayloadValue

end
-- ==== Proof.RowValue.lean ====
/-
  The kernel body's value at row r of the output column, in terms of the entries of the seven input blocks: the
  old entry plus the sum over the 64 features d of (positive − negative), where the mean head mu r d and the
  variance head var r d are the two affine heads of the student block, positive is (0 − |mu − reference r d|) / var,
  and negative is (0 − (S₀ + S₁) · 2⁻¹⁰) / var with S_h the loop's total at lane 64·h + d: zero plus the eight
  chunks' sums of |packed row − mu|.
-/
import proofs.«100973_j86681029968319_2_alg».proof.Proof.CaseValues
import proofs.«100973_j86681029968319_2_alg».proof.Proof.LoopValue
import proofs.«100973_j86681029968319_2_alg».proof.Proof.Payload4
import proofs.«100973_j86681029968319_2_alg».proof.Proof.Payload6
import proofs.«100973_j86681029968319_2_alg».proof.Proof.Payload7
import proofs.«100973_j86681029968319_2_alg».proof.Proof.PayloadLib

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.KernelIdeal.PayloadValue Cert.IB

/-- The mean head of a block, at row r, feature d. -/
def muB (x0 : Vec Ideal S1x128x64 .f32) (x3 : Vec Ideal S1x64x64 .f32) (x4 : Vec Ideal S1x1x64 .f32) (r : Fin 128) (d : Fin 64) : EReal :=
  (∑ k : Fin 64, x0 (ix3 0 r k) * x3 (ix3 0 k d)) + x4 (ix3 0 0 d)

/-- The variance head. -/
def varB (x0 : Vec Ideal S1x128x64 .f32) (x5 : Vec Ideal S1x64x64 .f32) (x6 : Vec Ideal S1x1x64 .f32) (r : Fin 128) (d : Fin 64) : EReal :=
  softplusK ((∑ k : Fin 64, x0 (ix3 0 r k) * x5 (ix3 0 k d)) + x6 (ix3 0 0 d)) * c10 + cEps

/-- The loop's total at lane 64·h + d against the value `mu`: zero plus the eight chunks' sums. -/
def halfB (x2 : Vec Ideal S1x512x128 .f32) (mu : EReal) (h : Fin 2) (d : Fin 64) : EReal :=
  0 + ∑ k ∈ Finset.range 8, chunkSum x2 mu h d k

/-- The body's value at row r. -/
theorem bodyVal_apply (c : Dev nD) (i : grid0.Coords) (arg2 : Memref sig .tc .vmem S1x128x64 .f32) (harg2 : arg2.IsWhole) (arg3 : Memref sig .tc .vmem S1x128x64 .f32) (harg3 : arg3.IsWhole) (arg4 : Memref sig .tc .vmem S1x512x128 .f32) (harg4 : arg4.IsWhole) (arg5 : Memref sig .tc .vmem S1x64x64 .f32) (harg5 : arg5.IsWhole) (arg6 : Memref sig .tc .vmem S1x1x64 .f32) (harg6 : arg6.IsWhole) (arg7 : Memref sig .tc .vmem S1x64x64 .f32) (harg7 : arg7.IsWhole) (arg8 : Memref sig .tc .vmem S1x1x64 .f32) (harg8 : arg8.IsWhole) (arg9 : Memref sig .tc .vmem S128x1 .f32) (harg9 : arg9.IsWhole)
    (x0 x1 : Vec Ideal S1x128x64 .f32) (x2 : Vec Ideal S1x512x128 .f32) (x3 : Vec Ideal S1x64x64 .f32) (x4 : Vec Ideal S1x1x64 .f32) (x5 : Vec Ideal S1x64x64 .f32) (x6 : Vec Ideal S1x1x64 .f32)
    (xo : Vec Ideal S128x1 .f32) (r : Fin 128) :
    bodyVal (F := Ideal) c i arg2 harg2 arg3 harg3 arg4 harg4 arg5 harg5 arg6 harg6 arg7 harg7 arg8 harg8 arg9 harg9 x0 x1 x2 x3 x4 x5 x6 xo (ix2 r 0)
      = xo (ix2 r 0) + ∑ d : Fin 64,
          (Ideal.div (0 - absE (muB x0 x3 x4 r d - x1 (ix3 0 r d))) (varB x0 x5 x6 r d)
            - Ideal.div (0 - (halfB x2 (muB x0 x3 x4 r d) 0 d + halfB x2 (muB x0 x3 x4 r d) 1 d) * cInvN) (varB x0 x5 x6 r d)) := by
  unfold bodyVal
  refine (pay4_apply _ _ x1 _ xo r).trans ?_
  refine congrArg (fun z => xo (ix2 r 0) + z) (Finset.sum_congr rfl fun d _ => ?_)
  have e0 : (⟨d.val, by omega⟩ : Fin 128) = ⟨64 * (0 : Fin 2).val + d.val, by omega⟩ := Fin.ext (by simp)
  have e1 : (⟨64 + d.val, by omega⟩ : Fin 128) = ⟨64 * (1 : Fin 2).val + d.val, by omega⟩ := Fin.ext (by simp)
  rw [e0, e1, loop_apply, loop_apply, pay1_apply, pay1_apply, pay6_apply, pay7_apply]
  rfl

end Cert.KernelIdeal.Hand

end
-- ==== Proof.SpecIdx.lean ====
/-
  The argument arrays of either program, read as the specification's inputs: the four feature matrices as one
  family, the two stacks of three weights, the two stacks of three biases — each entry at the index built from
  its plain coordinates.
-/
import proofs.«100973_j86681029968319_2_alg».proof.Proof.Spec
import Idealize.ShloMosaic.Lib.ValueIdx

noncomputable section

namespace Cert.IB

open Idealize.ShloMosaic Idealize.ShloMosaic.ValueIdx

/-- The four feature arrays as a family of matrices. -/
def feaOf (x0 x1 x2 x3 : (⟨2, ![1024, 64]⟩ : Shape).Idx → EReal) : Fin 4 → Mat := fun n i k =>
  match n with
  | 0 => x0 (ix2 i k)
  | 1 => x1 (ix2 i k)
  | 2 => x2 (ix2 i k)
  | 3 => x3 (ix2 i k)

/-- A stack of three 64 × 64 weights. -/
def wOf (w : (⟨3, ![3, 64, 64]⟩ : Shape).Idx → EReal) : Fin 3 → Wt := fun l d k => w (ix3 l d k)

/-- A stack of three biases. -/
def bOf (b : (⟨2, ![3, 64]⟩ : Shape).Idx → EReal) : Fin 3 → Bias := fun l d => b (ix2 l d)

end Cert.IB

end
-- ==== Proof.EntryArrays.lean ====
/-
  What the arrays the kernel's seven input windows stage hold when the region is entered, index by index, in terms of
  the arrays the program was launched with.  The host lines before the region build them: the student stack is the
  concatenation, along a new leading axis, of feature matrices 1, 2, 3 and the reference stack that of 0, 1, 2, so
  entry (l, i, k) of either is a feature matrix at (i, k); the packed copy is the reference stack reshaped from
  3 × 1024 × 64 to 3 × 512 × 128, and since both are laid out row-major, its entry (l, q, 64 h + d) sits at position
  (l · 512 + q) · 128 + 64 h + d = (l · 1024 + 2 q + h) · 64 + d, which is entry (l, 2 q + h, d) of the stack; the two
  weights are transposed in their last two axes; the two biases gain a unit middle axis.
-/
import proofs.«100973_j86681029968319_2_alg».proof.Proof.FrameKitI
import proofs.«100973_j86681029968319_2_alg».proof.Proof.SpecIdx
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.EntryValue

open Cert.KernelIdeal Cert.KernelIdeal.Gen Cert.KernelIdeal.Hand Cert.IB
open Idealize.ShloMosaic Idealize.ShloMosaic.ValueIdx Idealize.ShloMosaic.TcCoe Idealize.SL.Sem

variable (m : (ℓ : Loc nD τ sig) → Buf (Elt Ideal) ℓ) (c : Dev nD)

/-! ## The launch arrays as the specification's inputs -/

/-- The four feature matrices the program was launched with. -/
def fea : Fin 4 → Mat := feaOf (m ((c : Thread nD τ).loc main_arg0)) (m ((c : Thread nD τ).loc main_arg1)) (m ((c : Thread nD τ).loc main_arg2)) (m ((c : Thread nD τ).loc main_arg3))
/-- The three mean-head weights, -/
def Wm : Fin 3 → Wt := wOf (m ((c : Thread nD τ).loc main_arg4))
/-- and biases. -/
def bm : Fin 3 → Bias := bOf (m ((c : Thread nD τ).loc main_arg5))
/-- The three variance-head weights, -/
def Wv : Fin 3 → Wt := wOf (m ((c : Thread nD τ).loc main_arg6))
/-- and biases. -/
def bv : Fin 3 → Bias := bOf (m ((c : Thread nD τ).loc main_arg7))

/-! ## Three shape operations at an index -/

section Shapes
variable {α : Type}

/-- A matrix given a leading unit axis reads, at `(u, i, k)`, the matrix at `(i, k)`. -/
theorem addUnit_apply {n k : ℕ} (x : (⟨2, ![n, k]⟩ : Shape).Idx → α)
    (h : (⟨2, ![n, k]⟩ : Shape).BroadcastsInDim ⟨3, ![1, n, k]⟩ (![1, 2] : Fin 2 → Fin 3)) (u : Fin 1) (i : Fin n) (j : Fin k) :
    broadcastInDim ⟨3, ![1, n, k]⟩ ![1, 2] h x (ix3 u i j) = x (ix2 i j) :=
  broadcastInDim_apply _ h x _ _ fun a => match a with
    | ⟨0, _⟩ => by
      show i.val = if n = 1 then 0 else i.val
      split
      · omega
      · rfl
    | ⟨1, _⟩ => by
      show j.val = if k = 1 then 0 else j.val
      split
      · omega
      · rfl

/-- A stack of vectors given a unit middle axis reads, at `(l, u, d)`, the stack at `(l, d)`. -/
theorem midUnit_apply {n k : ℕ} (x : (⟨2, ![n, k]⟩ : Shape).Idx → α)
    (h : (⟨2, ![n, k]⟩ : Shape).BroadcastsInDim ⟨3, ![n, 1, k]⟩ (![0, 2] : Fin 2 → Fin 3)) (l : Fin n) (u : Fin 1) (j : Fin k) :
    broadcastInDim ⟨3, ![n, 1, k]⟩ ![0, 2] h x (ix3 l u j) = x (ix2 l j) :=
  broadcastInDim_apply _ h x _ _ fun a => match a with
    | ⟨0, _⟩ => by
      show l.val = if n = 1 then 0 else l.val
      split
      · omega
      · rfl
    | ⟨1, _⟩ => by
      show j.val = if k = 1 then 0 else j.val
      split
      · omega
      · rfl

/-- Off the stacking axis a piece's index keeps the coordinates of the stack's. -/
theorem stack3_off {n k : ℕ} (l : Fin 3) (i : Fin n) (j : Fin k) (b : Fin 3) (hb : b ≠ 0) :
    ((ix3 (0 : Fin 1) i j : (⟨3, ![1, n, k]⟩ : Shape).Idx) b).val = ((ix3 l i j : (⟨3, ![3, n, k]⟩ : Shape).Idx) b).val :=
  match b with
  | ⟨0, _⟩ => absurd rfl hb
  | ⟨1, _⟩ => rfl
  | ⟨2, _⟩ => rfl

/-- Three arrays with a leading unit axis stacked along it: the stack at `(0, i, k)` is the first at `(0, i, k)`, -/
theorem stack3_at0 {n k : ℕ} (x0 x1 x2 : (⟨3, ![1, n, k]⟩ : Shape).Idx → α)
    (h : Shape.Concatenates [(⟨3, ![1, n, k]⟩ : Shape), ⟨3, ![1, n, k]⟩, ⟨3, ![1, n, k]⟩] ⟨3, ![3, n, k]⟩ 0) (i : Fin n) (j : Fin k) :
    concatenate ⟨3, ![3, n, k]⟩ 0 [⟨_, x0⟩, ⟨_, x1⟩, ⟨_, x2⟩] h (ix3 (0 : Fin 3) i j) = x0 (ix3 (0 : Fin 1) i j) :=
  concatenate_apply_piece (t := ⟨3, ![3, n, k]⟩) 0 [⟨⟨3, ![1, n, k]⟩, x0⟩, ⟨⟨3, ![1, n, k]⟩, x1⟩, ⟨⟨3, ![1, n, k]⟩, x2⟩] h (ix3 (0 : Fin 3) i j) 0 (by show (0 : ℕ) < 3; omega) ⟨3, ![1, n, k]⟩ x0 rfl rfl 0 rfl (ix3 (0 : Fin 1) i j)
    (fun b hb => stack3_off 0 i j b hb) rfl
/-- at `(1, i, k)` the second, -/
theorem stack3_at1 {n k : ℕ} (x0 x1 x2 : (⟨3, ![1, n, k]⟩ : Shape).Idx → α)
    (h : Shape.Concatenates [(⟨3, ![1, n, k]⟩ : Shape), ⟨3, ![1, n, k]⟩, ⟨3, ![1, n, k]⟩] ⟨3, ![3, n, k]⟩ 0) (i : Fin n) (j : Fin k) :
    concatenate ⟨3, ![3, n, k]⟩ 0 [⟨_, x0⟩, ⟨_, x1⟩, ⟨_, x2⟩] h (ix3 (1 : Fin 3) i j) = x1 (ix3 (0 : Fin 1) i j) :=
  concatenate_apply_piece (t := ⟨3, ![3, n, k]⟩) 0 [⟨⟨3, ![1, n, k]⟩, x0⟩, ⟨⟨3, ![1, n, k]⟩, x1⟩, ⟨⟨3, ![1, n, k]⟩, x2⟩] h (ix3 (1 : Fin 3) i j) 1 (by show (1 : ℕ) < 3; omega) ⟨3, ![1, n, k]⟩ x1 rfl rfl 1 rfl (ix3 (0 : Fin 1) i j)
    (fun b hb => stack3_off 1 i j b hb) rfl
/-- at `(2, i, k)` the third. -/
theorem stack3_at2 {n k : ℕ} (x0 x1 x2 : (⟨3, ![1, n, k]⟩ : Shape).Idx → α)
    (h : Shape.Concatenates [(⟨3, ![1, n, k]⟩ : Shape), ⟨3, ![1, n, k]⟩, ⟨3, ![1, n, k]⟩] ⟨3, ![3, n, k]⟩ 0) (i : Fin n) (j : Fin k) :
    concatenate ⟨3, ![3, n, k]⟩ 0 [⟨_, x0⟩, ⟨_, x1⟩, ⟨_, x2⟩] h (ix3 (2 : Fin 3) i j) = x2 (ix3 (0 : Fin 1) i j) :=
  concatenate_apply_piece (t := ⟨3, ![3, n, k]⟩) 0 [⟨⟨3, ![1, n, k]⟩, x0⟩, ⟨⟨3, ![1, n, k]⟩, x1⟩, ⟨⟨3, ![1, n, k]⟩, x2⟩] h (ix3 (2 : Fin 3) i j) 2 (by show (2 : ℕ) < 3; omega) ⟨3, ![1, n, k]⟩ x2 rfl rfl 2 rfl (ix3 (0 : Fin 1) i j)
    (fun b hb => stack3_off 2 i j b hb) rfl

end Shapes

/-! ## The host lines' results as terms over the launch arrays -/

/-- The student stack: feature matrices 1, 2, 3, each with a leading unit axis, concatenated along it. -/
theorem V_v3_eq : (V m c main_v3 : S3x1024x64.Idx → EReal) = concatenate S3x1024x64 0
    [⟨S1x1024x64, broadcastInDim S1x1024x64 ![1, 2] bcast_S1024x64_S1x1024x64_1_2 (m ((c : Thread nD τ).loc main_arg1))⟩,
     ⟨S1x1024x64, broadcastInDim S1x1024x64 ![1, 2] bcast_S1024x64_S1x1024x64_1_2 (m ((c : Thread nD τ).loc main_arg2))⟩,
     ⟨S1x1024x64, broadcastInDim S1x1024x64 ![1, 2] bcast_S1024x64_S1x1024x64_1_2 (m ((c : Thread nD τ).loc main_arg3))⟩]
    concatenates_S1x1024x64_S1x1024x64_S1x1024x64_S3x1024x64_d0 := by
  show StableHlo.after hostOps0 (fun b => m (c, b)) (Proc.devRef .tc main_v3) = _
  after_results
  rfl

/-- The reference stack: feature matrices 0, 1, 2 likewise. -/
theorem V_v7_eq : (V m c main_v7 : S3x1024x64.Idx → EReal) = concatenate S3x1024x64 0
    [⟨S1x1024x64, broadcastInDim S1x1024x64 ![1, 2] bcast_S1024x64_S1x1024x64_1_2 (m ((c : Thread nD τ).loc main_arg0))⟩,
     ⟨S1x1024x64, broadcastInDim S1x1024x64 ![1, 2] bcast_S1024x64_S1x1024x64_1_2 (m ((c : Thread nD τ).loc main_arg1))⟩,
     ⟨S1x1024x64, broadcastInDim S1x1024x64 ![1, 2] bcast_S1024x64_S1x1024x64_1_2 (m ((c : Thread nD τ).loc main_arg2))⟩]
    concatenates_S1x1024x64_S1x1024x64_S1x1024x64_S3x1024x64_d0 := by
  show StableHlo.after hostOps0 (fun b => m (c, b)) (Proc.devRef .tc main_v7) = _
  after_results
  rfl

/-- The packed copy: the reference stack reshaped. -/
theorem V_v8_eq : (V m c main_v8 : S3x512x128.Idx → EReal)
    = shapeCast S3x512x128 (V m c main_v7 : S3x1024x64.Idx → EReal) shapeCasts_S3x1024x64_S3x512x128 := by
  show StableHlo.after hostOps0 (fun b => m (c, b)) (Proc.devRef .tc main_v8) = _
  after_results
  rfl

/-- The mean weights, each transposed. -/
theorem V_v9_eq : (V m c main_v9 : S3x64x64.Idx → EReal)
    = transpose S3x64x64 [0, 2, 1] (m ((c : Thread nD τ).loc main_arg4)) transposes_S3x64x64_S3x64x64_0_2_1 := by
  show StableHlo.after hostOps0 (fun b => m (c, b)) (Proc.devRef .tc main_v9) = _
  after_results

/-- The variance weights, each transposed. -/
theorem V_v10_eq : (V m c main_v10 : S3x64x64.Idx → EReal)
    = transpose S3x64x64 [0, 2, 1] (m ((c : Thread nD τ).loc main_arg6)) transposes_S3x64x64_S3x64x64_0_2_1 := by
  show StableHlo.after hostOps0 (fun b => m (c, b)) (Proc.devRef .tc main_v10) = _
  after_results

/-- The mean biases with a unit middle axis. -/
theorem V_v11_eq : (V m c main_v11 : S3x1x64.Idx → EReal)
    = broadcastInDim S3x1x64 ![0, 2] bcast_S3x64_S3x1x64_0_2 (m ((c : Thread nD τ).loc main_arg5)) := by
  show StableHlo.after hostOps0 (fun b => m (c, b)) (Proc.devRef .tc main_v11) = _
  after_results

/-- The variance biases with a unit middle axis. -/
theorem V_v12_eq : (V m c main_v12 : S3x1x64.Idx → EReal)
    = broadcastInDim S3x1x64 ![0, 2] bcast_S3x64_S3x1x64_0_2 (m ((c : Thread nD τ).loc main_arg7)) := by
  show StableHlo.after hostOps0 (fun b => m (c, b)) (Proc.devRef .tc main_v12) = _
  after_results

/-! ## The seven staged arrays at an index -/

/-- The student stack at `(l, i, k)` is feature matrix `l + 1` at `(i, k)`. -/
theorem V_v3_apply (l : Fin 3) (i : Fin 1024) (k : Fin 64) :
    (V m c main_v3 : S3x1024x64.Idx → EReal) (ix3 l i k) = fea m c ⟨l.val + 1, by omega⟩ i k := by
  refine (congrFun (V_v3_eq m c) _).trans ?_
  match l with
  | ⟨0, _⟩ => exact (stack3_at0 _ _ _ _ i k).trans (addUnit_apply _ _ 0 i k)
  | ⟨1, _⟩ => exact (stack3_at1 _ _ _ _ i k).trans (addUnit_apply _ _ 0 i k)
  | ⟨2, _⟩ => exact (stack3_at2 _ _ _ _ i k).trans (addUnit_apply _ _ 0 i k)

/-- The reference stack at `(l, i, k)` is feature matrix `l` at `(i, k)`. -/
theorem V_v7_apply (l : Fin 3) (i : Fin 1024) (k : Fin 64) :
    (V m c main_v7 : S3x1024x64.Idx → EReal) (ix3 l i k) = fea m c ⟨l.val, by omega⟩ i k := by
  refine (congrFun (V_v7_eq m c) _).trans ?_
  match l with
  | ⟨0, _⟩ => exact (stack3_at0 _ _ _ _ i k).trans (addUnit_apply _ _ 0 i k)
  | ⟨1, _⟩ => exact (stack3_at1 _ _ _ _ i k).trans (addUnit_apply _ _ 0 i k)
  | ⟨2, _⟩ => exact (stack3_at2 _ _ _ _ i k).trans (addUnit_apply _ _ 0 i k)

/-- The packed copy at `(l, q, 64 h + d)` is feature matrix `l` at `(2 q + h, d)`: both arrays are row-major, and
    `(l · 512 + q) · 128 + 64 h + d = (l · 1024 + 2 q + h) · 64 + d`. -/
theorem V_v8_apply (l : Fin 3) (q : Fin 512) (h : Fin 2) (d : Fin 64) :
    (V m c main_v8 : S3x512x128.Idx → EReal) (ix3 l q (⟨64 * h.val + d.val, by omega⟩ : Fin 128))
      = fea m c ⟨l.val, by omega⟩ ⟨2 * q.val + h.val, by omega⟩ d := by
  refine (congrFun (V_v8_eq m c) _).trans ?_
  refine (shapeCast_apply _ _ _ (ix3 l (⟨2 * q.val + h.val, by omega⟩ : Fin 1024) d) ?_).trans (V_v7_apply m c l _ d)
  rw [Shape.rowMajor_val_three, Shape.rowMajor_val_three]
  show (l.val * 1024 + (2 * q.val + h.val)) * 64 + d.val = (l.val * 512 + q.val) * 128 + (64 * h.val + d.val)
  omega

/-- The transposed mean weight of layer `l` at `(k, d)` is the weight at `(d, k)`. -/
theorem V_v9_apply (l : Fin 3) (k d : Fin 64) :
    (V m c main_v9 : S3x64x64.Idx → EReal) (ix3 l k d) = Wm m c l d k :=
  (congrFun (V_v9_eq m c) _).trans (transpose_ix3_021_apply _ _ l k d)

/-- The transposed variance weight of layer `l` at `(k, d)` is the weight at `(d, k)`. -/
theorem V_v10_apply (l : Fin 3) (k d : Fin 64) :
    (V m c main_v10 : S3x64x64.Idx → EReal) (ix3 l k d) = Wv m c l d k :=
  (congrFun (V_v10_eq m c) _).trans (transpose_ix3_021_apply _ _ l k d)

/-- The mean bias of layer `l` at `(u, d)`. -/
theorem V_v11_apply (l : Fin 3) (u : Fin 1) (d : Fin 64) :
    (V m c main_v11 : S3x1x64.Idx → EReal) (ix3 l u d) = bm m c l d :=
  (congrFun (V_v11_eq m c) _).trans (midUnit_apply _ _ l u d)

/-- The variance bias of layer `l` at `(u, d)`. -/
theorem V_v12_apply (l : Fin 3) (u : Fin 1) (d : Fin 64) :
    (V m c main_v12 : S3x1x64.Idx → EReal) (ix3 l u d) = bv m c l d :=
  (congrFun (V_v12_eq m c) _).trans (midUnit_apply _ _ l u d)

end Cert.KernelIdeal.EntryValue

end
-- ==== Proof.Blocks.lean ====
/-
  What each of the kernel's seven input windows' blocks holds at a grid point, index by index, in terms of the arrays
  the program was launched with.  The grid is 8 row tiles by 3 layers, the layer running fastest: point t is row tile
  t / 3 of layer t % 3.  A block's element sits in its array, on each axis, at the block index times the block's size
  plus its coordinate inside the block; the index maps send point t to block (layer, row tile, 0) of the two feature
  stacks (blocks of 128 rows) and to block (layer, 0, 0) of the packed copy, the weights and the biases (whole layers).
  So the blocks are rows 128 (t / 3) … of a feature matrix, the packed rows of one, a transposed weight and a bias.
-/
import proofs.«100973_j86681029968319_2_alg».proof.Proof.FrameKitI
import proofs.«100973_j86681029968319_2_alg».proof.Proof.SpecIdx
import proofs.«100973_j86681029968319_2_alg».proof.Proof.EntryArrays
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.EntryValue

open Cert.KernelIdeal Cert.KernelIdeal.Gen Cert.KernelIdeal.Hand Cert.IB
open Idealize.ShloMosaic Idealize.ShloMosaic.ValueIdx Idealize.ShloMosaic.TcCoe Idealize.SL.Sem

variable (m : (ℓ : Loc nD τ sig) → Buf (Elt Ideal) ℓ) (c : Dev nD)

/-- A grid point's number is below 24. -/
theorem t_lt (t : Fin cfg0.N) : t.val < 24 := lt_of_lt_of_eq t.isLt N_0

/-! ## The printed index maps, decided over the grid

At point `t` the two feature stacks' block index is (layer, row tile, 0) and the other windows' is (layer, 0, 0), the layer
being `t % 3` and the row tile `t / 3`. -/

theorem idx_facts0 : ∀ t : Fin cfg0.N,
    win0_0.index t (0 : Fin 3) = t.val % 3 ∧ win0_0.index t (1 : Fin 3) = t.val / 3 ∧ win0_0.index t (2 : Fin 3) = 0 :=
  (by decide +kernel : ∀ t : Fin grid0.N, _)
theorem idx_facts1 : ∀ t : Fin cfg0.N,
    win0_1.index t (0 : Fin 3) = t.val % 3 ∧ win0_1.index t (1 : Fin 3) = t.val / 3 ∧ win0_1.index t (2 : Fin 3) = 0 :=
  (by decide +kernel : ∀ t : Fin grid0.N, _)
theorem idx_facts2 : ∀ t : Fin cfg0.N,
    win0_2.index t (0 : Fin 3) = t.val % 3 ∧ win0_2.index t (1 : Fin 3) = 0 ∧ win0_2.index t (2 : Fin 3) = 0 :=
  (by decide +kernel : ∀ t : Fin grid0.N, _)
theorem idx_facts3 : ∀ t : Fin cfg0.N,
    win0_3.index t (0 : Fin 3) = t.val % 3 ∧ win0_3.index t (1 : Fin 3) = 0 ∧ win0_3.index t (2 : Fin 3) = 0 :=
  (by decide +kernel : ∀ t : Fin grid0.N, _)
theorem idx_facts4 : ∀ t : Fin cfg0.N,
    win0_4.index t (0 : Fin 3) = t.val % 3 ∧ win0_4.index t (1 : Fin 3) = 0 ∧ win0_4.index t (2 : Fin 3) = 0 :=
  (by decide +kernel : ∀ t : Fin grid0.N, _)
theorem idx_facts5 : ∀ t : Fin cfg0.N,
    win0_5.index t (0 : Fin 3) = t.val % 3 ∧ win0_5.index t (1 : Fin 3) = 0 ∧ win0_5.index t (2 : Fin 3) = 0 :=
  (by decide +kernel : ∀ t : Fin grid0.N, _)
theorem idx_facts6 : ∀ t : Fin cfg0.N,
    win0_6.index t (0 : Fin 3) = t.val % 3 ∧ win0_6.index t (1 : Fin 3) = 0 ∧ win0_6.index t (2 : Fin 3) = 0 :=
  (by decide +kernel : ∀ t : Fin grid0.N, _)

/-! ## The blocks at an index -/

/-- The student features' block at point `t`: row `128 (t / 3) + r` of feature matrix `t % 3 + 1`. -/
theorem iblk0_apply (t : Fin cfg0.N) (r : Fin 128) (k : Fin 64) :
    (iblk m c 0 t : S1x128x64.Idx → EReal) (ix3 (0 : Fin 1) r k)
      = fea m c ⟨t.val % 3 + 1, by omega⟩ ⟨128 * (t.val / 3) + r.val, by have := t_lt t; omega⟩ k := by
  have hN := t_lt t
  obtain ⟨e0, e1, e2⟩ := idx_facts0 t
  have hemb : ((cfg0.win 0).blk t).view.emb (ix3 (0 : Fin 1) r k)
      = ix3 (⟨t.val % 3, by omega⟩ : Fin 3) (⟨128 * (t.val / 3) + r.val, by omega⟩ : Fin 1024) k := by
    funext a; apply Fin.ext
    match a with
    | ⟨0, _⟩ => show win0_0.index t (0 : Fin 3) * 1 + 1 * 0 = t.val % 3; omega
    | ⟨1, _⟩ => show win0_0.index t (1 : Fin 3) * 128 + 1 * r.val = 128 * (t.val / 3) + r.val; omega
    | ⟨2, _⟩ => show win0_0.index t (2 : Fin 3) * 64 + 1 * k.val = k.val; omega
  show (V m c main_v3 : S3x1024x64.Idx → EReal) (((cfg0.win 0).blk t).view.emb (ix3 (0 : Fin 1) r k)) = _
  rw [hemb]
  exact V_v3_apply m c _ _ _

/-- The reference features' block at point `t`: row `128 (t / 3) + r` of feature matrix `t % 3`. -/
theorem iblk1_apply (t : Fin cfg0.N) (r : Fin 128) (k : Fin 64) :
    (iblk m c 1 t : S1x128x64.Idx → EReal) (ix3 (0 : Fin 1) r k)
      = fea m c ⟨t.val % 3, by omega⟩ ⟨128 * (t.val / 3) + r.val, by have := t_lt t; omega⟩ k := by
  have hN := t_lt t
  obtain ⟨e0, e1, e2⟩ := idx_facts1 t
  have hemb : ((cfg0.win 1).blk t).view.emb (ix3 (0 : Fin 1) r k)
      = ix3 (⟨t.val % 3, by omega⟩ : Fin 3) (⟨128 * (t.val / 3) + r.val, by omega⟩ : Fin 1024) k := by
    funext a; apply Fin.ext
    match a with
    | ⟨0, _⟩ => show win0_1.index t (0 : Fin 3) * 1 + 1 * 0 = t.val % 3; omega
    | ⟨1, _⟩ => show win0_1.index t (1 : Fin 3) * 128 + 1 * r.val = 128 * (t.val / 3) + r.val; omega
    | ⟨2, _⟩ => show win0_1.index t (2 : Fin 3) * 64 + 1 * k.val = k.val; omega
  show (V m c main_v7 : S3x1024x64.Idx → EReal) (((cfg0.win 1).blk t).view.emb (ix3 (0 : Fin 1) r k)) = _
  rw [hemb]
  exact V_v7_apply m c _ _ _

/-- The packed reference features' block at point `t`: packed row `q`, lane `64 h + d` is row `2 q + h`, column `d` of
    feature matrix `t % 3`. -/
theorem iblk2_apply (t : Fin cfg0.N) (q : Fin 512) (h : Fin 2) (d : Fin 64) :
    (iblk m c 2 t : S1x512x128.Idx → EReal) (ix3 (0 : Fin 1) q (⟨64 * h.val + d.val, by omega⟩ : Fin 128))
      = fea m c ⟨t.val % 3, by omega⟩ ⟨2 * q.val + h.val, by omega⟩ d := by
  obtain ⟨e0, e1, e2⟩ := idx_facts2 t
  have hemb : ((cfg0.win 2).blk t).view.emb (ix3 (0 : Fin 1) q (⟨64 * h.val + d.val, by omega⟩ : Fin 128))
      = ix3 (⟨t.val % 3, by omega⟩ : Fin 3) q (⟨64 * h.val + d.val, by omega⟩ : Fin 128) := by
    funext a; apply Fin.ext
    match a with
    | ⟨0, _⟩ => show win0_2.index t (0 : Fin 3) * 1 + 1 * 0 = t.val % 3; omega
    | ⟨1, _⟩ => show win0_2.index t (1 : Fin 3) * 512 + 1 * q.val = q.val; omega
    | ⟨2, _⟩ => show win0_2.index t (2 : Fin 3) * 128 + 1 * (64 * h.val + d.val) = 64 * h.val + d.val; omega
  show (V m c main_v8 : S3x512x128.Idx → EReal) (((cfg0.win 2).blk t).view.emb (ix3 (0 : Fin 1) q (⟨64 * h.val + d.val, by omega⟩ : Fin 128))) = _
  rw [hemb]
  exact V_v8_apply m c _ q h d

/-- The mean weight's block at point `t`: the weight of layer `t % 3`, transposed. -/
theorem iblk3_apply (t : Fin cfg0.N) (k d : Fin 64) :
    (iblk m c 3 t : S1x64x64.Idx → EReal) (ix3 (0 : Fin 1) k d) = Wm m c ⟨t.val % 3, by omega⟩ d k := by
  obtain ⟨e0, e1, e2⟩ := idx_facts3 t
  have hemb : ((cfg0.win 3).blk t).view.emb (ix3 (0 : Fin 1) k d) = ix3 (⟨t.val % 3, by omega⟩ : Fin 3) k d := by
    funext a; apply Fin.ext
    match a with
    | ⟨0, _⟩ => show win0_3.index t (0 : Fin 3) * 1 + 1 * 0 = t.val % 3; omega
    | ⟨1, _⟩ => show win0_3.index t (1 : Fin 3) * 64 + 1 * k.val = k.val; omega
    | ⟨2, _⟩ => show win0_3.index t (2 : Fin 3) * 64 + 1 * d.val = d.val; omega
  show (V m c main_v9 : S3x64x64.Idx → EReal) (((cfg0.win 3).blk t).view.emb (ix3 (0 : Fin 1) k d)) = _
  rw [hemb]
  exact V_v9_apply m c _ _ _

/-- The mean bias's block at point `t`: the bias of layer `t % 3`. -/
theorem iblk4_apply (t : Fin cfg0.N) (d : Fin 64) :
    (iblk m c 4 t : S1x1x64.Idx → EReal) (ix3 (0 : Fin 1) (0 : Fin 1) d) = bm m c ⟨t.val % 3, by omega⟩ d := by
  obtain ⟨e0, e1, e2⟩ := idx_facts4 t
  have hemb : ((cfg0.win 4).blk t).view.emb (ix3 (0 : Fin 1) (0 : Fin 1) d) = ix3 (⟨t.val % 3, by omega⟩ : Fin 3) (0 : Fin 1) d := by
    funext a; apply Fin.ext
    match a with
    | ⟨0, _⟩ => show win0_4.index t (0 : Fin 3) * 1 + 1 * 0 = t.val % 3; omega
    | ⟨1, _⟩ => show win0_4.index t (1 : Fin 3) * 1 + 1 * 0 = 0; omega
    | ⟨2, _⟩ => show win0_4.index t (2 : Fin 3) * 64 + 1 * d.val = d.val; omega
  show (V m c main_v11 : S3x1x64.Idx → EReal) (((cfg0.win 4).blk t).view.emb (ix3 (0 : Fin 1) (0 : Fin 1) d)) = _
  rw [hemb]
  exact V_v11_apply m c _ _ _

/-- The variance weight's block at point `t`: the weight of layer `t % 3`, transposed. -/
theorem iblk5_apply (t : Fin cfg0.N) (k d : Fin 64) :
    (iblk m c 5 t : S1x64x64.Idx → EReal) (ix3 (0 : Fin 1) k d) = Wv m c ⟨t.val % 3, by omega⟩ d k := by
  obtain ⟨e0, e1, e2⟩ := idx_facts5 t
  have hemb : ((cfg0.win 5).blk t).view.emb (ix3 (0 : Fin 1) k d) = ix3 (⟨t.val % 3, by omega⟩ : Fin 3) k d := by
    funext a; apply Fin.ext
    match a with
    | ⟨0, _⟩ => show win0_5.index t (0 : Fin 3) * 1 + 1 * 0 = t.val % 3; omega
    | ⟨1, _⟩ => show win0_5.index t (1 : Fin 3) * 64 + 1 * k.val = k.val; omega
    | ⟨2, _⟩ => show win0_5.index t (2 : Fin 3) * 64 + 1 * d.val = d.val; omega
  show (V m c main_v10 : S3x64x64.Idx → EReal) (((cfg0.win 5).blk t).view.emb (ix3 (0 : Fin 1) k d)) = _
  rw [hemb]
  exact V_v10_apply m c _ _ _

/-- The variance bias's block at point `t`: the bias of layer `t % 3`. -/
theorem iblk6_apply (t : Fin cfg0.N) (d : Fin 64) :
    (iblk m c 6 t : S1x1x64.Idx → EReal) (ix3 (0 : Fin 1) (0 : Fin 1) d) = bv m c ⟨t.val % 3, by omega⟩ d := by
  obtain ⟨e0, e1, e2⟩ := idx_facts6 t
  have hemb : ((cfg0.win 6).blk t).view.emb (ix3 (0 : Fin 1) (0 : Fin 1) d) = ix3 (⟨t.val % 3, by omega⟩ : Fin 3) (0 : Fin 1) d := by
    funext a; apply Fin.ext
    match a with
    | ⟨0, _⟩ => show win0_6.index t (0 : Fin 3) * 1 + 1 * 0 = t.val % 3; omega
    | ⟨1, _⟩ => show win0_6.index t (1 : Fin 3) * 1 + 1 * 0 = 0; omega
    | ⟨2, _⟩ => show win0_6.index t (2 : Fin 3) * 64 + 1 * d.val = d.val; omega
  show (V m c main_v12 : S3x1x64.Idx → EReal) (((cfg0.win 6).blk t).view.emb (ix3 (0 : Fin 1) (0 : Fin 1) d)) = _
  rw [hemb]
  exact V_v12_apply m c _ _ _

end Cert.KernelIdeal.EntryValue

end
-- ==== Proof.TailValue.lean ====
/-
  The host lines after the region: the sum of the region's output column from zero, divided by 1024.  If the column
  ends holding, at each sample, the three layers' row terms added in order, the result is the specification's `K`.
-/
import proofs.«100973_j86681029968319_2_alg».proof.Proof.FrameI
import proofs.«100973_j86681029968319_2_alg».proof.Proof.Spec
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.IB

variable (m : (ℓ : Loc nD τ sig) → Buf (Elt Ideal) ℓ) (c : Dev nD)

/-- The column the region's output array ends holding: at sample `j 0` the three layers' row terms. -/
def GcolOf (fea : Fin 4 → Mat) (Wm Wv : Fin 3 → Wt) (bm bv : Fin 3 → Bias) : S1024x1.Idx → EReal :=
  fun j => outK fea Wm Wv bm bv ⟨(j 0).val, idx2_lt0 j⟩

theorem tail_value (fea : Fin 4 → Mat) (Wm Wv : Fin 3 → Wt) (bm bv : Fin 3 → Bias)
    (hfin : (dats m 0 c).arrAt 7 cfg0.N = GcolOf fea Wm Wv bm bv) :
    Pipeline.afterTail₀ cfgs (dats m) 0 (V0 m) [hostOps1] c main_v15 = fun _ => K fea Wm Wv bm bv := by
  unfold Pipeline.afterTail₀
  show StableHlo.after hostOps1 _ (Proc.devRef .tc main_v15) = _
  after_results
  rw [show Pipeline.withArrays (cfgs 0).spec c (V0 m c) (fun w => (dats m 0 c).arrAt w (cfgs 0).N) (Proc.tc.devRef main_v13)
        = (dats m 0 c).arrAt 7 cfg0.N from Pipeline.withArrays_arr spec0 launch0.win.arr_inj c _ _ 7, hfin]
  funext j
  have hs : Host.reduceAdd (F := Ideal) (GcolOf fea Wm Wv bm bv) (constant S_ .f32 0#32) reducesTo_S1024x1_S_d0_1 h_S_ j
      = (constant (F := Ideal) S_ .f32 0#32) (Shape.Idx.first h_S_) + ∑ i : S1024x1.Idx, GcolOf fea Wm Wv bm bv i := by
    simp only [Host.reduceAdd, Ideal.hostReduceAdd_def]
    exact Ideal.hostReduceAdd_total reducesTo_S1024x1_S_d0_1 (fun b => b.elim0) _ _ j
  show FloatOps.hostDivf (Host.reduceAdd (F := Ideal) (GcolOf fea Wm Wv bm bv) (constant S_ .f32 0#32) reducesTo_S1024x1_S_d0_1 h_S_ j)
      (constant (F := Ideal) S_ .f32 1149239296#32 j) = _
  rw [hs, sum_idx2]
  simp only [Fin.sum_univ_one]
  show Ideal.div (Ideal.ofBits .f32 0x00000000#32 + ∑ a : Fin 1024, GcolOf fea Wm Wv bm bv (ix2 a 0)) (Ideal.ofBits .f32 0x44800000#32) = _
  rw [Ideal.ofBits_zero_f32]
  rfl

end Cert.KernelIdeal.Hand

end
-- ==== Proof.PointValue.lean ====
/-
  From grid points to the output array.  At grid position t the row tile is t / 3 and the layer t % 3; the seven
  input blocks there are rows 128·(t/3) … of the layer's student and reference features, the layer's packed
  reference features, and the layer's weights and biases.  So the body adds, to row r of the output column's
  buffer, the layer's row term of sample 128·(t/3) + r.  By induction on the position the buffer holds, after
  position n, the row terms of layers 0 … n % 3 added in order to zero; after a tile's third layer that is the
  column the specification names, which is what is written back; the eight write-backs tile the 1024 samples.
-/
import proofs.«100973_j86681029968319_2_alg».proof.Proof.RowValue
import proofs.«100973_j86681029968319_2_alg».proof.Proof.Blocks
import proofs.«100973_j86681029968319_2_alg».proof.Proof.TailValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.KernelIdeal.PayloadValue Cert.IB Cert.KernelIdeal.EntryValue

variable (m : (ℓ : Loc nD τ sig) → Buf (Elt Ideal) ℓ) (c : Dev nD)

/-- Layer `l`'s row term of sample `g` (nothing for `l ≥ 3`). -/
def rowLn (l : ℕ) (g : Fin 1024) : EReal :=
  if h : l < 3 then rowK (fea m c ⟨l + 1, by omega⟩) (fea m c ⟨l, by omega⟩) (Wm m c ⟨l, h⟩) (bm m c ⟨l, h⟩) (Wv m c ⟨l, h⟩) (bv m c ⟨l, h⟩) g else 0

/-- The loop's total over the packed block of position `t` is the layer's half sum. -/
theorem halfB_point (t : Fin cfg0.N) (mu : EReal) (h : Fin 2) (d : Fin 64) :
    halfB (iblk m c 2 t) mu h d = halfSum (fea m c ⟨t.val % 3, by omega⟩) mu d h := by
  unfold halfB halfSum
  rw [zero_add, Finset.sum_range]
  refine Finset.sum_congr rfl fun k _ => ?_
  unfold chunkSum
  rw [dif_pos k.isLt]
  refine Finset.sum_congr rfl fun p _ => ?_
  rw [iblk2_apply m c t (⟨64 * k.val + p.val, by omega⟩ : Fin 512) h d]
  rfl

/-- The body at position `t` adds the layer's row term of sample `128·(t/3) + r` to row `r`. -/
theorem bodyVal_point (t : Fin cfg0.N) (xo : Vec Ideal S128x1 .f32) (r : Fin 128) :
    bodyVal (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (iblk m c 6 t) xo (ix2 r 0)
      = xo (ix2 r 0) + rowLn m c (t.val % 3) ⟨128 * (t.val / 3) + r.val, by have := t_lt t; omega⟩ := by
  have h3 : t.val % 3 < 3 := Nat.mod_lt _ (by decide)
  rw [bodyVal_apply]
  unfold rowLn
  rw [dif_pos h3]
  unfold rowK posK negK
  refine congrArg (fun z => xo (ix2 r 0) + z) (Finset.sum_congr rfl fun d _ => ?_)
  have hmu : muB (iblk m c 0 t) (iblk m c 3 t) (iblk m c 4 t) r d
      = lin (fea m c ⟨t.val % 3 + 1, by omega⟩) (Wm m c ⟨t.val % 3, h3⟩) (bm m c ⟨t.val % 3, h3⟩) ⟨128 * (t.val / 3) + r.val, by have := t_lt t; omega⟩ d := by
    unfold muB lin
    simp only [iblk0_apply m c, iblk3_apply m c, iblk4_apply m c]
  have hvar : varB (iblk m c 0 t) (iblk m c 5 t) (iblk m c 6 t) r d
      = varK (fea m c ⟨t.val % 3 + 1, by omega⟩) (Wv m c ⟨t.val % 3, h3⟩) (bv m c ⟨t.val % 3, h3⟩) ⟨128 * (t.val / 3) + r.val, by have := t_lt t; omega⟩ d := by
    unfold varB varK lin
    simp only [iblk0_apply m c, iblk5_apply m c, iblk6_apply m c]
  rw [hmu, hvar, halfB_point, halfB_point, iblk1_apply m c t r d]

/-- The running column at sample `g` after layers `0 … l`: their row terms added in order to zero. -/
def acc3 (g : Fin 1024) : ℕ → EReal
  | 0 => 0 + rowLn m c 0 g
  | l + 1 => acc3 g l + rowLn m c (l + 1) g

/-- THE ACCUMULATION, read: after position `n` row `r` of the output buffer holds the running column of sample
    `128·(n/3) + r` after layers `0 … n % 3`. -/
theorem outsAt_eq (n : ℕ) : ∀ (h : n < cfg0.N) (r : Fin 128),
    outsAt0 m c n h (ix2 r 0) = acc3 m c ⟨128 * (n / 3) + r.val, by have := lt_of_lt_of_eq h (show cfg0.N = 24 from N_0); omega⟩ (n % 3) := by
  induction n with
  | zero =>
    intro h r
    rw [outsAt0_A m c ⟨0, h⟩ rfl, out_A, bodyVal_point, pay3_apply]
    rfl
  | succ n ih =>
    intro h r
    have hN24 : n + 1 < 24 := lt_of_lt_of_eq h (show cfg0.N = 24 from N_0)
    by_cases h0 : (n + 1) % 3 = 0
    · rw [outsAt0_A m c ⟨n + 1, h⟩ h0, out_A, bodyVal_point, pay3_apply]
      show 0 + rowLn m c ((n + 1) % 3) _ = acc3 m c _ ((n + 1) % 3)
      rw [h0]
      rfl
    · rw [outsAt0_B m c ⟨n + 1, h⟩ h0, out_B, bodyVal_point]
      have e1 : (n + 1) % 3 = n % 3 + 1 := by omega
      have hg : (⟨128 * ((n + 1) / 3) + r.val, by omega⟩ : Fin 1024) = ⟨128 * (n / 3) + r.val, by omega⟩ := Fin.ext (by show 128 * ((n + 1) / 3) + r.val = 128 * (n / 3) + r.val; omega)
      show outsAt0 m c n _ (ix2 r 0) + rowLn m c ((n + 1) % 3) _ = acc3 m c _ ((n + 1) % 3)
      rw [ih (Nat.lt_of_succ_lt h) r, hg, e1]
      rfl

/-- After a tile's third layer the running column is the specification's output column. -/
theorem acc3_two (g : Fin 1024) : acc3 m c g 2 = outK (fea m c) (Wm m c) (Wv m c) (bm m c) (bv m c) g := rfl

/-! ## The output array -/

/-- The output window's block index: the row tile, and zero. -/
theorem idx_facts7 : ∀ t : Fin cfg0.N, win0_7.index t (0 : Fin 2) = t.val / 3 ∧ win0_7.index t (1 : Fin 2) = 0 :=
  (by decide +kernel : ∀ t : Fin grid0.N, _)

/-- What a write-back writes is the block of the specification's column. -/
theorem flushed_eq (t : Fin cfg0.N) (hf : (cfg0.win 7).flush t = true) :
    (dats m 0 c).flushed 7 t = ((cfg0.win 7).blk t).view.read (Elt Ideal) (GcolOf (fea m c) (Wm m c) (Wv m c) (bm m c) (bv m c)) := by
  have h2 : t.val % 3 = 2 := (flush0_7 t).mp hf
  have ht := t_lt t
  show (cfg0.win 7).cut (grid0.coords t) ((dats m 0 c).after 7 t) = _
  rw [after0_7]
  obtain ⟨e0, e1⟩ := idx_facts7 t
  funext j
  obtain ⟨r, q, rfl⟩ : ∃ (r : Fin 128) (q : Fin 1), j = ix2 r q := ⟨j 0, j 1, eq_ix2 j⟩
  obtain rfl : q = 0 := Subsingleton.elim _ _
  show outsAt0 m c t.val t.isLt (ix2 r 0) = GcolOf (fea m c) (Wm m c) (Wv m c) (bm m c) (bv m c) (((cfg0.win 7).blk t).view.emb (ix2 r 0))
  rw [outsAt_eq, h2, acc3_two]
  unfold GcolOf
  refine congrArg (outK (fea m c) (Wm m c) (Wv m c) (bm m c) (bv m c)) (Fin.ext ?_)
  show 128 * (t.val / 3) + r.val = win0_7.index t (0 : Fin 2) * 128 + 1 * r.val
  rw [e0]; omega

/-- A sample is in position `t`'s block iff each coordinate is in the block's range. -/
theorem mem_blk7 (t : Fin cfg0.N) (i : S1024x1.Idx) :
    i ∈ ((cfg0.win 7).blk t).view.set ↔ ∀ a : Fin 2, win0_7.index t a * S128x1.size a ≤ (i a).val ∧ (i a).val < win0_7.index t a * S128x1.size a + S128x1.size a := by
  show i ∈ ((View.whole main_v13).slice (win0_7.rect t)).set ↔ _
  rw [View.set_slice_whole, Rect.mem_set_unit]
  exact Iff.rfl

/-- Every sample is written back by its tile's third layer. -/
theorem cover7 (i : S1024x1.Idx) : ∃ t : Fin cfg0.N, (cfg0.win 7).flush t = true ∧ i ∈ ((cfg0.win 7).blk t).view.set := by
  have hi0 : (i 0).val < 1024 := (i 0).isLt
  have hi1 : (i 1).val < 1 := (i 1).isLt
  have hlt : 3 * ((i 0).val / 128) + 2 < cfg0.N := by rw [show cfg0.N = 24 from N_0]; omega
  refine ⟨⟨3 * ((i 0).val / 128) + 2, hlt⟩, (flush0_7 _).mpr (by show (3 * ((i 0).val / 128) + 2) % 3 = 2; omega), ?_⟩
  rw [mem_blk7]
  obtain ⟨e0, e1⟩ := idx_facts7 ⟨3 * ((i 0).val / 128) + 2, hlt⟩
  intro a
  match a with
  | ⟨0, _⟩ =>
    show win0_7.index _ (0 : Fin 2) * 128 ≤ (i 0).val ∧ (i 0).val < win0_7.index _ (0 : Fin 2) * 128 + 128
    rw [e0]; show (3 * ((i 0).val / 128) + 2) / 3 * 128 ≤ (i 0).val ∧ (i 0).val < (3 * ((i 0).val / 128) + 2) / 3 * 128 + 128; omega
  | ⟨1, _⟩ =>
    show win0_7.index _ (1 : Fin 2) * 1 ≤ (i 1).val ∧ (i 1).val < win0_7.index _ (1 : Fin 2) * 1 + 1
    rw [e1]; omega

/-- The output array ends holding the specification's column. -/
theorem final7 : (dats m 0 c).arrAt 7 cfg0.N = GcolOf (fea m c) (Wm m c) (Wv m c) (bm m c) (bv m c) :=
  (dats m 0 c).arrAt_eq_of_cover 7 (GcolOf (fea m c) (Wm m c) (Wv m c) (bm m c) (bv m c)) (flushed_eq m c) cover7

end Cert.KernelIdeal.Hand

end
-- ==== Proof.KernelRun.lean ====
/-
  The idealized kernel's run, read: every weakly fair execution of @main terminates, the result — the mean of the
  region's output column — is the specification's `K` of the launch arrays, and the arguments end as launched.
-/
import proofs.«100973_j86681029968319_2_alg».proof.Proof.PointValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.IB Cert.KernelIdeal.EntryValue

variable (m : (ℓ : Loc nD τ sig) → Buf (Elt Ideal) ℓ) (ρ : Dev nD → PrngReg)

/-- The result of the run on core `c`. -/
def resultK (c : Dev nD) : Buf (Elt Ideal) ((c.tc : Thread nD τ).loc main_v15) :=
  fun _ => K (fea m c) (Wm m c) (Wv m c) (bm m c) (bv m c)

theorem run_value : θ_run defs (onTc (τ := τ) (main (F := Ideal))) ⟨m, fun _ => 0, ρ⟩ (fun r => ∀ c : Dev nD,
      r.2.mem ((c.tc : Thread nD τ).loc main_v15) = resultK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_v15 (Pipeline.mem_restRefs_of main_v15 (by decide) (by decide))).trans
        (tail_value m c _ _ _ _ _ (final7 m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩) (run_main m ρ)

end Cert.KernelIdeal.Hand

end
-- ==== Proof.RefLib.lean ====
/-
  Small facts shared by the three layers of the reference's value proof: a sum over a rank-1 index set as the sum over
  its coordinate; the comparison "differs from itself" on the extended reals; and the three pointwise chains of a
  layer — the variance head, the positive term, the negative term — as the specification's closed forms of their
  operands.
-/
import proofs.«100973_j86681029968319_2_alg».proof.Proof.Gen.ReferenceIdeal.Read
import proofs.«100973_j86681029968319_2_alg».proof.Proof.SpecIdx

noncomputable section

namespace Cert.ReferenceIdeal.RefValue

open Cert.ReferenceIdeal Idealize.ShloMosaic Idealize.ShloMosaic.ValueIdx

/-- The three kinds of argument array at the ideal instance. -/
abbrev Fea := (⟨S1024x64, .f32⟩ : BufTy).Contents (Elt Ideal)
abbrev Wts := (⟨S3x64x64, .f32⟩ : BufTy).Contents (Elt Ideal)
abbrev Bs := (⟨S3x64, .f32⟩ : BufTy).Contents (Elt Ideal)

/-- A feature array as the specification's matrix. -/
abbrev matOf (x : Fea) : Cert.IB.Mat := fun i k => x (ix2 i k)

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- No extended real differs from itself, so "unordered or not equal" of a value with itself is the bit 0. -/
theorem cmpf_une_self (a : Ideal .f32) : FloatOps.cmpf (F := Ideal) .une a a = 0#1 := by
  show Ideal.cmp .une a a = 0#1
  simp [Ideal.cmp]

/-- The variance head as a function of its pre-activation `z`: the select's condition `z - 0 ≠ z - 0` never holds, so
    the softplus is its second branch `max z 0 + log1p (exp (-|z - 0|))`; then the product with f32(0.1) and the sum
    with f32(1e-6), both words kept as the specification's named constants. -/
theorem var_closed (z : Ideal .f32) :
    FloatOps.addf (FloatOps.mulf
      (Scalar.select
        (FloatOps.cmpf .une (FloatOps.subf z (FloatOps.ofBits (F := Ideal) .f32 0x00000000#32)) (FloatOps.subf z (FloatOps.ofBits (F := Ideal) .f32 0x00000000#32)))
        (FloatOps.addf z (FloatOps.ofBits (F := Ideal) .f32 0x00000000#32))
        (FloatOps.addf (FloatOps.maximumf z (FloatOps.ofBits (F := Ideal) .f32 0x00000000#32))
          (FloatOps.hostUnary .log1p (FloatOps.hostUnary .exp (FloatOps.hostNegf (FloatOps.hostAbsf
            (FloatOps.subf z (FloatOps.ofBits (F := Ideal) .f32 0x00000000#32))))))))
      (FloatOps.ofBits (F := Ideal) .f32 0x3DCCCCCD#32)) (FloatOps.ofBits (F := Ideal) .f32 0x358637BD#32)
      = Cert.IB.softplusR z * Cert.IB.c10 + Cert.IB.cEps := by
  rw [cmpf_une_self, select_zero]
  simp only [Ideal.ofBits_def, Ideal.ofBits_zero_f32]
  rfl

end Cert.ReferenceIdeal.RefValue

end
-- ==== Proof.RefLayer0.lean ====
/-
  The first layer of the reference, read one stage at a time (student features `xs`, reference features `xr`): its
  mean head is the specification's affine head `lin`, its variance head `varR`, its positive and negative terms `posR`
  and `negR`, and its scalar `layerR`. Every big intermediate stays symbolic: each stage is read at one index from its
  operands at one index, and a composed index map is identified with the plain coordinates it names.
-/
import proofs.«100973_j86681029968319_2_alg».proof.Proof.RefLib

noncomputable section

namespace Cert.ReferenceIdeal.RefValue

open Cert.ReferenceIdeal Cert.ReferenceIdeal.Read Idealize.ShloMosaic Idealize.ShloMosaic.ValueIdx

/-- The mean head's weight, sliced out of the stack, reshaped and transposed, at (k, d): entry (d, k) of the layer's
    weight (the reshape's row-major arithmetic `(64 d + k) / 64 = d`, `(64 d + k) % 64 = k`). -/
theorem wm0_at (x4 : Wts) (k d : Fin 64) : val_main_v2 (F := Ideal) x4 (ix2 k d) = x4 (ix3 (0 : Fin 3) d k) := by
  rw [val_main_v2_apply, val_main_v1_apply, val_main_v0_apply]
  refine congrArg x4 (funext fun a => Fin.ext ?_)
  match a with
  | ⟨0, _⟩ => rfl
  | ⟨1, _⟩ => show (d.val * 64 + k.val) / 64 % 64 = d.val; omega
  | ⟨2, _⟩ => show (d.val * 64 + k.val) % 64 = k.val; omega

/-- The mean head at (i, d): the contraction over the 64 input features plus the layer's bias row, broadcast. -/
theorem mu0_at (xs : Fea) (x4 : Wts) (x5 : Bs) (i : Fin 1024) (d : Fin 64) :
    val_main_v8 (F := Ideal) xs x4 x5 (ix2 i d) = Cert.IB.lin (matOf xs) (Cert.IB.wOf x4 (0 : Fin 3)) (Cert.IB.bOf x5 (0 : Fin 3)) i d := by
  rw [val_main_v8_apply, val_main_v3_apply, val_main_v7_apply, val_main_v6_apply, val_main_v5_apply, val_main_v4_apply]
  show (∑ k : Fin 64, _ * _) + _ = (∑ k : Fin 64, xs (ix2 i k) * x4 (ix3 (0 : Fin 3) d k)) + x5 (ix2 (0 : Fin 3) d)
  refine congrArg₂ (· + ·) (Finset.sum_congr rfl fun k _ => ?_) (congrArg x5 (funext fun a => Fin.ext ?_))
  · have hl : lidx_main_v3 (ix2 i d) k = ix2 i k :=
      funext fun a => Fin.ext (by match a with | ⟨0, _⟩ => rfl | ⟨1, _⟩ => rfl)
    have hr : ridx_main_v3 (ix2 i d) k = ix2 k d :=
      funext fun a => Fin.ext (by match a with | ⟨0, _⟩ => rfl | ⟨1, _⟩ => rfl)
    rw [hl, hr, wm0_at]
  · match a with
    | ⟨0, _⟩ => rfl
    | ⟨1, _⟩ => show d.val % 64 = d.val; omega

/-- The variance head's weight at (k, d), as the mean head's. -/
theorem wv0_at (x6 : Wts) (k d : Fin 64) : val_main_v11 (F := Ideal) x6 (ix2 k d) = x6 (ix3 (0 : Fin 3) d k) := by
  rw [val_main_v11_apply, val_main_v10_apply, val_main_v9_apply]
  refine congrArg x6 (funext fun a => Fin.ext ?_)
  match a with
  | ⟨0, _⟩ => rfl
  | ⟨1, _⟩ => show (d.val * 64 + k.val) / 64 % 64 = d.val; omega
  | ⟨2, _⟩ => show (d.val * 64 + k.val) % 64 = k.val; omega

/-- The variance head's pre-activation at (i, d). -/
theorem pre0_at (xs : Fea) (x6 : Wts) (x7 : Bs) (i : Fin 1024) (d : Fin 64) :
    val_main_v17 (F := Ideal) xs x6 x7 (ix2 i d) = Cert.IB.lin (matOf xs) (Cert.IB.wOf x6 (0 : Fin 3)) (Cert.IB.bOf x7 (0 : Fin 3)) i d := by
  rw [val_main_v17_apply, val_main_v12_apply, val_main_v16_apply, val_main_v15_apply, val_main_v14_apply, val_main_v13_apply]
  show (∑ k : Fin 64, _ * _) + _ = (∑ k : Fin 64, xs (ix2 i k) * x6 (ix3 (0 : Fin 3) d k)) + x7 (ix2 (0 : Fin 3) d)
  refine congrArg₂ (· + ·) (Finset.sum_congr rfl fun k _ => ?_) (congrArg x7 (funext fun a => Fin.ext ?_))
  · have hl : lidx_main_v12 (ix2 i d) k = ix2 i k :=
      funext fun a => Fin.ext (by match a with | ⟨0, _⟩ => rfl | ⟨1, _⟩ => rfl)
    have hr : ridx_main_v12 (ix2 i d) k = ix2 k d :=
      funext fun a => Fin.ext (by match a with | ⟨0, _⟩ => rfl | ⟨1, _⟩ => rfl)
    rw [hl, hr, wv0_at]
  · match a with
    | ⟨0, _⟩ => rfl
    | ⟨1, _⟩ => show d.val % 64 = d.val; omega

/-- The variance at (i, d): the inlined softplus of the pre-activation, times f32(0.1), plus f32(1e-6). -/
theorem var0_at (xs : Fea) (x6 : Wts) (x7 : Bs) (i : Fin 1024) (d : Fin 64) :
    val_main_v22 (F := Ideal) xs x6 x7 (ix2 i d) = Cert.IB.varR (matOf xs) (Cert.IB.wOf x6 (0 : Fin 3)) (Cert.IB.bOf x7 (0 : Fin 3)) i d := by
  rw [val_main_v22_apply, val_main_v20_apply, val_main_v21_apply, val_main_cst_0_apply, val_main_v19_apply, val_main_cst_apply, val_main_v18_apply,
    val_main_call0_v4_apply, val_main_call0_v6_apply, val_main_call0_v11_apply, val_main_call0_v1_apply, val_main_call0_v10_apply,
    val_main_call0_v9_apply, val_main_call0_v8_apply, val_main_call0_v7_apply, val_main_call0_v3_apply, val_main_call0_v0_apply,
    val_main_call0_v2_apply, val_main_call0_v5_apply, val_main_call0_cst_apply,
    pre0_at]
  exact var_closed _

/-- The positive term at (i, d): minus the distance of the mean from the reference feature, over the variance. -/
theorem pos0_at (xr xs : Fea) (x4 : Wts) (x5 : Bs) (x6 : Wts) (x7 : Bs) (i : Fin 1024) (d : Fin 64) :
    val_main_v26 (F := Ideal) xr xs x4 x5 x6 x7 (ix2 i d)
      = Cert.IB.posR (matOf xs) (matOf xr) (Cert.IB.wOf x4 (0 : Fin 3)) (Cert.IB.bOf x5 (0 : Fin 3)) (Cert.IB.wOf x6 (0 : Fin 3)) (Cert.IB.bOf x7 (0 : Fin 3)) i d := by
  rw [val_main_v26_apply, val_main_v25_apply, val_main_v24_apply, val_main_v23_apply, mu0_at, var0_at]
  rfl

/-- One summand of the negative term: the two broadcasts to [1024, 1024, 64] read at (i, j, d) are the reference
    feature at (j, d) and the mean at (i, d). -/
theorem dist0_at (xr xs : Fea) (x4 : Wts) (x5 : Bs) (i j : Fin 1024) (d : Fin 64) :
    val_main_v32 (F := Ideal) xr xs x4 x5 (ix3 i j d)
      = Cert.IB.absE (matOf xr j d - Cert.IB.lin (matOf xs) (Cert.IB.wOf x4 (0 : Fin 3)) (Cert.IB.bOf x5 (0 : Fin 3)) i d) := by
  have ha : idx_main_v27 (idx_main_v29 (ix3 i j d)) = ix2 j d :=
    funext fun a => Fin.ext (by match a with | ⟨0, _⟩ => rfl | ⟨1, _⟩ => rfl)
  have hb : idx_main_v28 (idx_main_v30 (ix3 i j d)) = ix2 i d :=
    funext fun a => Fin.ext (by match a with | ⟨0, _⟩ => rfl | ⟨1, _⟩ => rfl)
  rw [val_main_v32_apply, val_main_v31_apply, val_main_v29_apply, val_main_v27_apply, val_main_v30_apply, val_main_v28_apply, ha, hb, mu0_at]
  rfl

/-- The negative term at (i, d): minus the mean over the 1024 samples j of the distances, over the variance. -/
theorem neg0_at (xr xs : Fea) (x4 : Wts) (x5 : Bs) (x6 : Wts) (x7 : Bs) (i : Fin 1024) (d : Fin 64) :
    val_main_v37 (F := Ideal) xr xs x4 x5 x6 x7 (ix2 i d)
      = Cert.IB.negR (matOf xs) (matOf xr) (Cert.IB.wOf x4 (0 : Fin 3)) (Cert.IB.bOf x5 (0 : Fin 3)) (Cert.IB.wOf x6 (0 : Fin 3)) (Cert.IB.bOf x7 (0 : Fin 3)) i d := by
  have hs : ∀ j : Fin 1024, val_main_v32 (F := Ideal) xr xs x4 x5 (idx_main_v33 (ix2 i d) j)
      = Cert.IB.absE (matOf xr j d - Cert.IB.lin (matOf xs) (Cert.IB.wOf x4 (0 : Fin 3)) (Cert.IB.bOf x5 (0 : Fin 3)) i d) := fun j => by
    have h : idx_main_v33 (ix2 i d) j = ix3 i j d :=
      funext fun a => Fin.ext (by match a with | ⟨0, _⟩ => rfl | ⟨1, _⟩ => rfl | ⟨2, _⟩ => rfl)
    rw [h, dist0_at]
  rw [val_main_v37_apply, val_main_v36_apply, val_main_v35_apply, val_main_v33_apply, val_main_v34_apply, val_main_cst_2_apply, val_main_cst_1_apply, var0_at,
    Finset.sum_congr rfl fun j _ => hs j, Ideal.ofBits_def, Ideal.ofBits_zero_f32]
  rfl

/-- One sample's row: the sum over the 64 features of the positive terms minus that of the negative terms. -/
theorem row0_at (xr xs : Fea) (x4 : Wts) (x5 : Bs) (x6 : Wts) (x7 : Bs) (i : Fin 1024) :
    val_main_v40 (F := Ideal) xr xs x4 x5 x6 x7 (ix1 i)
      = (0 + ∑ d : Fin 64, Cert.IB.posR (matOf xs) (matOf xr) (Cert.IB.wOf x4 (0 : Fin 3)) (Cert.IB.bOf x5 (0 : Fin 3)) (Cert.IB.wOf x6 (0 : Fin 3)) (Cert.IB.bOf x7 (0 : Fin 3)) i d)
        - (0 + ∑ d : Fin 64, Cert.IB.negR (matOf xs) (matOf xr) (Cert.IB.wOf x4 (0 : Fin 3)) (Cert.IB.bOf x5 (0 : Fin 3)) (Cert.IB.wOf x6 (0 : Fin 3)) (Cert.IB.bOf x7 (0 : Fin 3)) i d) := by
  have hp : ∀ d : Fin 64, val_main_v26 (F := Ideal) xr xs x4 x5 x6 x7 (idx_main_v38 (ix1 i) d)
      = Cert.IB.posR (matOf xs) (matOf xr) (Cert.IB.wOf x4 (0 : Fin 3)) (Cert.IB.bOf x5 (0 : Fin 3)) (Cert.IB.wOf x6 (0 : Fin 3)) (Cert.IB.bOf x7 (0 : Fin 3)) i d := fun d => by
    have h : idx_main_v38 (ix1 i) d = ix2 i d :=
      funext fun a => Fin.ext (by match a with | ⟨0, _⟩ => rfl | ⟨1, _⟩ => rfl)
    rw [h, pos0_at]
  have hn : ∀ d : Fin 64, val_main_v37 (F := Ideal) xr xs x4 x5 x6 x7 (idx_main_v39 (ix1 i) d)
      = Cert.IB.negR (matOf xs) (matOf xr) (Cert.IB.wOf x4 (0 : Fin 3)) (Cert.IB.bOf x5 (0 : Fin 3)) (Cert.IB.wOf x6 (0 : Fin 3)) (Cert.IB.bOf x7 (0 : Fin 3)) i d := fun d => by
    have h : idx_main_v39 (ix1 i) d = ix2 i d :=
      funext fun a => Fin.ext (by match a with | ⟨0, _⟩ => rfl | ⟨1, _⟩ => rfl)
    rw [h, neg0_at]
  rw [val_main_v40_apply, val_main_v38_apply, val_main_v39_apply, val_main_cst_3_apply, val_main_cst_4_apply,
    Finset.sum_congr rfl fun d _ => hp d, Finset.sum_congr rfl fun d _ => hn d, Ideal.ofBits_def, Ideal.ofBits_zero_f32]
  rfl

/-- The layer's scalar: the mean over the 1024 samples of the rows. -/
theorem layer0_eq (xr xs : Fea) (x4 : Wts) (x5 : Bs) (x6 : Wts) (x7 : Bs) :
    val_main_v42 (F := Ideal) xr xs x4 x5 x6 x7
      = fun _ => Cert.IB.layerR (matOf xs) (matOf xr) (Cert.IB.wOf x4 (0 : Fin 3)) (Cert.IB.bOf x5 (0 : Fin 3)) (Cert.IB.wOf x6 (0 : Fin 3)) (Cert.IB.bOf x7 (0 : Fin 3)) := by
  funext j
  rw [val_main_v42_apply, val_main_v41_apply, val_main_cst_6_apply, val_main_cst_5_apply, sum_idx1,
    Finset.sum_congr rfl fun i _ => row0_at xr xs x4 x5 x6 x7 i, Ideal.ofBits_def, Ideal.ofBits_zero_f32]
  rfl

end Cert.ReferenceIdeal.RefValue

end
-- ==== Proof.RefLayer1.lean ====
/-
  The second layer of the reference, read one stage at a time (student features `xs`, reference features `xr`): its
  mean head is the specification's affine head `lin`, its variance head `varR`, its positive and negative terms `posR`
  and `negR`, and its scalar `layerR`. Every big intermediate stays symbolic: each stage is read at one index from its
  operands at one index, and a composed index map is identified with the plain coordinates it names.
-/
import proofs.«100973_j86681029968319_2_alg».proof.Proof.RefLib

noncomputable section

namespace Cert.ReferenceIdeal.RefValue

open Cert.ReferenceIdeal Cert.ReferenceIdeal.Read Idealize.ShloMosaic Idealize.ShloMosaic.ValueIdx

/-- The mean head's weight, sliced out of the stack, reshaped and transposed, at (k, d): entry (d, k) of the layer's
    weight (the reshape's row-major arithmetic `(64 d + k) / 64 = d`, `(64 d + k) % 64 = k`). -/
theorem wm1_at (x4 : Wts) (k d : Fin 64) : val_main_v46 (F := Ideal) x4 (ix2 k d) = x4 (ix3 (1 : Fin 3) d k) := by
  rw [val_main_v46_apply, val_main_v45_apply, val_main_v44_apply]
  refine congrArg x4 (funext fun a => Fin.ext ?_)
  match a with
  | ⟨0, _⟩ => rfl
  | ⟨1, _⟩ => show (d.val * 64 + k.val) / 64 % 64 = d.val; omega
  | ⟨2, _⟩ => show (d.val * 64 + k.val) % 64 = k.val; omega

/-- The mean head at (i, d): the contraction over the 64 input features plus the layer's bias row, broadcast. -/
theorem mu1_at (xs : Fea) (x4 : Wts) (x5 : Bs) (i : Fin 1024) (d : Fin 64) :
    val_main_v52 (F := Ideal) xs x4 x5 (ix2 i d) = Cert.IB.lin (matOf xs) (Cert.IB.wOf x4 (1 : Fin 3)) (Cert.IB.bOf x5 (1 : Fin 3)) i d := by
  rw [val_main_v52_apply, val_main_v47_apply, val_main_v51_apply, val_main_v50_apply, val_main_v49_apply, val_main_v48_apply]
  show (∑ k : Fin 64, _ * _) + _ = (∑ k : Fin 64, xs (ix2 i k) * x4 (ix3 (1 : Fin 3) d k)) + x5 (ix2 (1 : Fin 3) d)
  refine congrArg₂ (· + ·) (Finset.sum_congr rfl fun k _ => ?_) (congrArg x5 (funext fun a => Fin.ext ?_))
  · have hl : lidx_main_v47 (ix2 i d) k = ix2 i k :=
      funext fun a => Fin.ext (by match a with | ⟨0, _⟩ => rfl | ⟨1, _⟩ => rfl)
    have hr : ridx_main_v47 (ix2 i d) k = ix2 k d :=
      funext fun a => Fin.ext (by match a with | ⟨0, _⟩ => rfl | ⟨1, _⟩ => rfl)
    rw [hl, hr, wm1_at]
  · match a with
    | ⟨0, _⟩ => rfl
    | ⟨1, _⟩ => show d.val % 64 = d.val; omega

/-- The variance head's weight at (k, d), as the mean head's. -/
theorem wv1_at (x6 : Wts) (k d : Fin 64) : val_main_v55 (F := Ideal) x6 (ix2 k d) = x6 (ix3 (1 : Fin 3) d k) := by
  rw [val_main_v55_apply, val_main_v54_apply, val_main_v53_apply]
  refine congrArg x6 (funext fun a => Fin.ext ?_)
  match a with
  | ⟨0, _⟩ => rfl
  | ⟨1, _⟩ => show (d.val * 64 + k.val) / 64 % 64 = d.val; omega
  | ⟨2, _⟩ => show (d.val * 64 + k.val) % 64 = k.val; omega

/-- The variance head's pre-activation at (i, d). -/
theorem pre1_at (xs : Fea) (x6 : Wts) (x7 : Bs) (i : Fin 1024) (d : Fin 64) :
    val_main_v61 (F := Ideal) xs x6 x7 (ix2 i d) = Cert.IB.lin (matOf xs) (Cert.IB.wOf x6 (1 : Fin 3)) (Cert.IB.bOf x7 (1 : Fin 3)) i d := by
  rw [val_main_v61_apply, val_main_v56_apply, val_main_v60_apply, val_main_v59_apply, val_main_v58_apply, val_main_v57_apply]
  show (∑ k : Fin 64, _ * _) + _ = (∑ k : Fin 64, xs (ix2 i k) * x6 (ix3 (1 : Fin 3) d k)) + x7 (ix2 (1 : Fin 3) d)
  refine congrArg₂ (· + ·) (Finset.sum_congr rfl fun k _ => ?_) (congrArg x7 (funext fun a => Fin.ext ?_))
  · have hl : lidx_main_v56 (ix2 i d) k = ix2 i k :=
      funext fun a => Fin.ext (by match a with | ⟨0, _⟩ => rfl | ⟨1, _⟩ => rfl)
    have hr : ridx_main_v56 (ix2 i d) k = ix2 k d :=
      funext fun a => Fin.ext (by match a with | ⟨0, _⟩ => rfl | ⟨1, _⟩ => rfl)
    rw [hl, hr, wv1_at]
  · match a with
    | ⟨0, _⟩ => rfl
    | ⟨1, _⟩ => show d.val % 64 = d.val; omega

/-- The variance at (i, d): the inlined softplus of the pre-activation, times f32(0.1), plus f32(1e-6). -/
theorem var1_at (xs : Fea) (x6 : Wts) (x7 : Bs) (i : Fin 1024) (d : Fin 64) :
    val_main_v66 (F := Ideal) xs x6 x7 (ix2 i d) = Cert.IB.varR (matOf xs) (Cert.IB.wOf x6 (1 : Fin 3)) (Cert.IB.bOf x7 (1 : Fin 3)) i d := by
  rw [val_main_v66_apply, val_main_v64_apply, val_main_v65_apply, val_main_cst_9_apply, val_main_v63_apply, val_main_cst_8_apply, val_main_v62_apply,
    val_main_call1_v4_apply, val_main_call1_v6_apply, val_main_call1_v11_apply, val_main_call1_v1_apply, val_main_call1_v10_apply,
    val_main_call1_v9_apply, val_main_call1_v8_apply, val_main_call1_v7_apply, val_main_call1_v3_apply, val_main_call1_v0_apply,
    val_main_call1_v2_apply, val_main_call1_v5_apply, val_main_call1_cst_apply,
    pre1_at]
  exact var_closed _

/-- The positive term at (i, d): minus the distance of the mean from the reference feature, over the variance. -/
theorem pos1_at (xr xs : Fea) (x4 : Wts) (x5 : Bs) (x6 : Wts) (x7 : Bs) (i : Fin 1024) (d : Fin 64) :
    val_main_v70 (F := Ideal) xr xs x4 x5 x6 x7 (ix2 i d)
      = Cert.IB.posR (matOf xs) (matOf xr) (Cert.IB.wOf x4 (1 : Fin 3)) (Cert.IB.bOf x5 (1 : Fin 3)) (Cert.IB.wOf x6 (1 : Fin 3)) (Cert.IB.bOf x7 (1 : Fin 3)) i d := by
  rw [val_main_v70_apply, val_main_v69_apply, val_main_v68_apply, val_main_v67_apply, mu1_at, var1_at]
  rfl

/-- One summand of the negative term: the two broadcasts to [1024, 1024, 64] read at (i, j, d) are the reference
    feature at (j, d) and the mean at (i, d). -/
theorem dist1_at (xr xs : Fea) (x4 : Wts) (x5 : Bs) (i j : Fin 1024) (d : Fin 64) :
    val_main_v76 (F := Ideal) xr xs x4 x5 (ix3 i j d)
      = Cert.IB.absE (matOf xr j d - Cert.IB.lin (matOf xs) (Cert.IB.wOf x4 (1 : Fin 3)) (Cert.IB.bOf x5 (1 : Fin 3)) i d) := by
  have ha : idx_main_v71 (idx_main_v73 (ix3 i j d)) = ix2 j d :=
    funext fun a => Fin.ext (by match a with | ⟨0, _⟩ => rfl | ⟨1, _⟩ => rfl)
  have hb : idx_main_v72 (idx_main_v74 (ix3 i j d)) = ix2 i d :=
    funext fun a => Fin.ext (by match a with | ⟨0, _⟩ => rfl | ⟨1, _⟩ => rfl)
  rw [val_main_v76_apply, val_main_v75_apply, val_main_v73_apply, val_main_v71_apply, val_main_v74_apply, val_main_v72_apply, ha, hb, mu1_at]
  rfl

/-- The negative term at (i, d): minus the mean over the 1024 samples j of the distances, over the variance. -/
theorem neg1_at (xr xs : Fea) (x4 : Wts) (x5 : Bs) (x6 : Wts) (x7 : Bs) (i : Fin 1024) (d : Fin 64) :
    val_main_v81 (F := Ideal) xr xs x4 x5 x6 x7 (ix2 i d)
      = Cert.IB.negR (matOf xs) (matOf xr) (Cert.IB.wOf x4 (1 : Fin 3)) (Cert.IB.bOf x5 (1 : Fin 3)) (Cert.IB.wOf x6 (1 : Fin 3)) (Cert.IB.bOf x7 (1 : Fin 3)) i d := by
  have hs : ∀ j : Fin 1024, val_main_v76 (F := Ideal) xr xs x4 x5 (idx_main_v77 (ix2 i d) j)
      = Cert.IB.absE (matOf xr j d - Cert.IB.lin (matOf xs) (Cert.IB.wOf x4 (1 : Fin 3)) (Cert.IB.bOf x5 (1 : Fin 3)) i d) := fun j => by
    have h : idx_main_v77 (ix2 i d) j = ix3 i j d :=
      funext fun a => Fin.ext (by match a with | ⟨0, _⟩ => rfl | ⟨1, _⟩ => rfl | ⟨2, _⟩ => rfl)
    rw [h, dist1_at]
  rw [val_main_v81_apply, val_main_v80_apply, val_main_v79_apply, val_main_v77_apply, val_main_v78_apply, val_main_cst_11_apply, val_main_cst_10_apply, var1_at,
    Finset.sum_congr rfl fun j _ => hs j, Ideal.ofBits_def, Ideal.ofBits_zero_f32]
  rfl

/-- One sample's row: the sum over the 64 features of the positive terms minus that of the negative terms. -/
theorem row1_at (xr xs : Fea) (x4 : Wts) (x5 : Bs) (x6 : Wts) (x7 : Bs) (i : Fin 1024) :
    val_main_v84 (F := Ideal) xr xs x4 x5 x6 x7 (ix1 i)
      = (0 + ∑ d : Fin 64, Cert.IB.posR (matOf xs) (matOf xr) (Cert.IB.wOf x4 (1 : Fin 3)) (Cert.IB.bOf x5 (1 : Fin 3)) (Cert.IB.wOf x6 (1 : Fin 3)) (Cert.IB.bOf x7 (1 : Fin 3)) i d)
        - (0 + ∑ d : Fin 64, Cert.IB.negR (matOf xs) (matOf xr) (Cert.IB.wOf x4 (1 : Fin 3)) (Cert.IB.bOf x5 (1 : Fin 3)) (Cert.IB.wOf x6 (1 : Fin 3)) (Cert.IB.bOf x7 (1 : Fin 3)) i d) := by
  have hp : ∀ d : Fin 64, val_main_v70 (F := Ideal) xr xs x4 x5 x6 x7 (idx_main_v82 (ix1 i) d)
      = Cert.IB.posR (matOf xs) (matOf xr) (Cert.IB.wOf x4 (1 : Fin 3)) (Cert.IB.bOf x5 (1 : Fin 3)) (Cert.IB.wOf x6 (1 : Fin 3)) (Cert.IB.bOf x7 (1 : Fin 3)) i d := fun d => by
    have h : idx_main_v82 (ix1 i) d = ix2 i d :=
      funext fun a => Fin.ext (by match a with | ⟨0, _⟩ => rfl | ⟨1, _⟩ => rfl)
    rw [h, pos1_at]
  have hn : ∀ d : Fin 64, val_main_v81 (F := Ideal) xr xs x4 x5 x6 x7 (idx_main_v83 (ix1 i) d)
      = Cert.IB.negR (matOf xs) (matOf xr) (Cert.IB.wOf x4 (1 : Fin 3)) (Cert.IB.bOf x5 (1 : Fin 3)) (Cert.IB.wOf x6 (1 : Fin 3)) (Cert.IB.bOf x7 (1 : Fin 3)) i d := fun d => by
    have h : idx_main_v83 (ix1 i) d = ix2 i d :=
      funext fun a => Fin.ext (by match a with | ⟨0, _⟩ => rfl | ⟨1, _⟩ => rfl)
    rw [h, neg1_at]
  rw [val_main_v84_apply, val_main_v82_apply, val_main_v83_apply, val_main_cst_12_apply, val_main_cst_13_apply,
    Finset.sum_congr rfl fun d _ => hp d, Finset.sum_congr rfl fun d _ => hn d, Ideal.ofBits_def, Ideal.ofBits_zero_f32]
  rfl

/-- The layer's scalar: the mean over the 1024 samples of the rows. -/
theorem layer1_eq (xr xs : Fea) (x4 : Wts) (x5 : Bs) (x6 : Wts) (x7 : Bs) :
    val_main_v86 (F := Ideal) xr xs x4 x5 x6 x7
      = fun _ => Cert.IB.layerR (matOf xs) (matOf xr) (Cert.IB.wOf x4 (1 : Fin 3)) (Cert.IB.bOf x5 (1 : Fin 3)) (Cert.IB.wOf x6 (1 : Fin 3)) (Cert.IB.bOf x7 (1 : Fin 3)) := by
  funext j
  rw [val_main_v86_apply, val_main_v85_apply, val_main_cst_15_apply, val_main_cst_14_apply, sum_idx1,
    Finset.sum_congr rfl fun i _ => row1_at xr xs x4 x5 x6 x7 i, Ideal.ofBits_def, Ideal.ofBits_zero_f32]
  rfl

end Cert.ReferenceIdeal.RefValue

end
-- ==== Proof.RefLayer2.lean ====
/-
  The third layer of the reference, read one stage at a time (student features `xs`, reference features `xr`): its
  mean head is the specification's affine head `lin`, its variance head `varR`, its positive and negative terms `posR`
  and `negR`, and its scalar `layerR`. Every big intermediate stays symbolic: each stage is read at one index from its
  operands at one index, and a composed index map is identified with the plain coordinates it names.
-/
import proofs.«100973_j86681029968319_2_alg».proof.Proof.RefLib

noncomputable section

namespace Cert.ReferenceIdeal.RefValue

open Cert.ReferenceIdeal Cert.ReferenceIdeal.Read Idealize.ShloMosaic Idealize.ShloMosaic.ValueIdx

/-- The mean head's weight, sliced out of the stack, reshaped and transposed, at (k, d): entry (d, k) of the layer's
    weight (the reshape's row-major arithmetic `(64 d + k) / 64 = d`, `(64 d + k) % 64 = k`). -/
theorem wm2_at (x4 : Wts) (k d : Fin 64) : val_main_v90 (F := Ideal) x4 (ix2 k d) = x4 (ix3 (2 : Fin 3) d k) := by
  rw [val_main_v90_apply, val_main_v89_apply, val_main_v88_apply]
  refine congrArg x4 (funext fun a => Fin.ext ?_)
  match a with
  | ⟨0, _⟩ => rfl
  | ⟨1, _⟩ => show (d.val * 64 + k.val) / 64 % 64 = d.val; omega
  | ⟨2, _⟩ => show (d.val * 64 + k.val) % 64 = k.val; omega

/-- The mean head at (i, d): the contraction over the 64 input features plus the layer's bias row, broadcast. -/
theorem mu2_at (xs : Fea) (x4 : Wts) (x5 : Bs) (i : Fin 1024) (d : Fin 64) :
    val_main_v96 (F := Ideal) xs x4 x5 (ix2 i d) = Cert.IB.lin (matOf xs) (Cert.IB.wOf x4 (2 : Fin 3)) (Cert.IB.bOf x5 (2 : Fin 3)) i d := by
  rw [val_main_v96_apply, val_main_v91_apply, val_main_v95_apply, val_main_v94_apply, val_main_v93_apply, val_main_v92_apply]
  show (∑ k : Fin 64, _ * _) + _ = (∑ k : Fin 64, xs (ix2 i k) * x4 (ix3 (2 : Fin 3) d k)) + x5 (ix2 (2 : Fin 3) d)
  refine congrArg₂ (· + ·) (Finset.sum_congr rfl fun k _ => ?_) (congrArg x5 (funext fun a => Fin.ext ?_))
  · have hl : lidx_main_v91 (ix2 i d) k = ix2 i k :=
      funext fun a => Fin.ext (by match a with | ⟨0, _⟩ => rfl | ⟨1, _⟩ => rfl)
    have hr : ridx_main_v91 (ix2 i d) k = ix2 k d :=
      funext fun a => Fin.ext (by match a with | ⟨0, _⟩ => rfl | ⟨1, _⟩ => rfl)
    rw [hl, hr, wm2_at]
  · match a with
    | ⟨0, _⟩ => rfl
    | ⟨1, _⟩ => show d.val % 64 = d.val; omega

/-- The variance head's weight at (k, d), as the mean head's. -/
theorem wv2_at (x6 : Wts) (k d : Fin 64) : val_main_v99 (F := Ideal) x6 (ix2 k d) = x6 (ix3 (2 : Fin 3) d k) := by
  rw [val_main_v99_apply, val_main_v98_apply, val_main_v97_apply]
  refine congrArg x6 (funext fun a => Fin.ext ?_)
  match a with
  | ⟨0, _⟩ => rfl
  | ⟨1, _⟩ => show (d.val * 64 + k.val) / 64 % 64 = d.val; omega
  | ⟨2, _⟩ => show (d.val * 64 + k.val) % 64 = k.val; omega

/-- The variance head's pre-activation at (i, d). -/
theorem pre2_at (xs : Fea) (x6 : Wts) (x7 : Bs) (i : Fin 1024) (d : Fin 64) :
    val_main_v105 (F := Ideal) xs x6 x7 (ix2 i d) = Cert.IB.lin (matOf xs) (Cert.IB.wOf x6 (2 : Fin 3)) (Cert.IB.bOf x7 (2 : Fin 3)) i d := by
  rw [val_main_v105_apply, val_main_v100_apply, val_main_v104_apply, val_main_v103_apply, val_main_v102_apply, val_main_v101_apply]
  show (∑ k : Fin 64, _ * _) + _ = (∑ k : Fin 64, xs (ix2 i k) * x6 (ix3 (2 : Fin 3) d k)) + x7 (ix2 (2 : Fin 3) d)
  refine congrArg₂ (· + ·) (Finset.sum_congr rfl fun k _ => ?_) (congrArg x7 (funext fun a => Fin.ext ?_))
  · have hl : lidx_main_v100 (ix2 i d) k = ix2 i k :=
      funext fun a => Fin.ext (by match a with | ⟨0, _⟩ => rfl | ⟨1, _⟩ => rfl)
    have hr : ridx_main_v100 (ix2 i d) k = ix2 k d :=
      funext fun a => Fin.ext (by match a with | ⟨0, _⟩ => rfl | ⟨1, _⟩ => rfl)
    rw [hl, hr, wv2_at]
  · match a with
    | ⟨0, _⟩ => rfl
    | ⟨1, _⟩ => show d.val % 64 = d.val; omega

/-- The variance at (i, d): the inlined softplus of the pre-activation, times f32(0.1), plus f32(1e-6). -/
theorem var2_at (xs : Fea) (x6 : Wts) (x7 : Bs) (i : Fin 1024) (d : Fin 64) :
    val_main_v110 (F := Ideal) xs x6 x7 (ix2 i d) = Cert.IB.varR (matOf xs) (Cert.IB.wOf x6 (2 : Fin 3)) (Cert.IB.bOf x7 (2 : Fin 3)) i d := by
  rw [val_main_v110_apply, val_main_v108_apply, val_main_v109_apply, val_main_cst_17_apply, val_main_v107_apply, val_main_cst_16_apply, val_main_v106_apply,
    val_main_call2_v4_apply, val_main_call2_v6_apply, val_main_call2_v11_apply, val_main_call2_v1_apply, val_main_call2_v10_apply,
    val_main_call2_v9_apply, val_main_call2_v8_apply, val_main_call2_v7_apply, val_main_call2_v3_apply, val_main_call2_v0_apply,
    val_main_call2_v2_apply, val_main_call2_v5_apply, val_main_call2_cst_apply,
    pre2_at]
  exact var_closed _

/-- The positive term at (i, d): minus the distance of the mean from the reference feature, over the variance. -/
theorem pos2_at (xr xs : Fea) (x4 : Wts) (x5 : Bs) (x6 : Wts) (x7 : Bs) (i : Fin 1024) (d : Fin 64) :
    val_main_v114 (F := Ideal) xr xs x4 x5 x6 x7 (ix2 i d)
      = Cert.IB.posR (matOf xs) (matOf xr) (Cert.IB.wOf x4 (2 : Fin 3)) (Cert.IB.bOf x5 (2 : Fin 3)) (Cert.IB.wOf x6 (2 : Fin 3)) (Cert.IB.bOf x7 (2 : Fin 3)) i d := by
  rw [val_main_v114_apply, val_main_v113_apply, val_main_v112_apply, val_main_v111_apply, mu2_at, var2_at]
  rfl

/-- One summand of the negative term: the two broadcasts to [1024, 1024, 64] read at (i, j, d) are the reference
    feature at (j, d) and the mean at (i, d). -/
theorem dist2_at (xr xs : Fea) (x4 : Wts) (x5 : Bs) (i j : Fin 1024) (d : Fin 64) :
    val_main_v120 (F := Ideal) xr xs x4 x5 (ix3 i j d)
      = Cert.IB.absE (matOf xr j d - Cert.IB.lin (matOf xs) (Cert.IB.wOf x4 (2 : Fin 3)) (Cert.IB.bOf x5 (2 : Fin 3)) i d) := by
  have ha : idx_main_v115 (idx_main_v117 (ix3 i j d)) = ix2 j d :=
    funext fun a => Fin.ext (by match a with | ⟨0, _⟩ => rfl | ⟨1, _⟩ => rfl)
  have hb : idx_main_v116 (idx_main_v118 (ix3 i j d)) = ix2 i d :=
    funext fun a => Fin.ext (by match a with | ⟨0, _⟩ => rfl | ⟨1, _⟩ => rfl)
  rw [val_main_v120_apply, val_main_v119_apply, val_main_v117_apply, val_main_v115_apply, val_main_v118_apply, val_main_v116_apply, ha, hb, mu2_at]
  rfl

/-- The negative term at (i, d): minus the mean over the 1024 samples j of the distances, over the variance. -/
theorem neg2_at (xr xs : Fea) (x4 : Wts) (x5 : Bs) (x6 : Wts) (x7 : Bs) (i : Fin 1024) (d : Fin 64) :
    val_main_v125 (F := Ideal) xr xs x4 x5 x6 x7 (ix2 i d)
      = Cert.IB.negR (matOf xs) (matOf xr) (Cert.IB.wOf x4 (2 : Fin 3)) (Cert.IB.bOf x5 (2 : Fin 3)) (Cert.IB.wOf x6 (2 : Fin 3)) (Cert.IB.bOf x7 (2 : Fin 3)) i d := by
  have hs : ∀ j : Fin 1024, val_main_v120 (F := Ideal) xr xs x4 x5 (idx_main_v121 (ix2 i d) j)
      = Cert.IB.absE (matOf xr j d - Cert.IB.lin (matOf xs) (Cert.IB.wOf x4 (2 : Fin 3)) (Cert.IB.bOf x5 (2 : Fin 3)) i d) := fun j => by
    have h : idx_main_v121 (ix2 i d) j = ix3 i j d :=
      funext fun a => Fin.ext (by match a with | ⟨0, _⟩ => rfl | ⟨1, _⟩ => rfl | ⟨2, _⟩ => rfl)
    rw [h, dist2_at]
  rw [val_main_v125_apply, val_main_v124_apply, val_main_v123_apply, val_main_v121_apply, val_main_v122_apply, val_main_cst_19_apply, val_main_cst_18_apply, var2_at,
    Finset.sum_congr rfl fun j _ => hs j, Ideal.ofBits_def, Ideal.ofBits_zero_f32]
  rfl

/-- One sample's row: the sum over the 64 features of the positive terms minus that of the negative terms. -/
theorem row2_at (xr xs : Fea) (x4 : Wts) (x5 : Bs) (x6 : Wts) (x7 : Bs) (i : Fin 1024) :
    val_main_v128 (F := Ideal) xr xs x4 x5 x6 x7 (ix1 i)
      = (0 + ∑ d : Fin 64, Cert.IB.posR (matOf xs) (matOf xr) (Cert.IB.wOf x4 (2 : Fin 3)) (Cert.IB.bOf x5 (2 : Fin 3)) (Cert.IB.wOf x6 (2 : Fin 3)) (Cert.IB.bOf x7 (2 : Fin 3)) i d)
        - (0 + ∑ d : Fin 64, Cert.IB.negR (matOf xs) (matOf xr) (Cert.IB.wOf x4 (2 : Fin 3)) (Cert.IB.bOf x5 (2 : Fin 3)) (Cert.IB.wOf x6 (2 : Fin 3)) (Cert.IB.bOf x7 (2 : Fin 3)) i d) := by
  have hp : ∀ d : Fin 64, val_main_v114 (F := Ideal) xr xs x4 x5 x6 x7 (idx_main_v126 (ix1 i) d)
      = Cert.IB.posR (matOf xs) (matOf xr) (Cert.IB.wOf x4 (2 : Fin 3)) (Cert.IB.bOf x5 (2 : Fin 3)) (Cert.IB.wOf x6 (2 : Fin 3)) (Cert.IB.bOf x7 (2 : Fin 3)) i d := fun d => by
    have h : idx_main_v126 (ix1 i) d = ix2 i d :=
      funext fun a => Fin.ext (by match a with | ⟨0, _⟩ => rfl | ⟨1, _⟩ => rfl)
    rw [h, pos2_at]
  have hn : ∀ d : Fin 64, val_main_v125 (F := Ideal) xr xs x4 x5 x6 x7 (idx_main_v127 (ix1 i) d)
      = Cert.IB.negR (matOf xs) (matOf xr) (Cert.IB.wOf x4 (2 : Fin 3)) (Cert.IB.bOf x5 (2 : Fin 3)) (Cert.IB.wOf x6 (2 : Fin 3)) (Cert.IB.bOf x7 (2 : Fin 3)) i d := fun d => by
    have h : idx_main_v127 (ix1 i) d = ix2 i d :=
      funext fun a => Fin.ext (by match a with | ⟨0, _⟩ => rfl | ⟨1, _⟩ => rfl)
    rw [h, neg2_at]
  rw [val_main_v128_apply, val_main_v126_apply, val_main_v127_apply, val_main_cst_20_apply, val_main_cst_21_apply,
    Finset.sum_congr rfl fun d _ => hp d, Finset.sum_congr rfl fun d _ => hn d, Ideal.ofBits_def, Ideal.ofBits_zero_f32]
  rfl

/-- The layer's scalar: the mean over the 1024 samples of the rows. -/
theorem layer2_eq (xr xs : Fea) (x4 : Wts) (x5 : Bs) (x6 : Wts) (x7 : Bs) :
    val_main_v130 (F := Ideal) xr xs x4 x5 x6 x7
      = fun _ => Cert.IB.layerR (matOf xs) (matOf xr) (Cert.IB.wOf x4 (2 : Fin 3)) (Cert.IB.bOf x5 (2 : Fin 3)) (Cert.IB.wOf x6 (2 : Fin 3)) (Cert.IB.bOf x7 (2 : Fin 3)) := by
  funext j
  rw [val_main_v130_apply, val_main_v129_apply, val_main_cst_23_apply, val_main_cst_22_apply, sum_idx1,
    Finset.sum_congr rfl fun i _ => row2_at xr xs x4 x5 x6 x7 i, Ideal.ofBits_def, Ideal.ofBits_zero_f32]
  rfl

end Cert.ReferenceIdeal.RefValue

end
-- ==== Proof.RefValue.lean ====
/-
  The reference's result is the specification's closed form `R`: the running total starts at zero and adds the three
  layers' scalars in order, and each layer's scalar is `layerR` of its own student and reference features, weights
  and biases.
-/
import proofs.«100973_j86681029968319_2_alg».proof.Proof.RefLayer0
import proofs.«100973_j86681029968319_2_alg».proof.Proof.RefLayer1
import proofs.«100973_j86681029968319_2_alg».proof.Proof.RefLayer2

noncomputable section

namespace Cert.ReferenceIdeal.RefValue

open Cert.ReferenceIdeal Cert.ReferenceIdeal.Read Idealize.ShloMosaic Idealize.ShloMosaic.ValueIdx

/-- The reference program's result, as a function of its eight argument arrays, is `R` of those arrays read as the
    specification's inputs. -/
theorem ref_is_R
    (x0 x1 x2 x3 : (⟨Cert.ReferenceIdeal.S1024x64, .f32⟩ : BufTy).Contents (Elt Ideal)) (x4 : (⟨Cert.ReferenceIdeal.S3x64x64, .f32⟩ : BufTy).Contents (Elt Ideal))
    (x5 : (⟨Cert.ReferenceIdeal.S3x64, .f32⟩ : BufTy).Contents (Elt Ideal)) (x6 : (⟨Cert.ReferenceIdeal.S3x64x64, .f32⟩ : BufTy).Contents (Elt Ideal)) (x7 : (⟨Cert.ReferenceIdeal.S3x64, .f32⟩ : BufTy).Contents (Elt Ideal)) :
    Cert.ReferenceIdeal.Read.val_main_v131 (F := Ideal) x0 x1 x2 x3 x4 x5 x6 x7
      = fun _ => Cert.IB.R (Cert.IB.feaOf x0 x1 x2 x3) (Cert.IB.wOf x4) (Cert.IB.wOf x6) (Cert.IB.bOf x5) (Cert.IB.bOf x7) := by
  funext j
  rw [val_main_v131_apply, val_main_v87_apply, val_main_v43_apply, val_main_cst_7_apply,
    layer0_eq, layer1_eq, layer2_eq, Ideal.ofBits_def, Ideal.ofBits_zero_f32]
  rfl

end Cert.ReferenceIdeal.RefValue

end
-- ==== Proof.Algebra1.lean ====
/-
  Elementary facts on the extended reals used to compare the two arrangements: the four literals as reals,
  the coercion of a finite real sum, the absolute value, softplus and the variance head at a real argument,
  and a quotient of reals.
-/
import proofs.«100973_j86681029968319_2_alg».proof.Proof.Spec

noncomputable section

namespace Cert.IB

open Idealize.ShloMosaic

/-! ## The literals -/

/-- The pattern of `1024.0` denotes the real `1024`. -/
theorem cN_eq : cN = ((1024 : ℝ) : EReal) := by
  simp [cN, Ideal.ofBits, Ideal.ieee, -EReal.coe_mul]; norm_num

/-- The pattern of `2⁻¹⁰` denotes the real `1 / 1024`. -/
theorem cInvN_eq : cInvN = ((1 / 1024 : ℝ) : EReal) := by
  simp [cInvN, Ideal.ofBits, Ideal.ieee, -EReal.coe_mul]; norm_num

/-- The pattern of `f32(0.1)` denotes the dyadic rational `13421773 · 2⁻²⁷`. -/
theorem c10_eq : c10 = ((13421773 / 134217728 : ℝ) : EReal) := by
  simp [c10, Ideal.ofBits, Ideal.ieee, -EReal.coe_mul]; norm_num

/-- The pattern of `f32(1e-6)` denotes the dyadic rational `8796093 · 2⁻⁴³`. -/
theorem cEps_eq : cEps = ((8796093 / 8796093022208 : ℝ) : EReal) := by
  simp [cEps, Ideal.ofBits, Ideal.ieee, -EReal.coe_mul]; norm_num

/-! ## Coercions -/

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of extended reals that are all real is real. -/
theorem exists_real_sum {ι : Type*} [Fintype ι] (f : ι → EReal) (h : ∀ i, ∃ a : ℝ, f i = (a : EReal)) :
    ∃ a : ℝ, ∑ i, f i = (a : EReal) := by
  choose g hg using h
  exact ⟨∑ i, g i, by rw [coe_finset_sum]; exact Finset.sum_congr rfl fun i _ => hg i⟩

/-- The coercion commutes with the maximum. -/
theorem coe_max (a b : ℝ) : max (a : EReal) (b : EReal) = ((max a b : ℝ) : EReal) :=
  (EReal.coe_strictMono.monotone.map_max).symm

/-- The absolute value at a real. -/
theorem absE_coe (a : ℝ) : absE (a : EReal) = ((max a (-a) : ℝ) : EReal) := by
  rw [absE, ← EReal.coe_neg, coe_max]

/-- A quotient of reals with a nonzero divisor is the real quotient. -/
theorem div_coe_coe (a b : ℝ) (hb : b ≠ 0) : Ideal.div (a : EReal) (b : EReal) = ((a / b : ℝ) : EReal) := by
  rw [Ideal.div_coe hb, ← EReal.coe_mul, mul_one_div]

/-! ## softplus and the variance head -/

/-- softplus at a real argument: both spellings give the same real, and it is positive: `max z 0 ≥ 0` and
    `log (1 + e^{-|z|}) > 0`. -/
theorem softplus_coe (z : ℝ) :
    ∃ s : ℝ, 0 < s ∧ softplusK (z : EReal) = (s : EReal) ∧ softplusR (z : EReal) = (s : EReal) := by
  have h1 : ¬ (1 + Real.exp (-(max z (-z))) ≤ 0) := not_le.mpr (by positivity)
  have hR : softplusR (z : EReal) = ((max z 0 + Real.log (1 + Real.exp (-(max z (-z)))) : ℝ) : EReal) := by
    rw [softplusR, ← EReal.coe_zero, ← EReal.coe_sub, sub_zero, absE_coe, ← EReal.coe_neg, Ideal.exp_coe, Ideal.log1p,
      ← EReal.coe_one, ← EReal.coe_add, Ideal.log_coe, if_neg h1, coe_max, ← EReal.coe_add]
  have hK : softplusK (z : EReal) = softplusR (z : EReal) := by
    rw [softplusK, softplusR, zero_sub]
  refine ⟨max z 0 + Real.log (1 + Real.exp (-(max z (-z)))), ?_, hK.trans hR, hR⟩
  have h2 : 0 < Real.log (1 + Real.exp (-(max z (-z)))) :=
    Real.log_pos (by linarith [Real.exp_pos (-(max z (-z)))])
  exact add_pos_of_nonneg_of_pos (le_max_right _ _) h2

/-- The variance head at a real argument: both spellings give the same positive real. -/
theorem var_coe (z : ℝ) :
    ∃ v : ℝ, 0 < v ∧ softplusK (z : EReal) * c10 + cEps = (v : EReal) ∧
      softplusR (z : EReal) * c10 + cEps = (v : EReal) := by
  obtain ⟨s, hs, hK, hR⟩ := softplus_coe z
  refine ⟨s * (13421773 / 134217728) + 8796093 / 8796093022208, by positivity, ?_, ?_⟩
  · rw [hK, c10_eq, cEps_eq, ← EReal.coe_mul, ← EReal.coe_add]
  · rw [hR, c10_eq, cEps_eq, ← EReal.coe_mul, ← EReal.coe_add]

/-- The affine head of real inputs is real. -/
theorem lin_real (x : Mat) (W : Wt) (b : Bias) (i : Fin 1024) (d : Fin 64)
    (hx : ∀ k, ∃ a : ℝ, x i k = (a : EReal)) (hW : ∀ k, ∃ a : ℝ, W d k = (a : EReal))
    (hb : ∃ a : ℝ, b d = (a : EReal)) : ∃ m : ℝ, lin x W b i d = (m : EReal) := by
  obtain ⟨β, hβ⟩ := hb
  obtain ⟨s, hs⟩ := exists_real_sum (fun k => x i k * W d k) (fun k => by
    obtain ⟨a, ha⟩ := hx k
    obtain ⟨w, hw⟩ := hW k
    exact ⟨a * w, by rw [ha, hw, EReal.coe_mul]⟩)
  exact ⟨s + β, by rw [lin, hs, hβ, EReal.coe_add]⟩

end Cert.IB

end
-- ==== Proof.Algebra2.lean ====
/-
  The kernel meets the 1024 samples as 8 chunks of 64 packed rows, each holding an even and an odd sample:
  sample `2·(64·c + p) + h`.  Summing the even half and the odd half chunk by chunk is summing over all
  samples, in any commutative monoid (so on the extended reals with no finiteness needed).
-/
import proofs.«100973_j86681029968319_2_alg».proof.Proof.Spec

noncomputable section

namespace Cert.IB

open Idealize.ShloMosaic

/-- `(c, p, h) ↦ 2·(64·c + p) + h` as a bijection of `(Fin 8 × Fin 64) × Fin 2` with `Fin 1024`. -/
def pairEquiv : (Fin 8 × Fin 64) × Fin 2 ≃ Fin 1024 :=
  ((finProdFinEquiv (m := 8) (n := 64)).prodCongr (Equiv.refl (Fin 2))).trans
    (finProdFinEquiv (m := 8 * 64) (n := 2))

theorem pairEquiv_apply (c : Fin 8) (p : Fin 64) (h : Fin 2) : pairEquiv ((c, p), h) = pairRow c p h := by
  apply Fin.ext
  simp [pairEquiv, pairRow, finProdFinEquiv]
  omega

/-- The sum over the even samples plus the sum over the odd samples, each chunk by chunk, is the sum over all samples. -/
theorem sum_pairRow {M : Type*} [AddCommMonoid M] (f : Fin 1024 → M) :
    (∑ c : Fin 8, ∑ p : Fin 64, f (pairRow c p 0)) + (∑ c : Fin 8, ∑ p : Fin 64, f (pairRow c p 1))
      = ∑ j : Fin 1024, f j := by
  rw [← Equiv.sum_comp pairEquiv f, Fintype.sum_prod_type, Fintype.sum_prod_type, ← Finset.sum_add_distrib]
  refine Finset.sum_congr rfl fun c _ => ?_
  rw [← Finset.sum_add_distrib]
  refine Finset.sum_congr rfl fun p _ => ?_
  rw [Fin.sum_univ_two, pairEquiv_apply, pairEquiv_apply]

/-- The two half sums of the kernel add up to the reference's sum over all samples. -/
theorem halfSum_add (r : Mat) (mu : EReal) (d : Fin 64) :
    halfSum r mu d 0 + halfSum r mu d 1 = ∑ j : Fin 1024, absE (r j d - mu) :=
  sum_pairRow (fun j => absE (r j d - mu))

end Cert.IB

end
-- ==== Proof.Algebra3.lean ====
/-
  One layer.  With real inputs the mean head, the reference features and the variance head are reals, the
  variance positive; so the kernel's and the reference's positive terms are one real, their negative terms one
  real, the kernel's row is the real `∑ d (pos − neg)`, and the reference's layer term is the mean of those rows
  (a sum of differences of reals is the difference of the sums).
-/
import proofs.«100973_j86681029968319_2_alg».proof.Proof.Algebra1
import proofs.«100973_j86681029968319_2_alg».proof.Proof.Algebra2

noncomputable section

namespace Cert.IB

open Idealize.ShloMosaic

/-- The positive term at reals `m` (mean head), `ρ` (reference feature), `v > 0` (variance): both spellings. -/
theorem pos_coe (m ρ v : ℝ) (hv : 0 < v) :
    Ideal.div (0 - absE ((m : EReal) - (ρ : EReal))) (v : EReal)
        = ((-(max (m - ρ) (-(m - ρ))) / v : ℝ) : EReal) ∧
      Ideal.div (-(absE ((m : EReal) - (ρ : EReal)))) (v : EReal)
        = ((-(max (m - ρ) (-(m - ρ))) / v : ℝ) : EReal) := by
  have h : Ideal.div (-(absE ((m : EReal) - (ρ : EReal)))) (v : EReal)
      = ((-(max (m - ρ) (-(m - ρ))) / v : ℝ) : EReal) := by
    rw [← EReal.coe_sub, absE_coe, ← EReal.coe_neg, div_coe_coe _ _ hv.ne']
  exact ⟨by rw [zero_sub]; exact h, h⟩

/-- The negative term at a real sum `S` of absolute differences and a variance `v > 0`: the kernel's product with
    `2⁻¹⁰` and the reference's quotient by `1024` are one real. -/
theorem neg_coe (S v : ℝ) (hv : 0 < v) :
    Ideal.div (0 - (S : EReal) * cInvN) (v : EReal) = ((-(S / 1024) / v : ℝ) : EReal) ∧
      Ideal.div (-(Ideal.div (0 + (S : EReal)) cN)) (v : EReal) = ((-(S / 1024) / v : ℝ) : EReal) := by
  constructor
  · rw [cInvN_eq, zero_sub, ← EReal.coe_mul, ← EReal.coe_neg, div_coe_coe _ _ hv.ne', mul_one_div]
  · rw [cN_eq, zero_add, div_coe_coe _ _ (by norm_num), ← EReal.coe_neg, div_coe_coe _ _ hv.ne']

/-- One layer with real inputs: the kernel's rows are reals `A i`, and the reference's layer term is their mean. -/
theorem layer_real (x r : Mat) (Wm : Wt) (bm : Bias) (Wv : Wt) (bv : Bias)
    (hx : ∀ i k, ∃ a : ℝ, x i k = (a : EReal)) (hr : ∀ i k, ∃ a : ℝ, r i k = (a : EReal))
    (hWm : ∀ d k, ∃ a : ℝ, Wm d k = (a : EReal)) (hbm : ∀ d, ∃ a : ℝ, bm d = (a : EReal))
    (hWv : ∀ d k, ∃ a : ℝ, Wv d k = (a : EReal)) (hbv : ∀ d, ∃ a : ℝ, bv d = (a : EReal)) :
    ∃ A : Fin 1024 → ℝ, (∀ i, rowK x r Wm bm Wv bv i = (A i : EReal)) ∧
      layerR x r Wm bm Wv bv = (((∑ i, A i) / 1024 : ℝ) : EReal) := by
  -- the mean head, the reference features and the variance head as reals
  have hmu : ∀ i d, ∃ m : ℝ, lin x Wm bm i d = (m : EReal) :=
    fun i d => lin_real x Wm bm i d (hx i) (hWm d) (hbm d)
  choose m hm using hmu
  choose ρ hρ using hr
  have hvar : ∀ i d, ∃ v : ℝ, 0 < v ∧ varK x Wv bv i d = (v : EReal) ∧ varR x Wv bv i d = (v : EReal) := by
    intro i d
    obtain ⟨z, hz⟩ := lin_real x Wv bv i d (hx i) (hWv d) (hbv d)
    obtain ⟨v, hv, hK, hR⟩ := var_coe z
    exact ⟨v, hv, by rw [varK, hz, hK], by rw [varR, hz, hR]⟩
  choose v hv hvK hvR using hvar
  -- the positive and the negative terms as reals
  let P : Fin 1024 → Fin 64 → ℝ := fun i d => -(max (m i d - ρ i d) (-(m i d - ρ i d))) / v i d
  let S : Fin 1024 → Fin 64 → ℝ := fun i d => ∑ j : Fin 1024, max (ρ j d - m i d) (-(ρ j d - m i d))
  let N : Fin 1024 → Fin 64 → ℝ := fun i d => -(S i d / 1024) / v i d
  have hS : ∀ i d, (∑ j : Fin 1024, absE (r j d - lin x Wm bm i d)) = (S i d : EReal) := by
    intro i d
    rw [coe_finset_sum]
    refine Finset.sum_congr rfl fun j _ => ?_
    rw [hm, hρ, ← EReal.coe_sub, absE_coe]
  have hPK : ∀ i d, posK x r Wm bm Wv bv i d = (P i d : EReal) := by
    intro i d
    rw [posK, hm, hρ, hvK]
    exact (pos_coe (m i d) (ρ i d) (v i d) (hv i d)).1
  have hPR : ∀ i d, posR x r Wm bm Wv bv i d = (P i d : EReal) := by
    intro i d
    rw [posR, hm, hρ, hvR]
    exact (pos_coe (m i d) (ρ i d) (v i d) (hv i d)).2
  have hNK : ∀ i d, negK x r Wm bm Wv bv i d = (N i d : EReal) := by
    intro i d
    rw [negK, halfSum_add, hS, hvK]
    exact (neg_coe (S i d) (v i d) (hv i d)).1
  have hNR : ∀ i d, negR x r Wm bm Wv bv i d = (N i d : EReal) := by
    intro i d
    rw [negR, hS, hvR]
    exact (neg_coe (S i d) (v i d) (hv i d)).2
  refine ⟨fun i => ∑ d : Fin 64, (P i d - N i d), ?_, ?_⟩
  · intro i
    rw [rowK, coe_finset_sum]
    refine Finset.sum_congr rfl fun d _ => ?_
    rw [hPK, hNK, EReal.coe_sub]
  · have hrow : ∀ i : Fin 1024,
        (0 + ∑ d : Fin 64, posR x r Wm bm Wv bv i d) - (0 + ∑ d : Fin 64, negR x r Wm bm Wv bv i d)
          = ((∑ d : Fin 64, (P i d - N i d) : ℝ) : EReal) := by
      intro i
      rw [zero_add, zero_add, Finset.sum_sub_distrib, EReal.coe_sub, coe_finset_sum, coe_finset_sum]
      congr 1
      · exact Finset.sum_congr rfl fun d _ => hPR i d
      · exact Finset.sum_congr rfl fun d _ => hNR i d
    rw [layerR, zero_add, cN_eq, Finset.sum_congr rfl fun i _ => hrow i, ← coe_finset_sum,
      div_coe_coe _ _ (by norm_num)]

end Cert.IB

end
-- ==== Proof.Algebra4.lean ====
/-
  The result.  With real inputs each layer's kernel rows are reals `A₀ i, A₁ i, A₂ i` and each layer term of the
  reference is the mean `(∑ i, A_l i) / 1024`; the kernel divides `∑ i (A₀ i + A₁ i + A₂ i)` by 1024 once, the
  reference adds the three means: equal in the reals, where a quotient distributes over a sum.
-/
import proofs.«100973_j86681029968319_2_alg».proof.Proof.Algebra3

noncomputable section

namespace Cert.IB

open Idealize.ShloMosaic

/-- The kernel's arrangement and the reference's arrangement agree whenever every input entry is a real number. -/
theorem K_eq_R (fea : Fin 4 → Mat) (Wm Wv : Fin 3 → Wt) (bm bv : Fin 3 → Bias) (h : Finite fea Wm Wv bm bv) :
    K fea Wm Wv bm bv = R fea Wm Wv bm bv := by
  obtain ⟨A0, hK0, hR0⟩ := layer_real (fea 1) (fea 0) (Wm 0) (bm 0) (Wv 0) (bv 0)
    (h.fea 1) (h.fea 0) (h.Wm 0) (h.bm 0) (h.Wv 0) (h.bv 0)
  obtain ⟨A1, hK1, hR1⟩ := layer_real (fea 2) (fea 1) (Wm 1) (bm 1) (Wv 1) (bv 1)
    (h.fea 2) (h.fea 1) (h.Wm 1) (h.bm 1) (h.Wv 1) (h.bv 1)
  obtain ⟨A2, hK2, hR2⟩ := layer_real (fea 3) (fea 2) (Wm 2) (bm 2) (Wv 2) (bv 2)
    (h.fea 3) (h.fea 2) (h.Wm 2) (h.bm 2) (h.Wv 2) (h.bv 2)
  have hout : ∀ i, outK fea Wm Wv bm bv i = ((A0 i + A1 i + A2 i : ℝ) : EReal) := by
    intro i
    rw [outK, hK0, hK1, hK2, zero_add, EReal.coe_add, EReal.coe_add]
  rw [K, R, hR0, hR1, hR2, zero_add, zero_add, Finset.sum_congr rfl fun i _ => hout i, ← coe_finset_sum, cN_eq,
    div_coe_coe _ _ (by norm_num), ← EReal.coe_add, ← EReal.coe_add]
  congr 1
  rw [Finset.sum_add_distrib, Finset.sum_add_distrib, add_div, add_div]

end Cert.IB

end
-- ==== Proof.FiniteInputs.lean ====
/-
  From the printed precondition to "every input entry is a real number".  The precondition is the conjunction, over
  the eight argument arrays, of `all (|x| < +∞)`; each `all` gives the comparison at every index, and an extended
  real whose absolute value `max a (-a)` is below `⊤` is neither `⊤` nor `⊥`, so it is a real.
-/
import proofs.«100973_j86681029968319_2_alg».proof.Pre_finite_inputs
import proofs.«100973_j86681029968319_2_alg».proof.Proof.Gen.Pre_finite_inputs
import proofs.«100973_j86681029968319_2_alg».proof.Proof.SpecIdx
import Idealize.ShloMosaic.Lib.ReduceAll
import Idealize.ShloMosaic.Lib.ValueIdx
import Idealize.ShloMosaic.PureOps.Ideal

noncomputable section

namespace Cert.IB

open Idealize.ShloMosaic Idealize.ShloMosaic.ValueIdx
open Cert.Pre_finite_inputs (S1024x64 S3x64x64 S3x64 S_)

/-- The rank-0 shape has one index. -/
instance subsingleton_S_ : Subsingleton S_.Idx := ⟨fun a b => funext fun d => d.elim0⟩

/-- The pattern `0x7F800000` denotes `+∞`. -/
theorem ofBits_inf : Ideal.ofBits .f32 0x7F800000#32 = ⊤ := by simp [Ideal.ofBits, Ideal.ieee]

/-- An extended real whose absolute value compares below `+∞` is a real: at `⊤` and at `⊥` the absolute value is `⊤`. -/
theorem real_of_abs_lt_inf (a : EReal)
    (h : Ideal.cmp .olt (max a (-a)) (Ideal.ofBits .f32 0x7F800000#32) = 1#1) : ∃ r : ℝ, a = (r : EReal) := by
  rw [ofBits_inf] at h
  unfold Ideal.cmp at h
  induction a using EReal.rec with
  | bot => simp at h
  | coe r => exact ⟨r, rfl⟩
  | top => simp at h

/-- One array: if `all (|x| < +∞)` holds, every entry of `x` is a real. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ix0 = 1#1)
    (i : s.Idx) : ∃ r : ℝ, x i = (r : EReal) := by
  have hi := Host.reduce_andi_all _ _ hr hu ix0 e i
  exact real_of_abs_lt_inf (x i) hi

/-- The printed precondition gives the specification's finiteness of the inputs read from the argument arrays. -/
theorem finite_of_pre [Cert.Pre_finite_inputs.Facts]
    (x0 x1 x2 x3 : FVec Ideal Cert.Pre_finite_inputs.S1024x64 .f32) (x4 : FVec Ideal Cert.Pre_finite_inputs.S3x64x64 .f32)
    (x5 : FVec Ideal Cert.Pre_finite_inputs.S3x64 .f32)
    (x6 : FVec Ideal Cert.Pre_finite_inputs.S3x64x64 .f32) (x7 : FVec Ideal Cert.Pre_finite_inputs.S3x64 .f32)
    (h : Cert.Pre_finite_inputs.fn (F := Ideal) x0 x1 x2 x3 x4 x5 x6 x7 = fun _ => 1#1) :
    Finite (feaOf x0 x1 x2 x3) (wOf x4) (wOf x6) (bOf x5) (bOf x7) := by
  have e := congrFun h ix0
  dsimp only [Cert.Pre_finite_inputs.fn, Cert.Pre_finite_inputs.fn_part1, Cert.Pre_finite_inputs.fn_part2, andi] at e
  simp only [IntOp.andi_eq_one] at e
  obtain ⟨⟨⟨⟨⟨⟨⟨e0, e1⟩, e2⟩, e3⟩, e4⟩, e5⟩, e6⟩, e7⟩ := e
  exact
    { fea := fun n i k =>
        match n with
        | 0 => all_real x0 _ _ _ e0 (ix2 i k)
        | 1 => all_real x1 _ _ _ e1 (ix2 i k)
        | 2 => all_real x2 _ _ _ e2 (ix2 i k)
        | 3 => all_real x3 _ _ _ e3 (ix2 i k)
      Wm := fun l d k => all_real x4 _ _ _ e4 (ix3 l d k)
      Wv := fun l d k => all_real x6 _ _ _ e6 (ix3 l d k)
      bm := fun l d => all_real x5 _ _ _ e5 (ix2 l d)
      bv := fun l d => all_real x7 _ _ _ e7 (ix2 l d) }

end Cert.IB

end
-- ==== Proof.lean ====
/-
  The proof of `Cert.Claim`: a Pallas kernel computing a three-layer information-bottleneck upper bound — per layer
  and sample, ∑ d ( −|mu − f_r| / var ) − ∑ d ( −mean_j |f_r[j] − mu| / var ), averaged over the 1024 samples and
  summed over the layers — against its jnp reference, on the extended reals.

  The three frames: the kernel's two (as printed, and idealized) are one hand-written frame proof read at the two
  instances — thirteen host lines, a pipelined region over an 8 × 3 grid whose output column accumulates over the
  layer axis, four host lines —; the reference's is its generated run with the result dropped.  The ideal pass
  rewrote nothing, so `preserves` is trivial.  For `algebraic`: the kernel's run ends with its result at the
  closed form `K` of the launch arrays (the frame run read back: the body's payloads at an index, the counted loop's
  eight chunk sums, the accumulation over grid points, the write-backs tiling the column, the host mean); the
  reference's generated run ends at `R` (its 196 host operations read one at a time); and `K = R` whenever every
  input entry is a real number, which is what the precondition says: both are the same finite sums of real terms,
  the kernel's taken in another order and grouping, its mean a product with 2⁻¹⁰ where the reference divides by 1024.
-/
import proofs.«100973_j86681029968319_2_alg».proof.Defs
import proofs.«100973_j86681029968319_2_alg».proof.Proof.Gen.Kernel
import proofs.«100973_j86681029968319_2_alg».proof.Proof.Gen.KernelIdeal
import proofs.«100973_j86681029968319_2_alg».proof.Proof.Gen.ReferenceIdeal
import proofs.«100973_j86681029968319_2_alg».proof.Proof.Gen.Pre_finite_inputs
import proofs.«100973_j86681029968319_2_alg».proof.Proof.Gen.ReferenceIdeal.Run
import proofs.«100973_j86681029968319_2_alg».proof.Proof.Gen.ReferenceIdeal.Read
import proofs.«100973_j86681029968319_2_alg».proof.Proof.FrameB
import proofs.«100973_j86681029968319_2_alg».proof.Proof.KernelRun
import proofs.«100973_j86681029968319_2_alg».proof.Proof.RefValue
import proofs.«100973_j86681029968319_2_alg».proof.Proof.Algebra4
import proofs.«100973_j86681029968319_2_alg».proof.Proof.FiniteInputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both idealized programs run, and end with equal results: the kernel's at
    `K` of the launch arrays, the reference's at `R` of the same arrays, and `K = R` on finite inputs. -/
theorem algebraic : Cert.algebraic_KernelIdeal_ReferenceIdeal := by
  intro m ρ m' ρ' hpre hagree
  refine ⟨fun c => Cert.KernelIdeal.Hand.resultK m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v131_eq, Cert.ReferenceIdeal.RefValue.ref_is_R, a0, a1, a2, a3, a4, a5, a6, a7]
  funext _
  exact (Cert.IB.K_eq_R _ _ _ _ _ (Cert.IB.finite_of_pre _ _ _ _ _ _ _ _ (hpre c))).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
